-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v117_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v117_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v187) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_v48 : IVec S_ 1) (main_v49 : FVec F S10 .f32) (main_v50 : FVec F S10 .f32) : IVec S_ 1 :=
  let main_v51 : IVec S10 1 := cmpf .olt main_v49 main_v50
  let main_c_19 : IVec S_ 1 := constantI S_ 1 1#1
  let main_v52 : IVec S_ 1 := (fun x v => Host.reduce IntOp.andi x v reducesTo_S10_S_d0 h_S_) main_v51 main_c_19
  let main_v53 : IVec S_ 1 := andi main_v48 main_v52
  main_v53

def fn_part2 {F : FTy → Type} [FloatOps F] (main_arg8 : FVec F S128 .f32) (main_arg9 : FVec F S128 .f32) (main_arg10 : FVec F S128x10 .f32) (main_arg11 : FVec F S10 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x10 .f32 := Host.absf main_arg10
  let main_cst_16 : FVec F S_ .f32 := constant S_ .f32 0x7F800000#32
  let main_v45 : FVec F S128x10 .f32 := broadcastInDim S128x10 ![] bcast_S_S128x10 main_cst_16
  let main_v46 : IVec S128x10 1 := cmpf .olt main_v44 main_v45
  let main_c_17 : IVec S_ 1 := constantI S_ 1 1#1
  let main_v47 : IVec S_ 1 := (fun x v => Host.reduce IntOp.andi x v reducesTo_S128x10_S_d0_1 h_S_) main_v46 main_c_17
  let main_v48 : IVec S_ 1 := andi main_v43 main_v47
  let main_v49 : FVec F S10 .f32 := Host.absf main_arg11
  let main_cst_18 : FVec F S_ .f32 := constant S_ .f32 0x7F800000#32
  let main_v50 : FVec F S10 .f32 := broadcastInDim S10 ![] bcast_S_S10 main_cst_18
  fn_part3 (F := F) main_v48 main_v49 main_v50

def fn_part1 {F : FTy → Type} [FloatOps F] (main_arg5 : FVec F S128 .f32) (main_arg6 : FVec F S128x128 .f32) (main_arg7 : FVec F S128 .f32) (main_arg8 : FVec F S128 .f32) (main_arg9 : FVec F S128 .f32) (main_arg10 : FVec F S128x10 .f32) (main_arg11 : FVec F S10 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x128 .f32) (main_arg1 : IVec S2x1600000 32) (main_arg2 : FVec F S128x128 .f32) (main_arg3 : FVec F S128 .f32) (main_arg4 : FVec F S128 .f32) (main_arg5 : FVec F S128 .f32) (main_arg6 : FVec F S128x128 .f32) (main_arg7 : FVec F S128 .f32) (main_arg8 : FVec F S128 .f32) (main_arg9 : FVec F S128 .f32) (main_arg10 : FVec F S128x10 .f32) (main_arg11 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S10000x128 : Shape := ⟨2, ![10000, 128]⟩
abbrev S1600000x128 : Shape := ⟨2, ![1600000, 128]⟩
abbrev S100000x1 : Shape := ⟨2, ![100000, 1]⟩
abbrev S1x128 : Shape := ⟨2, ![1, 128]⟩
abbrev S100000x10 : Shape := ⟨2, ![100000, 10]⟩
abbrev S10000x10 : Shape := ⟨2, ![10000, 10]⟩
abbrev S1600000x10 : Shape := ⟨2, ![1600000, 10]⟩
abbrev S1x10 : Shape := ⟨2, ![1, 10]⟩

abbrev nBuf : Space → Nat
  | .hbm => 158
  | .vmem => 54
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128, .f32⟩
  | 5 => ⟨S128, .f32⟩
  | 6 => ⟨S128x128, .f32⟩
  | 7 => ⟨S128, .f32⟩
  | 8 => ⟨S128, .f32⟩
  | 9 => ⟨S128, .f32⟩
  | 10 => ⟨S128x10, .f32⟩
  | 11 => ⟨S10, .f32⟩
  | 12 => ⟨S1x1600000, .i32⟩
  | 13 => ⟨S1600000, .i32⟩
  | 14 => ⟨S1x1600000, .i32⟩
  | 15 => ⟨S1600000, .i32⟩
  | 16 => ⟨S_, .f32⟩
  | 17 => ⟨S1600000, .f32⟩
  | 18 => ⟨S_, .f32⟩
  | 19 => ⟨S100000, .f32⟩
  | 20 => ⟨S1600000x1, .i32⟩
  | 21 => ⟨S100000, .f32⟩
  | 22 => ⟨S_, .f32⟩
  | 23 => ⟨S100000, .f32⟩
  | 24 => ⟨S100000, .f32⟩
  | 25 => ⟨S100000, .f32⟩
  | 26 => ⟨S_, .i32⟩
  | 27 => ⟨S1600000, .i32⟩
  | 28 => ⟨S1600000, .i1⟩
  | 29 => ⟨S_, .i32⟩
  | 30 => ⟨S1600000, .i32⟩
  | 31 => ⟨S1600000, .i32⟩
  | 32 => ⟨S1600000, .i32⟩
  | 33 => ⟨S1600000x1, .i32⟩
  | 34 => ⟨S1600000, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000, .f32⟩
  | 44 => ⟨S1600000, .f32⟩
  | 45 => ⟨S100000, .f32⟩
  | 46 => ⟨S100000x128, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1600000x128, .f32⟩
  | 56 => ⟨S1600000x1, .f32⟩
  | 57 => ⟨S1600000x128, .f32⟩
  | 58 => ⟨S1600000x128, .f32⟩
  | 59 => ⟨S_, .f32⟩
  | 60 => ⟨S100000x128, .f32⟩
  | 61 => ⟨S1600000x1, .i32⟩
  | 62 => ⟨S100000x128, .f32⟩
  | 63 => ⟨S100000x1, .f32⟩
  | 64 => ⟨S100000x128, .f32⟩
  | 65 => ⟨S100000x128, .f32⟩
  | 66 => ⟨S1x128, .f32⟩
  | 67 => ⟨S100000x128, .f32⟩
  | 68 => ⟨S1x128, .f32⟩
  | 69 => ⟨S1x128, .f32⟩
  | 70 => ⟨S128, .f32⟩
  | 71 => ⟨S_, .f32⟩
  | 72 => ⟨S128, .f32⟩
  | 73 => ⟨S128, .f32⟩
  | 74 => ⟨S128, .f32⟩
  | 75 => ⟨S_, .f32⟩
  | 76 => ⟨S128, .f32⟩
  | 77 => ⟨S128, .f32⟩
  | 78 => ⟨S128, .f32⟩
  | 79 => ⟨S128, .f32⟩
  | 80 => ⟨S_, .f32⟩
  | 81 => ⟨S128, .f32⟩
  | 82 => ⟨S128, .f32⟩
  | 83 => ⟨S128, .f32⟩
  | 84 => ⟨S128, .f32⟩
  | 85 => ⟨S128, .f32⟩
  | 86 => ⟨S128, .f32⟩
  | 87 => ⟨S1x128, .f32⟩
  | 88 => ⟨S1x128, .f32⟩
  | 89 => ⟨S100000x128, .f32⟩
  | 90 => ⟨S100000x128, .f32⟩
  | 91 => ⟨S_, .i32⟩
  | 92 => ⟨S1600000, .i32⟩
  | 93 => ⟨S1600000, .i1⟩
  | 94 => ⟨S_, .i32⟩
  | 95 => ⟨S1600000, .i32⟩
  | 96 => ⟨S1600000, .i32⟩
  | 97 => ⟨S1600000, .i32⟩
  | 98 => ⟨S1600000x1, .i32⟩
  | 99 => ⟨S1600000x128, .f32⟩
  | 100 => ⟨S1600000x1, .f32⟩
  | 101 => ⟨S1600000x128, .f32⟩
  | 102 => ⟨S1600000x128, .f32⟩
  | 103 => ⟨S_, .f32⟩
  | 104 => ⟨S100000x128, .f32⟩
  | 105 => ⟨S1600000x1, .i32⟩
  | 106 => ⟨S100000x128, .f32⟩
  | 107 => ⟨S100000x1, .f32⟩
  | 108 => ⟨S100000x128, .f32⟩
  | 109 => ⟨S100000x128, .f32⟩
  | 110 => ⟨S1x128, .f32⟩
  | 111 => ⟨S100000x128, .f32⟩
  | 112 => ⟨S1x128, .f32⟩
  | 113 => ⟨S1x128, .f32⟩
  | 114 => ⟨S128, .f32⟩
  | 115 => ⟨S_, .f32⟩
  | 116 => ⟨S128, .f32⟩
  | 117 => ⟨S128, .f32⟩
  | 118 => ⟨S128, .f32⟩
  | 119 => ⟨S_, .f32⟩
  | 120 => ⟨S128, .f32⟩
  | 121 => ⟨S128, .f32⟩
  | 122 => ⟨S128, .f32⟩
  | 123 => ⟨S128, .f32⟩
  | 124 => ⟨S_, .f32⟩
  | 125 => ⟨S128, .f32⟩
  | 126 => ⟨S128, .f32⟩
  | 127 => ⟨S128, .f32⟩
  | _ => ⟨S100000x128, .f32⟩

abbrev hbmTy0_1 (i : Nat) : BufTy := match i % 128 with
  | 0 => ⟨S128, .f32⟩
  | 1 => ⟨S128, .f32⟩
  | 2 => ⟨S128, .f32⟩
  | 3 => ⟨S1x128, .f32⟩
  | 4 => ⟨S1x128, .f32⟩
  | 5 => ⟨S100000x128, .f32⟩
  | 6 => ⟨S100000x10, .f32⟩
  | 7 => ⟨S_, .i32⟩
  | 8 => ⟨S1600000, .i32⟩
  | 9 => ⟨S1600000, .i1⟩
  | 10 => ⟨S_, .i32⟩
  | 11 => ⟨S1600000, .i32⟩
  | 12 => ⟨S1600000, .i32⟩
  | 13 => ⟨S1600000, .i32⟩
  | 14 => ⟨S1600000x1, .i32⟩
  | 15 => ⟨S1600000x10, .f32⟩
  | 16 => ⟨S1600000x1, .f32⟩
  | 17 => ⟨S1600000x10, .f32⟩
  | 18 => ⟨S1600000x10, .f32⟩
  | 19 => ⟨S_, .f32⟩
  | 20 => ⟨S100000x10, .f32⟩
  | 21 => ⟨S1600000x1, .i32⟩
  | 22 => ⟨S100000x10, .f32⟩
  | 23 => ⟨S100000x1, .f32⟩
  | 24 => ⟨S100000x10, .f32⟩
  | 25 => ⟨S100000x10, .f32⟩
  | 26 => ⟨S1x10, .f32⟩
  | 27 => ⟨S100000x10, .f32⟩
  | 28 => ⟨S1x10, .f32⟩
  | 29 => ⟨S1x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S10000x128, .f32⟩
  | .local _ .vmem, ⟨9, _⟩ => ⟨S1x128, .f32⟩
  | .local _ .vmem, ⟨10, _⟩ => ⟨S10000x128, .f32⟩
  | .local _ .vmem, ⟨11, _⟩ => ⟨S10000x128, .f32⟩
  | .local _ .vmem, ⟨12, _⟩ => ⟨S1x128, .f32⟩
  | .local _ .vmem, ⟨13, _⟩ => ⟨S1x128, .f32⟩
  | .local _ .vmem, ⟨14, _⟩ => ⟨S10000x128, .f32⟩
  | .local _ .vmem, ⟨15, _⟩ => ⟨S10000x128, .f32⟩
  | .local _ .vmem, ⟨16, _⟩ => ⟨S1x128, .f32⟩
  | .local _ .vmem, ⟨17, _⟩ => ⟨S1x128, .f32⟩
  | .local _ .vmem, ⟨18, _⟩ => ⟨S10000x128, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S128x128, .f32⟩
  | .local _ .vmem, ⟨23, _⟩ => ⟨S10000x128, .f32⟩
  | .local _ .vmem, ⟨24, _⟩ => ⟨S10000x128, .f32⟩
  | .local _ .vmem, ⟨25, _⟩ => ⟨S10000x128, .f32⟩
  | .local _ .vmem, ⟨26, _⟩ => ⟨S10000x128, .f32⟩
  | .local _ .vmem, ⟨27, _⟩ => ⟨S10000x128, .f32⟩
  | .local _ .vmem, ⟨28, _⟩ => ⟨S10000x128, .f32⟩
  | .local _ .vmem, ⟨29, _⟩ => ⟨S1x128, .f32⟩
  | .local _ .vmem, ⟨30, _⟩ => ⟨S10000x128, .f32⟩
  | .local _ .vmem, ⟨31, _⟩ => ⟨S10000x128, .f32⟩
  | .local _ .vmem, ⟨32, _⟩ => ⟨S1x128, .f32⟩
  | .local _ .vmem, ⟨33, _⟩ => ⟨S1x128, .f32⟩
  | .local _ .vmem, ⟨34, _⟩ => ⟨S10000x128, .f32⟩
  | .local _ .vmem, ⟨35, _⟩ => ⟨S10000x128, .f32⟩
  | .local _ .vmem, ⟨36, _⟩ => ⟨S1x128, .f32⟩
  | .local _ .vmem, ⟨37, _⟩ => ⟨S1x128, .f32⟩
  | .local _ .vmem, ⟨38, _⟩ => ⟨S10000x128, .f32⟩
  | .local _ .vmem, ⟨39, _⟩ => ⟨S10000x128, .f32⟩
  | .local _ .vmem, ⟨40, _⟩ => ⟨S10000x128, .f32⟩
  | .local _ .vmem, ⟨41, _⟩ => ⟨S10000x128, .f32⟩
  | .local _ .vmem, ⟨42, _⟩ => ⟨S128x10, .f32⟩
  | .local _ .vmem, ⟨43, _⟩ => ⟨S10000x10, .f32⟩
  | .local _ .vmem, ⟨44, _⟩ => ⟨S10000x10, .f32⟩
  | .local _ .vmem, ⟨45, _⟩ => ⟨S10000x10, .f32⟩
  | .local _ .vmem, ⟨46, _⟩ => ⟨S10000x10, .f32⟩
  | .local _ .vmem, ⟨47, _⟩ => ⟨S10000x10, .f32⟩
  | .local _ .vmem, ⟨48, _⟩ => ⟨S10000x10, .f32⟩
  | .local _ .vmem, ⟨49, _⟩ => ⟨S1x10, .f32⟩
  | .local _ .vmem, ⟨50, _⟩ => ⟨S10000x10, .f32⟩
  | .local _ .vmem, ⟨51, _⟩ => ⟨S10000x10, .f32⟩
  | .local _ .vmem, ⟨52, _⟩ => ⟨S1x10, .f32⟩
  | .local _ .vmem, ⟨53, _⟩ => ⟨S1x10, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_5 : Ref sig .tc := ⟨.hbm, 47, rfl⟩
abbrev main_v28 : Ref sig .tc := ⟨.hbm, 48, rfl⟩
abbrev main_v29 : Ref sig .tc := ⟨.hbm, 49, rfl⟩
abbrev main_c_6 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_7 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45_0 : Ref sig .tc := ⟨.hbm, 67, rfl⟩
abbrev main_v45_1 : Ref sig .tc := ⟨.hbm, 68, rfl⟩
abbrev main_v45_2 : Ref sig .tc := ⟨.hbm, 69, rfl⟩
abbrev main_v46 : Ref sig .tc := ⟨.hbm, 70, rfl⟩
abbrev main_cst_8 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_9 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_10 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_c_11 : Ref sig .tc := ⟨.hbm, 91, rfl⟩
abbrev main_v64 : Ref sig .tc := ⟨.hbm, 92, rfl⟩
abbrev main_v65 : Ref sig .tc := ⟨.hbm, 93, rfl⟩
abbrev main_c_12 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_13 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81_0 : Ref sig .tc := ⟨.hbm, 111, rfl⟩
abbrev main_v81_1 : Ref sig .tc := ⟨.hbm, 112, rfl⟩
abbrev main_v81_2 : Ref sig .tc := ⟨.hbm, 113, rfl⟩
abbrev main_v82 : Ref sig .tc := ⟨.hbm, 114, rfl⟩
abbrev main_cst_14 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_cst_15 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_cst_16 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_c_17 : Ref sig .tc := ⟨.hbm, 135, rfl⟩
abbrev main_v100 : Ref sig .tc := ⟨.hbm, 136, rfl⟩
abbrev main_v101 : Ref sig .tc := ⟨.hbm, 137, rfl⟩
abbrev main_c_18 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_cst_19 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117_0 : Ref sig .tc := ⟨.hbm, 155, rfl⟩
abbrev main_v117_1 : Ref sig .tc := ⟨.hbm, 156, rfl⟩
abbrev main_v117_2 : Ref sig .tc := ⟨.hbm, 157, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg5_0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg2_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg1_1 : Ref sig .tc := ⟨.vmem, 28, rfl⟩
abbrev cc4_stg2_0 : Ref sig .tc := ⟨.vmem, 29, rfl⟩
abbrev cc4_stg3_0 : Ref sig .tc := ⟨.vmem, 30, rfl⟩
abbrev cc4_stg3_1 : Ref sig .tc := ⟨.vmem, 31, rfl⟩
abbrev cc4_stg4_0 : Ref sig .tc := ⟨.vmem, 32, rfl⟩
abbrev cc4_stg5_0 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg2_0 : Ref sig .tc := ⟨.vmem, 37, rfl⟩
abbrev cc5_stg3_0 : Ref sig .tc := ⟨.vmem, 38, rfl⟩
abbrev cc5_stg3_1 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg2_0 : Ref sig .tc := ⟨.vmem, 43, rfl⟩
abbrev cc6_stg2_1 : Ref sig .tc := ⟨.vmem, 44, rfl⟩
abbrev cc7_stg0_0 : Ref sig .tc := ⟨.vmem, 45, rfl⟩
abbrev cc7_stg0_1 : Ref sig .tc := ⟨.vmem, 46, rfl⟩
abbrev cc7_stg1_0 : Ref sig .tc := ⟨.vmem, 47, rfl⟩
abbrev cc7_stg1_1 : Ref sig .tc := ⟨.vmem, 48, rfl⟩
abbrev cc7_stg2_0 : Ref sig .tc := ⟨.vmem, 49, rfl⟩
abbrev cc7_stg3_0 : Ref sig .tc := ⟨.vmem, 50, rfl⟩
abbrev cc7_stg3_1 : Ref sig .tc := ⟨.vmem, 51, rfl⟩
abbrev cc7_stg4_0 : Ref sig .tc := ⟨.vmem, 52, rfl⟩
abbrev cc7_stg5_0 : Ref sig .tc := ⟨.vmem, 53, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem5_0 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem2_1 : DmaSem sig := 24
abbrev cc4_sem0_0 : DmaSem sig := 25
abbrev cc4_sem0_1 : DmaSem sig := 26
abbrev cc4_sem1_0 : DmaSem sig := 27
abbrev cc4_sem1_1 : DmaSem sig := 28
abbrev cc4_sem2_0 : DmaSem sig := 29
abbrev cc4_sem3_0 : DmaSem sig := 30
abbrev cc4_sem3_1 : DmaSem sig := 31
abbrev cc4_sem4_0 : DmaSem sig := 32
abbrev cc4_sem5_0 : DmaSem sig := 33
abbrev cc5_sem0_0 : DmaSem sig := 34
abbrev cc5_sem0_1 : DmaSem sig := 35
abbrev cc5_sem1_0 : DmaSem sig := 36
abbrev cc5_sem2_0 : DmaSem sig := 37
abbrev cc5_sem3_0 : DmaSem sig := 38
abbrev cc5_sem3_1 : DmaSem sig := 39
abbrev cc6_sem0_0 : DmaSem sig := 40
abbrev cc6_sem0_1 : DmaSem sig := 41
abbrev cc6_sem1_0 : DmaSem sig := 42
abbrev cc6_sem2_0 : DmaSem sig := 43
abbrev cc6_sem2_1 : DmaSem sig := 44
abbrev cc7_sem0_0 : DmaSem sig := 45
abbrev cc7_sem0_1 : DmaSem sig := 46
abbrev cc7_sem1_0 : DmaSem sig := 47
abbrev cc7_sem1_1 : DmaSem sig := 48
abbrev cc7_sem2_0 : DmaSem sig := 49
abbrev cc7_sem3_0 : DmaSem sig := 50
abbrev cc7_sem3_1 : DmaSem sig := 51
abbrev cc7_sem4_0 : DmaSem sig := 52
abbrev cc7_sem5_0 : DmaSem sig := 53

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S10000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S10000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x10 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S10000x10 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S10000x10 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S10000x10 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S1x10 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S10000x10 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 1 → Memref sig .tc .vmem S1x10 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x10 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S10000x128_S10000x128 : S10000x128.ShapeCasts S10000x128
  shapeCasts_S1x128_S1x128 : S1x128.ShapeCasts S1x128
  broadcasts_S1x128_S10000x128 : S1x128.Broadcasts S10000x128
  reduces_S10000x128_S128 : S10000x128.Reduces [0] S128
  shapeCasts_S1x128_S128 : S1x128.ShapeCasts S128
  bcast_S_S128 : S_.BroadcastsInDim S128 (![] : Fin 0 → Fin S128.rank)
  inb_S128x10_S128x10_0_0 : ∀ a, (![0, 0] : Fin 2 → Nat) a + S128x10.size a ≤ S128x10.size a
  h_S128x10 : 0 < S128x10.numel
  inb_S10000x10_S10000x10_0_0 : ∀ a, (![0, 0] : Fin 2 → Nat) a + S10000x10.size a ≤ S10000x10.size a
  h_S10000x10 : 0 < S10000x10.numel
  bcast_S1600000x1_S1600000x10_0_1 : S1600000x1.BroadcastsInDim S1600000x10 (![0, 1] : Fin 2 → Fin S1600000x10.rank)
  bcast_S_S100000x10 : S_.BroadcastsInDim S100000x10 (![] : Fin 0 → Fin S100000x10.rank)
  bcast_S100000x1_S100000x10_0_1 : S100000x1.BroadcastsInDim S100000x10 (![0, 1] : Fin 2 → Fin S100000x10.rank)
  shapeCasts_S10_S1x10 : S10.ShapeCasts S1x10
  inb_S1x10_S1x10_0_0 : ∀ a, (![0, 0] : Fin 2 → Nat) a + S1x10.size a ≤ S1x10.size a
  h_S1x10 : 0 < S1x10.numel
  shapeCasts_S10000x10_S10000x10 : S10000x10.ShapeCasts S10000x10
  shapeCasts_S1x10_S1x10 : S1x10.ShapeCasts S1x10
  broadcasts_S1x10_S10000x10 : S1x10.Broadcasts S10000x10
  reduces_S10000x10_S10 : S10000x10.Reduces [0] S10
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S10000x128_S128x128_S10000x128_1_0_0_1_n_n_wf : DotDims.WF S10000x128 S128x128 S10000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x10_S10000x10_1_0_0_1_n_n_wf : DotDims.WF S10000x128 S128x10 S10000x10 [1] [0] [0] [1] [] []
  gather_S100000x10_S1600000x1_S1600000x10_1_0_n_n_0_1_110_wf : GatherDims.WF S100000x10 S1600000x1 S1600000x10 [1] [0] [] [0] [] 1 ![1, 10]
  scatter_S100000x10_S1600000x1_S1600000x10_1_0_0_1_wf : ScatterDims.WF S100000x10 S1600000x1 S1600000x10 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S100000x128.size a
  hwx1_1 : ∀ i : grid1.Coords, EltTy.bits .f32 = 32 ∨ (Rect.block (s := S100000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S100000x128.size a
  hwx1_3 : ∀ i : grid1.Coords, EltTy.bits .f32 = 32 ∨ (Rect.block (s := S100000x128) S10000x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x128.size a ≤ S100000x128.size a
  hwx2_3 : ∀ i : grid2.Coords, EltTy.bits .f32 = 32 ∨ (Rect.block (s := S100000x128) S10000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S100000x128.size a
  hwx3_2 : ∀ i : grid3.Coords, EltTy.bits .f32 = 32 ∨ (Rect.block (s := S100000x128) S10000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S100000x128.size a
  hwx4_0 : ∀ i : grid4.Coords, EltTy.bits .f32 = 32 ∨ (Rect.block (s := S100000x128) S10000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x128.size a ≤ S100000x128.size a
  hwx4_1 : ∀ i : grid4.Coords, EltTy.bits .f32 = 32 ∨ (Rect.block (s := S100000x128) S10000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x128.size a ≤ S100000x128.size a
  hwx4_3 : ∀ i : grid4.Coords, EltTy.bits .f32 = 32 ∨ (Rect.block (s := S100000x128) S10000x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S100000x128.size a
  hwx5_0 : ∀ i : grid5.Coords, EltTy.bits .f32 = 32 ∨ (Rect.block (s := S100000x128) S10000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S10000x128.size a ≤ S100000x128.size a
  hwx5_3 : ∀ i : grid5.Coords, EltTy.bits .f32 = 32 ∨ (Rect.block (s := S100000x128) S10000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x128.size a ≤ S100000x128.size a
  hwx6_0 : ∀ i : grid6.Coords, EltTy.bits .f32 = 32 ∨ (Rect.block (s := S100000x128) S10000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x10.size a ≤ S128x10.size a
  hwx6_1 : ∀ i : grid6.Coords, EltTy.bits .f32 = 32 ∨ (Rect.block (s := S128x10) S128x10.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x10.size a ≤ S100000x10.size a
  hwx6_2 : ∀ i : grid6.Coords, EltTy.bits .f32 = 32 ∨ (Rect.block (s := S100000x10) S10000x10.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x10.size a ≤ S100000x10.size a
  hwx7_0 : ∀ i : grid7.Coords, EltTy.bits .f32 = 32 ∨ (Rect.block (s := S100000x10) S10000x10.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S10000x10.size a ≤ S100000x10.size a
  hwx7_1 : ∀ i : grid7.Coords, EltTy.bits .f32 = 32 ∨ (Rect.block (s := S100000x10) S10000x10.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x10.size a ≤ S1x10.size a
  hwx7_2 : ∀ i : grid7.Coords, EltTy.bits .f32 = 32 ∨ (Rect.block (s := S1x10) S1x10.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S10000x10.size a ≤ S100000x10.size a
  hwx7_3 : ∀ i : grid7.Coords, EltTy.bits .f32 = 32 ∨ (Rect.block (s := S100000x10) S10000x10.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x10.size a ≤ S1x10.size a
  hwx7_4 : ∀ i : grid7.Coords, EltTy.bits .f32 = 32 ∨ (Rect.block (s := S1x10) S1x10.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x10.size a ≤ S1x10.size a
  hwx7_5 : ∀ i : grid7.Coords, EltTy.bits .f32 = 32 ∨ (Rect.block (s := S1x10) S1x10.size (cc7_transform_5 i) (hinb7_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x10_S10000x10_1_0_0_1_n_n : DotDims S10000x128 S128x10 S10000x10 where
  lhsContracting := [1]
  rhsContracting := [0]
  lhsNonContracting := [0]
  rhsNonContracting := [1]
  lhsBatch := []
  rhsBatch := []
  wf := dot_S10000x128_S128x10_S10000x10_1_0_0_1_n_n_wf
def gather_S100000x10_S1600000x1_S1600000x10_1_0_n_n_0_1_110 : GatherDims S100000x10 S1600000x1 S1600000x10 where
  offsetDims := [1]
  collapsedSliceDims := [0]
  operandBatchingDims := []
  startIndicesBatchingDims := []
  startIndexMap := [0]
  indexVectorDim := 1
  sliceSizes := ![1, 10]
  wf := gather_S100000x10_S1600000x1_S1600000x10_1_0_n_n_0_1_110_wf
def scatter_S100000x10_S1600000x1_S1600000x10_1_0_0_1 : ScatterDims S100000x10 S1600000x1 S1600000x10 where
  updateWindowDims := [1]
  insertedWindowDims := [0]
  scatterDimsToOperandDims := [0]
  indexVectorDim := 1
  wf := scatter_S100000x10_S1600000x1_S1600000x10_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v44) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45_0) S10000x128.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v45_1) S1x128.size cc1_transform_4 reads1_4 true true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45_2) S1x128.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v45_0) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v60) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v61) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v62) S10000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v62) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v76) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v79) S10000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v80) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v81_0) S10000x128.size cc4_transform_3 reads4_3 true false 2 stage4_3 sem4_3
    hrank4 hreads4_3 hinb4_3 nbuf4_3 (Memref.isWhole_whole _) hwx4_3 hstage4_3

abbrev win4_4 : Pipeline.Window sig grid4 :=
  Pipeline.Window.ofSpec (Memref.whole main_v81_1) S1x128.size cc4_transform_4 reads4_4 true true 1 stage4_4 sem4_4
    hrank4 hreads4_4 hinb4_4 nbuf4_4 (Memref.isWhole_whole _) hwx4_4 hstage4_4

abbrev win4_5 : Pipeline.Window sig grid4 :=
  Pipeline.Window.ofSpec (Memref.whole main_v81_2) S1x128.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v81_0) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v96) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v97) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v98) S10000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v98) S10000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg10) S128x10.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v99) S10000x10.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v112) S10000x10.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v115) S10000x10.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v116) S1x10.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v117_0) S10000x10.size cc7_transform_3 reads7_3 true false 2 stage7_3 sem7_3
    hrank7 hreads7_3 hinb7_3 nbuf7_3 (Memref.isWhole_whole _) hwx7_3 hstage7_3

abbrev win7_4 : Pipeline.Window sig grid7 :=
  Pipeline.Window.ofSpec (Memref.whole main_v117_1) S1x10.size cc7_transform_4 reads7_4 true true 1 stage7_4 sem7_4
    hrank7 hreads7_4 hinb7_4 nbuf7_4 (Memref.isWhole_whole _) hwx7_4 hstage7_4

abbrev win7_5 : Pipeline.Window sig grid7 :=
  Pipeline.Window.ofSpec (Memref.whole main_v117_2) S1x10.size cc7_transform_5 reads7_5 true true 1 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x10 : Shape := ⟨2, ![100000, 10]⟩
abbrev S1600000x10 : Shape := ⟨2, ![1600000, 10]⟩
abbrev S1x10 : Shape := ⟨2, ![1, 10]⟩

abbrev nBuf : Space → Nat
  | .hbm => 244
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128, .f32⟩
  | 5 => ⟨S128, .f32⟩
  | 6 => ⟨S128x128, .f32⟩
  | 7 => ⟨S128, .f32⟩
  | 8 => ⟨S128, .f32⟩
  | 9 => ⟨S128, .f32⟩
  | 10 => ⟨S128x10, .f32⟩
  | 11 => ⟨S10, .f32⟩
  | 12 => ⟨S1x1600000, .i32⟩
  | 13 => ⟨S1600000, .i32⟩
  | 14 => ⟨S1x1600000, .i32⟩
  | 15 => ⟨S1600000, .i32⟩
  | 16 => ⟨S_, .f32⟩
  | 17 => ⟨S1600000, .f32⟩
  | 18 => ⟨S_, .f32⟩
  | 19 => ⟨S100000, .f32⟩
  | 20 => ⟨S1600000x1, .i32⟩
  | 21 => ⟨S100000, .f32⟩
  | 22 => ⟨S_, .f32⟩
  | 23 => ⟨S100000, .f32⟩
  | 24 => ⟨S100000, .f32⟩
  | 25 => ⟨S100000, .f32⟩
  | 26 => ⟨S_, .i32⟩
  | 27 => ⟨S1600000, .i32⟩
  | 28 => ⟨S1600000, .i1⟩
  | 29 => ⟨S_, .i32⟩
  | 30 => ⟨S1600000, .i32⟩
  | 31 => ⟨S1600000, .i32⟩
  | 32 => ⟨S1600000, .i32⟩
  | 33 => ⟨S1600000x1, .i32⟩
  | 34 => ⟨S1600000, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000, .f32⟩
  | 44 => ⟨S1600000, .f32⟩
  | 45 => ⟨S100000x128, .f32⟩
  | 46 => ⟨S_, .i32⟩
  | 47 => ⟨S1600000, .i32⟩
  | 48 => ⟨S1600000, .i1⟩
  | 49 => ⟨S_, .i32⟩
  | 50 => ⟨S1600000, .i32⟩
  | 51 => ⟨S1600000, .i32⟩
  | 52 => ⟨S1600000, .i32⟩
  | 53 => ⟨S1600000x1, .i32⟩
  | 54 => ⟨S1600000x128, .f32⟩
  | 55 => ⟨S1600000x1, .f32⟩
  | 56 => ⟨S1600000x128, .f32⟩
  | 57 => ⟨S1600000x128, .f32⟩
  | 58 => ⟨S_, .f32⟩
  | 59 => ⟨S100000x128, .f32⟩
  | 60 => ⟨S1600000x1, .i32⟩
  | 61 => ⟨S100000x128, .f32⟩
  | 62 => ⟨S100000, .f32⟩
  | 63 => ⟨S100000x1, .f32⟩
  | 64 => ⟨S100000x128, .f32⟩
  | 65 => ⟨S100000x128, .f32⟩
  | 66 => ⟨S100000x128, .f32⟩
  | 67 => ⟨S1x128, .f32⟩
  | 68 => ⟨S100000x128, .f32⟩
  | 69 => ⟨S100000x128, .f32⟩
  | 70 => ⟨S_, .f32⟩
  | 71 => ⟨S128, .f32⟩
  | 72 => ⟨S_, .f32⟩
  | 73 => ⟨S128, .f32⟩
  | 74 => ⟨S128, .f32⟩
  | 75 => ⟨S1x128, .f32⟩
  | 76 => ⟨S100000x128, .f32⟩
  | 77 => ⟨S100000x128, .f32⟩
  | 78 => ⟨S100000x128, .f32⟩
  | 79 => ⟨S_, .f32⟩
  | 80 => ⟨S128, .f32⟩
  | 81 => ⟨S_, .f32⟩
  | 82 => ⟨S128, .f32⟩
  | 83 => ⟨S128, .f32⟩
  | 84 => ⟨S1x128, .f32⟩
  | 85 => ⟨S100000x128, .f32⟩
  | 86 => ⟨S100000x128, .f32⟩
  | 87 => ⟨S1x128, .f32⟩
  | 88 => ⟨S100000x128, .f32⟩
  | 89 => ⟨S100000x128, .f32⟩
  | 90 => ⟨S_, .f32⟩
  | 91 => ⟨S128, .f32⟩
  | 92 => ⟨S128, .f32⟩
  | 93 => ⟨S128, .f32⟩
  | 94 => ⟨S1x128, .f32⟩
  | 95 => ⟨S100000x128, .f32⟩
  | 96 => ⟨S100000x128, .f32⟩
  | 97 => ⟨S1x128, .f32⟩
  | 98 => ⟨S100000x128, .f32⟩
  | 99 => ⟨S100000x128, .f32⟩
  | 100 => ⟨S_, .f32⟩
  | 101 => ⟨S100000x128, .f32⟩
  | 102 => ⟨S100000x128, .f32⟩
  | 103 => ⟨S_, .f32⟩
  | 104 => ⟨S1600000, .f32⟩
  | 105 => ⟨S_, .f32⟩
  | 106 => ⟨S100000, .f32⟩
  | 107 => ⟨S1600000x1, .i32⟩
  | 108 => ⟨S100000, .f32⟩
  | 109 => ⟨S_, .f32⟩
  | 110 => ⟨S100000, .f32⟩
  | 111 => ⟨S100000, .f32⟩
  | 112 => ⟨S100000, .f32⟩
  | 113 => ⟨S_, .i32⟩
  | 114 => ⟨S1600000, .i32⟩
  | 115 => ⟨S1600000, .i1⟩
  | 116 => ⟨S_, .i32⟩
  | 117 => ⟨S1600000, .i32⟩
  | 118 => ⟨S1600000, .i32⟩
  | 119 => ⟨S1600000, .i32⟩
  | 120 => ⟨S1600000x1, .i32⟩
  | 121 => ⟨S1600000, .f32⟩
  | 122 => ⟨S_, .i32⟩
  | 123 => ⟨S1600000, .i32⟩
  | 124 => ⟨S1600000, .i1⟩
  | 125 => ⟨S_, .i32⟩
  | 126 => ⟨S1600000, .i32⟩
  | 127 => ⟨S1600000, .i32⟩
  | _ => ⟨S100000x128, .f32⟩

abbrev hbmTy0_1 (i : Nat) : BufTy := match i % 128 with
  | 0 => ⟨S1600000, .i32⟩
  | 1 => ⟨S1600000x1, .i32⟩
  | 2 => ⟨S1600000, .f32⟩
  | 3 => ⟨S1600000, .f32⟩
  | 4 => ⟨S100000x128, .f32⟩
  | 5 => ⟨S_, .i32⟩
  | 6 => ⟨S1600000, .i32⟩
  | 7 => ⟨S1600000, .i1⟩
  | 8 => ⟨S_, .i32⟩
  | 9 => ⟨S1600000, .i32⟩
  | 10 => ⟨S1600000, .i32⟩
  | 11 => ⟨S1600000, .i32⟩
  | 12 => ⟨S1600000x1, .i32⟩
  | 13 => ⟨S1600000x128, .f32⟩
  | 14 => ⟨S1600000x1, .f32⟩
  | 15 => ⟨S1600000x128, .f32⟩
  | 16 => ⟨S1600000x128, .f32⟩
  | 17 => ⟨S_, .f32⟩
  | 18 => ⟨S100000x128, .f32⟩
  | 19 => ⟨S1600000x1, .i32⟩
  | 20 => ⟨S100000x128, .f32⟩
  | 21 => ⟨S100000, .f32⟩
  | 22 => ⟨S100000x1, .f32⟩
  | 23 => ⟨S100000x128, .f32⟩
  | 24 => ⟨S100000x128, .f32⟩
  | 25 => ⟨S100000x128, .f32⟩
  | 26 => ⟨S1x128, .f32⟩
  | 27 => ⟨S100000x128, .f32⟩
  | 28 => ⟨S100000x128, .f32⟩
  | 29 => ⟨S_, .f32⟩
  | 30 => ⟨S128, .f32⟩
  | 31 => ⟨S_, .f32⟩
  | 32 => ⟨S128, .f32⟩
  | 33 => ⟨S128, .f32⟩
  | 34 => ⟨S1x128, .f32⟩
  | 35 => ⟨S100000x128, .f32⟩
  | 36 => ⟨S100000x128, .f32⟩
  | 37 => ⟨S100000x128, .f32⟩
  | 38 => ⟨S_, .f32⟩
  | 39 => ⟨S128, .f32⟩
  | 40 => ⟨S_, .f32⟩
  | 41 => ⟨S128, .f32⟩
  | 42 => ⟨S128, .f32⟩
  | 43 => ⟨S1x128, .f32⟩
  | 44 => ⟨S100000x128, .f32⟩
  | 45 => ⟨S100000x128, .f32⟩
  | 46 => ⟨S1x128, .f32⟩
  | 47 => ⟨S100000x128, .f32⟩
  | 48 => ⟨S100000x128, .f32⟩
  | 49 => ⟨S_, .f32⟩
  | 50 => ⟨S128, .f32⟩
  | 51 => ⟨S128, .f32⟩
  | 52 => ⟨S128, .f32⟩
  | 53 => ⟨S1x128, .f32⟩
  | 54 => ⟨S100000x128, .f32⟩
  | 55 => ⟨S100000x128, .f32⟩
  | 56 => ⟨S1x128, .f32⟩
  | 57 => ⟨S100000x128, .f32⟩
  | 58 => ⟨S100000x128, .f32⟩
  | 59 => ⟨S_, .f32⟩
  | 60 => ⟨S100000x128, .f32⟩
  | 61 => ⟨S100000x128, .f32⟩
  | 62 => ⟨S_, .f32⟩
  | 63 => ⟨S1600000, .f32⟩
  | 64 => ⟨S_, .f32⟩
  | 65 => ⟨S100000, .f32⟩
  | 66 => ⟨S1600000x1, .i32⟩
  | 67 => ⟨S100000, .f32⟩
  | 68 => ⟨S_, .f32⟩
  | 69 => ⟨S100000, .f32⟩
  | 70 => ⟨S100000, .f32⟩
  | 71 => ⟨S100000, .f32⟩
  | 72 => ⟨S_, .i32⟩
  | 73 => ⟨S1600000, .i32⟩
  | 74 => ⟨S1600000, .i1⟩
  | 75 => ⟨S_, .i32⟩
  | 76 => ⟨S1600000, .i32⟩
  | 77 => ⟨S1600000, .i32⟩
  | 78 => ⟨S1600000, .i32⟩
  | 79 => ⟨S1600000x1, .i32⟩
  | 80 => ⟨S1600000, .f32⟩
  | 81 => ⟨S_, .i32⟩
  | 82 => ⟨S1600000, .i32⟩
  | 83 => ⟨S1600000, .i1⟩
  | 84 => ⟨S_, .i32⟩
  | 85 => ⟨S1600000, .i32⟩
  | 86 => ⟨S1600000, .i32⟩
  | 87 => ⟨S1600000, .i32⟩
  | 88 => ⟨S1600000x1, .i32⟩
  | 89 => ⟨S1600000, .f32⟩
  | 90 => ⟨S1600000, .f32⟩
  | 91 => ⟨S100000x10, .f32⟩
  | 92 => ⟨S_, .i32⟩
  | 93 => ⟨S1600000, .i32⟩
  | 94 => ⟨S1600000, .i1⟩
  | 95 => ⟨S_, .i32⟩
  | 96 => ⟨S1600000, .i32⟩
  | 97 => ⟨S1600000, .i32⟩
  | 98 => ⟨S1600000, .i32⟩
  | 99 => ⟨S1600000x1, .i32⟩
  | 100 => ⟨S1600000x10, .f32⟩
  | 101 => ⟨S1600000x1, .f32⟩
  | 102 => ⟨S1600000x10, .f32⟩
  | 103 => ⟨S1600000x10, .f32⟩
  | 104 => ⟨S_, .f32⟩
  | 105 => ⟨S100000x10, .f32⟩
  | 106 => ⟨S1600000x1, .i32⟩
  | 107 => ⟨S100000x10, .f32⟩
  | 108 => ⟨S100000, .f32⟩
  | 109 => ⟨S100000x1, .f32⟩
  | 110 => ⟨S100000x10, .f32⟩
  | 111 => ⟨S100000x10, .f32⟩
  | 112 => ⟨S100000x10, .f32⟩
  | 113 => ⟨S1x10, .f32⟩
  | 114 => ⟨S100000x10, .f32⟩
  | 115 => ⟨S100000x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_5 : Ref sig .tc := ⟨.hbm, 46, rfl⟩
abbrev main_v27 : Ref sig .tc := ⟨.hbm, 47, rfl⟩
abbrev main_v28 : Ref sig .tc := ⟨.hbm, 48, rfl⟩
abbrev main_c_6 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_7 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_8 : Ref sig .tc := ⟨.hbm, 70, rfl⟩
abbrev main_v48 : Ref sig .tc := ⟨.hbm, 71, rfl⟩
abbrev main_cst_9 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_10 : Ref sig .tc := ⟨.hbm, 79, rfl⟩
abbrev main_v55 : Ref sig .tc := ⟨.hbm, 80, rfl⟩
abbrev main_cst_11 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_12 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_call0_cst : Ref sig .tc := ⟨.hbm, 100, rfl⟩
abbrev main_call0_v0 : Ref sig .tc := ⟨.hbm, 101, rfl⟩
abbrev main_v73 : Ref sig .tc := ⟨.hbm, 102, rfl⟩
abbrev main_cst_13 : Ref sig .tc := ⟨.hbm, 103, rfl⟩
abbrev main_v74 : Ref sig .tc := ⟨.hbm, 104, rfl⟩
abbrev main_cst_14 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_15 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_c_16 : Ref sig .tc := ⟨.hbm, 113, rfl⟩
abbrev main_v81 : Ref sig .tc := ⟨.hbm, 114, rfl⟩
abbrev main_v82 : Ref sig .tc := ⟨.hbm, 115, rfl⟩
abbrev main_c_17 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_c_18 : Ref sig .tc := ⟨.hbm, 122, rfl⟩
abbrev main_v88 : Ref sig .tc := ⟨.hbm, 123, rfl⟩
abbrev main_v89 : Ref sig .tc := ⟨.hbm, 124, rfl⟩
abbrev main_c_19 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_c_20 : Ref sig .tc := ⟨.hbm, 133, rfl⟩
abbrev main_v97 : Ref sig .tc := ⟨.hbm, 134, rfl⟩
abbrev main_v98 : Ref sig .tc := ⟨.hbm, 135, rfl⟩
abbrev main_c_21 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_cst_22 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_cst_23 : Ref sig .tc := ⟨.hbm, 157, rfl⟩
abbrev main_v118 : Ref sig .tc := ⟨.hbm, 158, rfl⟩
abbrev main_cst_24 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_cst_25 : Ref sig .tc := ⟨.hbm, 166, rfl⟩
abbrev main_v125 : Ref sig .tc := ⟨.hbm, 167, rfl⟩
abbrev main_cst_26 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_cst_27 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_call1_cst : Ref sig .tc := ⟨.hbm, 187, rfl⟩
abbrev main_call1_v0 : Ref sig .tc := ⟨.hbm, 188, rfl⟩
abbrev main_v143 : Ref sig .tc := ⟨.hbm, 189, rfl⟩
abbrev main_cst_28 : Ref sig .tc := ⟨.hbm, 190, rfl⟩
abbrev main_v144 : Ref sig .tc := ⟨.hbm, 191, rfl⟩
abbrev main_cst_29 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_cst_30 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_c_31 : Ref sig .tc := ⟨.hbm, 200, rfl⟩
abbrev main_v151 : Ref sig .tc := ⟨.hbm, 201, rfl⟩
abbrev main_v152 : Ref sig .tc := ⟨.hbm, 202, rfl⟩
abbrev main_c_32 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_c_33 : Ref sig .tc := ⟨.hbm, 209, rfl⟩
abbrev main_v158 : Ref sig .tc := ⟨.hbm, 210, rfl⟩
abbrev main_v159 : Ref sig .tc := ⟨.hbm, 211, rfl⟩
abbrev main_c_34 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_c_35 : Ref sig .tc := ⟨.hbm, 220, rfl⟩
abbrev main_v167 : Ref sig .tc := ⟨.hbm, 221, rfl⟩
abbrev main_v168 : Ref sig .tc := ⟨.hbm, 222, rfl⟩
abbrev main_c_36 : Ref sig .tc := ⟨.hbm, 223, rfl⟩
abbrev main_v169 : Ref sig .tc := ⟨.hbm, 224, rfl⟩
abbrev main_v170 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_v174 : Ref sig .tc := ⟨.hbm, 229, rfl⟩
abbrev main_v175 : Ref sig .tc := ⟨.hbm, 230, rfl⟩
abbrev main_v176 : Ref sig .tc := ⟨.hbm, 231, rfl⟩
abbrev main_cst_37 : Ref sig .tc := ⟨.hbm, 232, rfl⟩
abbrev main_v177 : Ref sig .tc := ⟨.hbm, 233, rfl⟩
abbrev main_v178 : Ref sig .tc := ⟨.hbm, 234, rfl⟩
abbrev main_v179 : Ref sig .tc := ⟨.hbm, 235, rfl⟩
abbrev main_v180 : Ref sig .tc := ⟨.hbm, 236, rfl⟩
abbrev main_v181 : Ref sig .tc := ⟨.hbm, 237, rfl⟩
abbrev main_v182 : Ref sig .tc := ⟨.hbm, 238, rfl⟩
abbrev main_v183 : Ref sig .tc := ⟨.hbm, 239, rfl⟩
abbrev main_v184 : Ref sig .tc := ⟨.hbm, 240, rfl⟩
abbrev main_v185 : Ref sig .tc := ⟨.hbm, 241, rfl⟩
abbrev main_v186 : Ref sig .tc := ⟨.hbm, 242, rfl⟩
abbrev main_v187 : Ref sig .tc := ⟨.hbm, 243, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S1600000x1_S1600000x10_0_1 : S1600000x1.BroadcastsInDim S1600000x10 (![0, 1] : Fin 2 → Fin S1600000x10.rank)
  bcast_S_S100000x10 : S_.BroadcastsInDim S100000x10 (![] : Fin 0 → Fin S100000x10.rank)
  bcast_S100000x1_S100000x10_0_1 : S100000x1.BroadcastsInDim S100000x10 (![0, 1] : Fin 2 → Fin S100000x10.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x10_S100000x10_1_0_0_1_n_n_wf : DotDims.WF S100000x128 S128x10 S100000x10 [1] [0] [0] [1] [] []
  gather_S100000x10_S1600000x1_S1600000x10_1_0_n_n_0_1_110_wf : GatherDims.WF S100000x10 S1600000x1 S1600000x10 [1] [0] [] [0] [] 1 ![1, 10]
  scatter_S100000x10_S1600000x1_S1600000x10_1_0_0_1_wf : ScatterDims.WF S100000x10 S1600000x1 S1600000x10 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x10_S100000x10_1_0_0_1_n_n : DotDims S100000x128 S128x10 S100000x10 where
  lhsContracting := [1]
  rhsContracting := [0]
  lhsNonContracting := [0]
  rhsNonContracting := [1]
  lhsBatch := []
  rhsBatch := []
  wf := dot_S100000x128_S128x10_S100000x10_1_0_0_1_n_n_wf
def gather_S100000x10_S1600000x1_S1600000x10_1_0_n_n_0_1_110 : GatherDims S100000x10 S1600000x1 S1600000x10 where
  offsetDims := [1]
  collapsedSliceDims := [0]
  operandBatchingDims := []
  startIndicesBatchingDims := []
  startIndexMap := [0]
  indexVectorDim := 1
  sliceSizes := ![1, 10]
  wf := gather_S100000x10_S1600000x1_S1600000x10_1_0_n_n_0_1_110_wf
def scatter_S100000x10_S1600000x1_S1600000x10_1_0_0_1 : ScatterDims S100000x10 S1600000x1 S1600000x10 where
  updateWindowDims := [1]
  insertedWindowDims := [0]
  scatterDimsToOperandDims := [0]
  indexVectorDim := 1
  wf := scatter_S100000x10_S1600000x1_S1600000x10_1_0_0_1_wf

class Facts : Prop extends Facts₀ where

variable [Facts]
-- ==== Proof.KernelRun.lean ====
/-
  The idealized kernel program's run with its result named: every weakly fair execution of the whole pipeline —
  six stretches of host operations and eight grid regions — terminates without a fault, the result buffer ends at
  the contents the last region's write-backs leave, and the twelve argument arrays end as launched.
-/
import proofs.«113071_j28192165331202_1_alg».proof.Proof.Gen.KernelIdeal.Frame

set_option maxRecDepth 16384

noncomputable section

namespace Cert.KernelIdeal.KValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run of the whole pipeline: the result buffer ends at the last boundary's contents, the arguments as launched. -/
theorem run_named : θ_run defs (onTc (τ := τ) (main (F := F))) ⟨m, fun _ => 0, ρ⟩ (fun r => ∀ c : Dev nD,
      r.2.mem ((c.tc : Thread nD τ).loc main_v117_0) = W14 m ρ c (Proc.devRef .tc main_v117_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v117_0 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c)⟩)

end Cert.KernelIdeal.KValue

end
-- ==== Proof.KStages.lean ====
/-
  The kernel program's own host-side forms. It reshapes the bias, the scale and the shift to one-row arrays; it takes
  the column mean and the mean of squares from the two accumulated rows; its variance is the mean of squares less the
  squared mean; its scale is γ times the reciprocal root of variance plus epsilon, its shift β less mean times scale.
-/
import proofs.«113071_j28192165331202_1_alg».proof.KernelIdeal
import proofs.«113071_j28192165331202_1_alg».proof.Proof.Gen.KernelIdeal
import Idealize.ShloMosaic.PureOps.Ideal

noncomputable section

namespace Cert.KernelIdeal.KValue

open Idealize.ShloMosaic Cert.KernelIdeal Cert.KernelIdeal.Gen

abbrev KArr (s : Shape) := FVec Ideal s .f32

/-- A vector of 128 as a one-row array. -/
def krow (v : KArr S128) : KArr S1x128 := shapeCast S1x128 v shapeCasts_S128_S1x128
/-- A vector of 10 as a one-row array. -/
def krow10 (v : KArr S10) : KArr S1x10 := shapeCast S1x10 v shapeCasts_S10_S1x10
/-- The number of rows, splat over a column vector. -/
def krows : KArr S128 := broadcastInDim S128 ![] bcast_S_S128 (constant S_ .f32 0x47C35000#32)
/-- The column means, from the accumulated row of column sums. -/
def kmean (s : KArr S1x128) : KArr S128 := Host.divf (shapeCast S128 s shapeCasts_S1x128_S128) krows
/-- The scale: γ over the root of (mean of squares − squared mean + epsilon). -/
def kscale (s q : KArr S1x128) (γ : KArr S128) : KArr S128 :=
  mulf γ (Host.rsqrt (addf (subf (Host.divf (shapeCast S128 q shapeCasts_S1x128_S128) krows) (mulf (kmean s) (kmean s)))
    (broadcastInDim S128 ![] bcast_S_S128 (constant S_ .f32 0x3727C5AC#32))))
/-- The shift: β less mean times scale. -/
def kshift (s q : KArr S1x128) (γ β : KArr S128) : KArr S128 := subf β (mulf (kmean s) (kscale s q γ))

/-! ## The edge quantities and the aggregation, in the kernel program's vocabulary -/

def ksrc (e : IVec S2x1600000 32) : IVec S1600000 32 :=
  shapeCast S1600000 (extractStridedSlice S1x1600000 ![0, 0] e slices_S2x1600000_S1x1600000_0_0) shapeCasts_S1x1600000_S1600000
def kdst (e : IVec S2x1600000 32) : IVec S1600000 32 :=
  shapeCast S1600000 (extractStridedSlice S1x1600000 ![1, 0] e slices_S2x1600000_S1x1600000_1_0) shapeCasts_S1x1600000_S1600000
def kwrap (v : IVec S1600000 32) : IVec S1600000x1 32 :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 100000#32))) v)
def kdeg (e : IVec S2x1600000 32) : KArr S100000 :=
  addf (Host.scatterAdd scatter_S100000_S1600000x1_S1600000_n_0_0_1
      (broadcastInDim S100000 ![] bcast_S_S100000 (constant S_ .f32 0x00000000#32))
      (broadcastInDim S1600000x1 ![0] bcast_S1600000_S1600000x1_0 (kdst e))
      (broadcastInDim S1600000 ![] bcast_S_S1600000 (constant S_ .f32 0x3F800000#32)))
    (broadcastInDim S100000 ![] bcast_S_S100000 (constant S_ .f32 0x3F800000#32))
def kdinv (e : IVec S2x1600000 32) : KArr S100000 := Host.rsqrt (kdeg e)
def knorm (e : IVec S2x1600000 32) : KArr S1600000 :=
  mulf (Host.gather gather_S100000_S1600000x1_S1600000_n_0_n_n_0_1_1 (kdinv e) (kwrap (ksrc e)))
    (Host.gather gather_S100000_S1600000x1_S1600000_n_0_n_n_0_1_1 (kdinv e) (kwrap (kdst e)))
def kdinv2 (e : IVec S2x1600000 32) : KArr S100000 := mulf (kdinv e) (kdinv e)

def kaggOf128 (H : KArr S100000x128) (s d : IVec S1600000 32) (n : KArr S1600000) : KArr S100000x128 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 d)
    (mulf (Host.gather gather_S100000x128_S1600000x1_S1600000x128_1_0_n_n_0_1_1128 H (kwrap s))
      (broadcastInDim S1600000x128 ![0, 1] bcast_S1600000x1_S1600000x128_0_1
        (broadcastInDim S1600000x1 ![0] bcast_S1600000_S1600000x1_0 n)))
def kselfOf128 (H : KArr S100000x128) (d2 : KArr S100000) : KArr S100000x128 :=
  mulf H (broadcastInDim S100000x128 ![0, 1] bcast_S100000x1_S100000x128_0_1
    (broadcastInDim S100000x1 ![0] bcast_S100000_S100000x1_0 d2))
def kaggOf10 (H : KArr S100000x10) (s d : IVec S1600000 32) (n : KArr S1600000) : KArr S100000x10 :=
  Host.scatterAdd scatter_S100000x10_S1600000x1_S1600000x10_1_0_0_1
    (broadcastInDim S100000x10 ![] bcast_S_S100000x10 (constant S_ .f32 0x00000000#32))
    (broadcastInDim S1600000x1 ![0] bcast_S1600000_S1600000x1_0 d)
    (mulf (Host.gather gather_S100000x10_S1600000x1_S1600000x10_1_0_n_n_0_1_110 H (kwrap s))
      (broadcastInDim S1600000x10 ![0, 1] bcast_S1600000x1_S1600000x10_0_1
        (broadcastInDim S1600000x1 ![0] bcast_S1600000_S1600000x1_0 n)))
def kselfOf10 (H : KArr S100000x10) (d2 : KArr S100000) : KArr S100000x10 :=
  mulf H (broadcastInDim S100000x10 ![0, 1] bcast_S100000x1_S100000x10_0_1
    (broadcastInDim S100000x1 ![0] bcast_S100000_S100000x1_0 d2))

end Cert.KernelIdeal.KValue

end
-- ==== Proof.Host0.lean ====
/-
  The first stretch of host operations: from the edge list, the two index columns, the edge weights and the
  self-loop weights, once for all three layers.
-/
import proofs.«113071_j28192165331202_1_alg».proof.Proof.Gen.KernelIdeal.Frame
import proofs.«113071_j28192165331202_1_alg».proof.Proof.KStages
import Idealize.ShloMosaic.Lib.StableHlo.Run

set_option maxRecDepth 16384

noncomputable section

namespace Cert.KernelIdeal.KValue

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

set_option maxHeartbeats 40000000 in
/-- The source column. -/
theorem h0_src : W1 m ρ c (Proc.devRef .tc main_v1) = ksrc (m ((c : Thread nD τ).loc main_arg1)) := by
  show StableHlo.after hostOps0 (W0 m ρ c) (Proc.devRef .tc main_v1) = _
  after_results
  rfl

set_option maxHeartbeats 40000000 in
/-- The target column. -/
theorem h0_dst : W1 m ρ c (Proc.devRef .tc main_v3) = kdst (m ((c : Thread nD τ).loc main_arg1)) := by
  show StableHlo.after hostOps0 (W0 m ρ c) (Proc.devRef .tc main_v3) = _
  after_results
  rfl

set_option maxHeartbeats 40000000 in
/-- The edge weights. -/
theorem h0_norm : W1 m ρ c (Proc.devRef .tc main_v25) = knorm (m ((c : Thread nD τ).loc main_arg1)) := by
  show StableHlo.after hostOps0 (W0 m ρ c) (Proc.devRef .tc main_v25) = _
  after_results
  rfl

set_option maxHeartbeats 40000000 in
/-- The self-loop weights. -/
theorem h0_dinv2 : W1 m ρ c (Proc.devRef .tc main_v26) = kdinv2 (m ((c : Thread nD τ).loc main_arg1)) := by
  show StableHlo.after hostOps0 (W0 m ρ c) (Proc.devRef .tc main_v26) = _
  after_results
  rfl

end Cert.KernelIdeal.KValue

end
-- ==== Proof.Host1.lean ====
/-
  The host operations between layer 1's product and its combine kernel: the product's rows gathered along the
  edges, weighted and summed into their targets; the product weighted row by row; the bias as a one-row array.
-/
import proofs.«113071_j28192165331202_1_alg».proof.Proof.Gen.KernelIdeal.Frame
import proofs.«113071_j28192165331202_1_alg».proof.Proof.KStages
import Idealize.ShloMosaic.Lib.StableHlo.Run

set_option maxRecDepth 16384

noncomputable section

namespace Cert.KernelIdeal.KValue

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

set_option maxHeartbeats 40000000 in
/-- The aggregate. -/
theorem h1_agg : W3 m ρ c (Proc.devRef .tc main_v40) = kaggOf128 (W2 m ρ c (Proc.devRef .tc main_v27)) (W2 m ρ c (Proc.devRef .tc main_v1)) (W2 m ρ c (Proc.devRef .tc main_v3)) (W2 m ρ c (Proc.devRef .tc main_v25)) := by
  show StableHlo.after hostOps1 (W2 m ρ c) (Proc.devRef .tc main_v40) = _
  after_results
  rfl

set_option maxHeartbeats 40000000 in
/-- The self-loop term. -/
theorem h1_self : W3 m ρ c (Proc.devRef .tc main_v43) = kselfOf128 (W2 m ρ c (Proc.devRef .tc main_v27)) (W2 m ρ c (Proc.devRef .tc main_v26)) := by
  show StableHlo.after hostOps1 (W2 m ρ c) (Proc.devRef .tc main_v43) = _
  after_results
  rfl

set_option maxHeartbeats 40000000 in
/-- The bias row. -/
theorem h1_bias : W3 m ρ c (Proc.devRef .tc main_v44) = krow (W2 m ρ c (Proc.devRef .tc main_arg3)) := by
  show StableHlo.after hostOps1 (W2 m ρ c) (Proc.devRef .tc main_v44) = _
  after_results
  rfl

end Cert.KernelIdeal.KValue

end
-- ==== Proof.Host2.lean ====
/-
  The host operations between layer 1's combine kernel and its normalize kernel: from the two accumulated rows the
  column means and the folded variance, then the scale and the shift, each as a one-row array.
-/
import proofs.«113071_j28192165331202_1_alg».proof.Proof.Gen.KernelIdeal.Frame
import proofs.«113071_j28192165331202_1_alg».proof.Proof.KStages
import Idealize.ShloMosaic.Lib.StableHlo.Run

set_option maxRecDepth 16384

noncomputable section

namespace Cert.KernelIdeal.KValue

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

set_option maxHeartbeats 40000000 in
/-- The scale row. -/
theorem h2_scale : W5 m ρ c (Proc.devRef .tc main_v60) = krow (kscale (W4 m ρ c (Proc.devRef .tc main_v45_1)) (W4 m ρ c (Proc.devRef .tc main_v45_2)) (W4 m ρ c (Proc.devRef .tc main_arg4))) := by
  show StableHlo.after hostOps2 (W4 m ρ c) (Proc.devRef .tc main_v60) = _
  after_results
  rfl

set_option maxHeartbeats 40000000 in
/-- The shift row. -/
theorem h2_shift : W5 m ρ c (Proc.devRef .tc main_v61) = krow (kshift (W4 m ρ c (Proc.devRef .tc main_v45_1)) (W4 m ρ c (Proc.devRef .tc main_v45_2)) (W4 m ρ c (Proc.devRef .tc main_arg4)) (W4 m ρ c (Proc.devRef .tc main_arg5))) := by
  show StableHlo.after hostOps2 (W4 m ρ c) (Proc.devRef .tc main_v61) = _
  after_results
  rfl

end Cert.KernelIdeal.KValue

end
-- ==== Proof.Host4.lean ====
/-
  The host operations between layer 2's product and its combine kernel: the product's rows gathered along the
  edges, weighted and summed into their targets; the product weighted row by row; the bias as a one-row array.
-/
import proofs.«113071_j28192165331202_1_alg».proof.Proof.Gen.KernelIdeal.Frame
import proofs.«113071_j28192165331202_1_alg».proof.Proof.KStages
import Idealize.ShloMosaic.Lib.StableHlo.Run

set_option maxRecDepth 16384

noncomputable section

namespace Cert.KernelIdeal.KValue

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

set_option maxHeartbeats 40000000 in
/-- The aggregate. -/
theorem h4_agg : W8 m ρ c (Proc.devRef .tc main_v76) = kaggOf128 (W7 m ρ c (Proc.devRef .tc main_v63)) (W7 m ρ c (Proc.devRef .tc main_v1)) (W7 m ρ c (Proc.devRef .tc main_v3)) (W7 m ρ c (Proc.devRef .tc main_v25)) := by
  show StableHlo.after hostOps4 (W7 m ρ c) (Proc.devRef .tc main_v76) = _
  after_results
  rfl

set_option maxHeartbeats 40000000 in
/-- The self-loop term. -/
theorem h4_self : W8 m ρ c (Proc.devRef .tc main_v79) = kselfOf128 (W7 m ρ c (Proc.devRef .tc main_v63)) (W7 m ρ c (Proc.devRef .tc main_v26)) := by
  show StableHlo.after hostOps4 (W7 m ρ c) (Proc.devRef .tc main_v79) = _
  after_results
  rfl

set_option maxHeartbeats 40000000 in
/-- The bias row. -/
theorem h4_bias : W8 m ρ c (Proc.devRef .tc main_v80) = krow (W7 m ρ c (Proc.devRef .tc main_arg7)) := by
  show StableHlo.after hostOps4 (W7 m ρ c) (Proc.devRef .tc main_v80) = _
  after_results
  rfl

end Cert.KernelIdeal.KValue

end
-- ==== Proof.Host5.lean ====
/-
  The host operations between layer 2's combine kernel and its normalize kernel: from the two accumulated rows the
  column means and the folded variance, then the scale and the shift, each as a one-row array.
-/
import proofs.«113071_j28192165331202_1_alg».proof.Proof.Gen.KernelIdeal.Frame
import proofs.«113071_j28192165331202_1_alg».proof.Proof.KStages
import Idealize.ShloMosaic.Lib.StableHlo.Run

set_option maxRecDepth 16384

noncomputable section

namespace Cert.KernelIdeal.KValue

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

set_option maxHeartbeats 40000000 in
/-- The scale row. -/
theorem h5_scale : W10 m ρ c (Proc.devRef .tc main_v96) = krow (kscale (W9 m ρ c (Proc.devRef .tc main_v81_1)) (W9 m ρ c (Proc.devRef .tc main_v81_2)) (W9 m ρ c (Proc.devRef .tc main_arg8))) := by
  show StableHlo.after hostOps5 (W9 m ρ c) (Proc.devRef .tc main_v96) = _
  after_results
  rfl

set_option maxHeartbeats 40000000 in
/-- The shift row. -/
theorem h5_shift : W10 m ρ c (Proc.devRef .tc main_v97) = krow (kshift (W9 m ρ c (Proc.devRef .tc main_v81_1)) (W9 m ρ c (Proc.devRef .tc main_v81_2)) (W9 m ρ c (Proc.devRef .tc main_arg8)) (W9 m ρ c (Proc.devRef .tc main_arg9))) := by
  show StableHlo.after hostOps5 (W9 m ρ c) (Proc.devRef .tc main_v97) = _
  after_results
  rfl

end Cert.KernelIdeal.KValue

end
-- ==== Proof.Host7.lean ====
/-
  The host operations between layer 3's product and its combine kernel: the product's rows gathered along the
  edges, weighted and summed into their targets; the product weighted row by row; the bias as a one-row array.
-/
import proofs.«113071_j28192165331202_1_alg».proof.Proof.Gen.KernelIdeal.Frame
import proofs.«113071_j28192165331202_1_alg».proof.Proof.KStages
import Idealize.ShloMosaic.Lib.StableHlo.Run

set_option maxRecDepth 16384

noncomputable section

namespace Cert.KernelIdeal.KValue

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

set_option maxHeartbeats 40000000 in
/-- The aggregate. -/
theorem h7_agg : W13 m ρ c (Proc.devRef .tc main_v112) = kaggOf10 (W12 m ρ c (Proc.devRef .tc main_v99)) (W12 m ρ c (Proc.devRef .tc main_v1)) (W12 m ρ c (Proc.devRef .tc main_v3)) (W12 m ρ c (Proc.devRef .tc main_v25)) := by
  show StableHlo.after hostOps7 (W12 m ρ c) (Proc.devRef .tc main_v112) = _
  after_results
  rfl

set_option maxHeartbeats 40000000 in
/-- The self-loop term. -/
theorem h7_self : W13 m ρ c (Proc.devRef .tc main_v115) = kselfOf10 (W12 m ρ c (Proc.devRef .tc main_v99)) (W12 m ρ c (Proc.devRef .tc main_v26)) := by
  show StableHlo.after hostOps7 (W12 m ρ c) (Proc.devRef .tc main_v115) = _
  after_results
  rfl

set_option maxHeartbeats 40000000 in
/-- The bias row. -/
theorem h7_bias : W13 m ρ c (Proc.devRef .tc main_v116) = krow10 (W12 m ρ c (Proc.devRef .tc main_arg11)) := by
  show StableHlo.after hostOps7 (W12 m ρ c) (Proc.devRef .tc main_v116) = _
  after_results
  rfl

end Cert.KernelIdeal.KValue

end
-- ==== Proof.CarryEdges.lean ====
/-
  Buffers carried across the pipeline, unchanged: the edge columns and weights, computed once by the first host
  stretch and read again before each layer's combine kernel.
-/
import proofs.«113071_j28192165331202_1_alg».proof.Proof.Gen.KernelIdeal.Frame
import Idealize.ShloMosaic.Lib.StableHlo.Run
import Idealize.ShloMosaic.PureOps.Ideal

set_option maxRecDepth 16384

noncomputable section

namespace Cert.KernelIdeal.KValue

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

/-- Buffer `main_v1` is not written between boundaries 1 and 2. -/
theorem carry_v1_2_1 : W2 m ρ c (Proc.devRef .tc main_v1) = W1 m ρ c (Proc.devRef .tc main_v1) :=
  calc W2 m ρ c (Proc.devRef .tc main_v1)
    _ = W1 m ρ c (Proc.devRef .tc main_v1) := W2_of_ne m ρ c main_v1 (by decide)

/-- Buffer `main_v1` is not written between boundaries 1 and 7. -/
theorem carry_v1_7_1 : W7 m ρ c (Proc.devRef .tc main_v1) = W1 m ρ c (Proc.devRef .tc main_v1) :=
  calc W7 m ρ c (Proc.devRef .tc main_v1)
    _ = W6 m ρ c (Proc.devRef .tc main_v1) := W7_of_ne m ρ c main_v1 (by decide)
    _ = W5 m ρ c (Proc.devRef .tc main_v1) := W6_of_ne m ρ c main_v1 (by decide)
    _ = W4 m ρ c (Proc.devRef .tc main_v1) := StableHlo.after_of_forall_not_mem (b := Proc.devRef .tc main_v1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v1) := W4_of_ne m ρ c main_v1 (by decide)
    _ = W2 m ρ c (Proc.devRef .tc main_v1) := StableHlo.after_of_forall_not_mem (b := Proc.devRef .tc main_v1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v1) := W2_of_ne m ρ c main_v1 (by decide)

/-- Buffer `main_v1` is not written between boundaries 1 and 12. -/
theorem carry_v1_12_1 : W12 m ρ c (Proc.devRef .tc main_v1) = W1 m ρ c (Proc.devRef .tc main_v1) :=
  calc W12 m ρ c (Proc.devRef .tc main_v1)
    _ = W11 m ρ c (Proc.devRef .tc main_v1) := W12_of_ne m ρ c main_v1 (by decide)
    _ = W10 m ρ c (Proc.devRef .tc main_v1) := W11_of_ne m ρ c main_v1 (by decide)
    _ = W9 m ρ c (Proc.devRef .tc main_v1) := StableHlo.after_of_forall_not_mem (b := Proc.devRef .tc main_v1) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_v1) := W9_of_ne m ρ c main_v1 (by decide)
    _ = W7 m ρ c (Proc.devRef .tc main_v1) := StableHlo.after_of_forall_not_mem (b := Proc.devRef .tc main_v1) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v1) := W7_of_ne m ρ c main_v1 (by decide)
    _ = W5 m ρ c (Proc.devRef .tc main_v1) := W6_of_ne m ρ c main_v1 (by decide)
    _ = W4 m ρ c (Proc.devRef .tc main_v1) := StableHlo.after_of_forall_not_mem (b := Proc.devRef .tc main_v1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v1) := W4_of_ne m ρ c main_v1 (by decide)
    _ = W2 m ρ c (Proc.devRef .tc main_v1) := StableHlo.after_of_forall_not_mem (b := Proc.devRef .tc main_v1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v1) := W2_of_ne m ρ c main_v1 (by decide)

/-- Buffer `main_v3` is not written between boundaries 1 and 2. -/
theorem carry_v3_2_1 : W2 m ρ c (Proc.devRef .tc main_v3) = W1 m ρ c (Proc.devRef .tc main_v3) :=
  calc W2 m ρ c (Proc.devRef .tc main_v3)
    _ = W1 m ρ c (Proc.devRef .tc main_v3) := W2_of_ne m ρ c main_v3 (by decide)

/-- Buffer `main_v3` is not written between boundaries 1 and 7. -/
theorem carry_v3_7_1 : W7 m ρ c (Proc.devRef .tc main_v3) = W1 m ρ c (Proc.devRef .tc main_v3) :=
  calc W7 m ρ c (Proc.devRef .tc main_v3)
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := StableHlo.after_of_forall_not_mem (b := Proc.devRef .tc main_v3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v3) := W4_of_ne m ρ c main_v3 (by decide)
    _ = W2 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := W2_of_ne m ρ c main_v3 (by decide)

/-- Buffer `main_v3` is not written between boundaries 1 and 12. -/
theorem carry_v3_12_1 : W12 m ρ c (Proc.devRef .tc main_v3) = W1 m ρ c (Proc.devRef .tc main_v3) :=
  calc W12 m ρ c (Proc.devRef .tc main_v3)
    _ = W11 m ρ c (Proc.devRef .tc main_v3) := W12_of_ne m ρ c main_v3 (by decide)
    _ = W10 m ρ c (Proc.devRef .tc main_v3) := W11_of_ne m ρ c main_v3 (by decide)
    _ = W9 m ρ c (Proc.devRef .tc main_v3) := StableHlo.after_of_forall_not_mem (b := Proc.devRef .tc main_v3) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_v3) := W9_of_ne m ρ c main_v3 (by decide)
    _ = W7 m ρ c (Proc.devRef .tc main_v3) := StableHlo.after_of_forall_not_mem (b := Proc.devRef .tc main_v3) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := StableHlo.after_of_forall_not_mem (b := Proc.devRef .tc main_v3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v3) := W4_of_ne m ρ c main_v3 (by decide)
    _ = W2 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := W2_of_ne m ρ c main_v3 (by decide)

/-- Buffer `main_v25` is not written between boundaries 1 and 2. -/
theorem carry_v25_2_1 : W2 m ρ c (Proc.devRef .tc main_v25) = W1 m ρ c (Proc.devRef .tc main_v25) :=
  calc W2 m ρ c (Proc.devRef .tc main_v25)
    _ = W1 m ρ c (Proc.devRef .tc main_v25) := W2_of_ne m ρ c main_v25 (by decide)

/-- Buffer `main_v25` is not written between boundaries 1 and 7. -/
theorem carry_v25_7_1 : W7 m ρ c (Proc.devRef .tc main_v25) = W1 m ρ c (Proc.devRef .tc main_v25) :=
  calc W7 m ρ c (Proc.devRef .tc main_v25)
    _ = W6 m ρ c (Proc.devRef .tc main_v25) := W7_of_ne m ρ c main_v25 (by decide)
    _ = W5 m ρ c (Proc.devRef .tc main_v25) := W6_of_ne m ρ c main_v25 (by decide)
    _ = W4 m ρ c (Proc.devRef .tc main_v25) := StableHlo.after_of_forall_not_mem (b := Proc.devRef .tc main_v25) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v25) := W4_of_ne m ρ c main_v25 (by decide)
    _ = W2 m ρ c (Proc.devRef .tc main_v25) := StableHlo.after_of_forall_not_mem (b := Proc.devRef .tc main_v25) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v25) := W2_of_ne m ρ c main_v25 (by decide)

/-- Buffer `main_v25` is not written between boundaries 1 and 12. -/
theorem carry_v25_12_1 : W12 m ρ c (Proc.devRef .tc main_v25) = W1 m ρ c (Proc.devRef .tc main_v25) :=
  calc W12 m ρ c (Proc.devRef .tc main_v25)
    _ = W11 m ρ c (Proc.devRef .tc main_v25) := W12_of_ne m ρ c main_v25 (by decide)
    _ = W10 m ρ c (Proc.devRef .tc main_v25) := W11_of_ne m ρ c main_v25 (by decide)
    _ = W9 m ρ c (Proc.devRef .tc main_v25) := StableHlo.after_of_forall_not_mem (b := Proc.devRef .tc main_v25) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_v25) := W9_of_ne m ρ c main_v25 (by decide)
    _ = W7 m ρ c (Proc.devRef .tc main_v25) := StableHlo.after_of_forall_not_mem (b := Proc.devRef .tc main_v25) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v25) := W7_of_ne m ρ c main_v25 (by decide)
    _ = W5 m ρ c (Proc.devRef .tc main_v25) := W6_of_ne m ρ c main_v25 (by decide)
    _ = W4 m ρ c (Proc.devRef .tc main_v25) := StableHlo.after_of_forall_not_mem (b := Proc.devRef .tc main_v25) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v25) := W4_of_ne m ρ c main_v25 (by decide)
    _ = W2 m ρ c (Proc.devRef .tc main_v25) := StableHlo.after_of_forall_not_mem (b := Proc.devRef .tc main_v25) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v25) := W2_of_ne m ρ c main_v25 (by decide)

/-- Buffer `main_v26` is not written between boundaries 1 and 2. -/
theorem carry_v26_2_1 : W2 m ρ c (Proc.devRef .tc main_v26) = W1 m ρ c (Proc.devRef .tc main_v26) :=
  calc W2 m ρ c (Proc.devRef .tc main_v26)
    _ = W1 m ρ c (Proc.devRef .tc main_v26) := W2_of_ne m ρ c main_v26 (by decide)

/-- Buffer `main_v26` is not written between boundaries 1 and 7. -/
theorem carry_v26_7_1 : W7 m ρ c (Proc.devRef .tc main_v26) = W1 m ρ c (Proc.devRef .tc main_v26) :=
  calc W7 m ρ c (Proc.devRef .tc main_v26)
    _ = W6 m ρ c (Proc.devRef .tc main_v26) := W7_of_ne m ρ c main_v26 (by decide)
    _ = W5 m ρ c (Proc.devRef .tc main_v26) := W6_of_ne m ρ c main_v26 (by decide)
    _ = W4 m ρ c (Proc.devRef .tc main_v26) := StableHlo.after_of_forall_not_mem (b := Proc.devRef .tc main_v26) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v26) := W4_of_ne m ρ c main_v26 (by decide)
    _ = W2 m ρ c (Proc.devRef .tc main_v26) := StableHlo.after_of_forall_not_mem (b := Proc.devRef .tc main_v26) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v26) := W2_of_ne m ρ c main_v26 (by decide)

/-- Buffer `main_v26` is not written between boundaries 1 and 12. -/
theorem carry_v26_12_1 : W12 m ρ c (Proc.devRef .tc main_v26) = W1 m ρ c (Proc.devRef .tc main_v26) :=
  calc W12 m ρ c (Proc.devRef .tc main_v26)
    _ = W11 m ρ c (Proc.devRef .tc main_v26) := W12_of_ne m ρ c main_v26 (by decide)
    _ = W10 m ρ c (Proc.devRef .tc main_v26) := W11_of_ne m ρ c main_v26 (by decide)
    _ = W9 m ρ c (Proc.devRef .tc main_v26) := StableHlo.after_of_forall_not_mem (b := Proc.devRef .tc main_v26) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_v26) := W9_of_ne m ρ c main_v26 (by decide)
    _ = W7 m ρ c (Proc.devRef .tc main_v26) := StableHlo.after_of_forall_not_mem (b := Proc.devRef .tc main_v26) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v26) := W7_of_ne m ρ c main_v26 (by decide)
    _ = W5 m ρ c (Proc.devRef .tc main_v26) := W6_of_ne m ρ c main_v26 (by decide)
    _ = W4 m ρ c (Proc.devRef .tc main_v26) := StableHlo.after_of_forall_not_mem (b := Proc.devRef .tc main_v26) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v26) := W4_of_ne m ρ c main_v26 (by decide)
    _ = W2 m ρ c (Proc.devRef .tc main_v26) := StableHlo.after_of_forall_not_mem (b := Proc.devRef .tc main_v26) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v26) := W2_of_ne m ρ c main_v26 (by decide)

end Cert.KernelIdeal.KValue

end
-- ==== Proof.CarryArgs.lean ====
/-
  Buffers carried across the pipeline, unchanged: each argument array up to the boundary where it is read, and each
  layer's combined array across the host stretch between its combine and normalize kernels.
-/
import proofs.«113071_j28192165331202_1_alg».proof.Proof.Gen.KernelIdeal.Frame
import Idealize.ShloMosaic.Lib.StableHlo.Run
import Idealize.ShloMosaic.PureOps.Ideal

set_option maxRecDepth 16384

noncomputable section

namespace Cert.KernelIdeal.KValue

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

/-- Buffer `main_arg0` is not written between boundaries 0 and 1. -/
theorem carry_arg0_1_0 : W1 m ρ c (Proc.devRef .tc main_arg0) = W0 m ρ c (Proc.devRef .tc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Buffer `main_arg2` is not written between boundaries 0 and 1. -/
theorem carry_arg2_1_0 : W1 m ρ c (Proc.devRef .tc main_arg2) = W0 m ρ c (Proc.devRef .tc main_arg2) :=
  calc W1 m ρ c (Proc.devRef .tc main_arg2)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Buffer `main_arg3` is not written between boundaries 0 and 2. -/
theorem carry_arg3_2_0 : W2 m ρ c (Proc.devRef .tc main_arg3) = W0 m ρ c (Proc.devRef .tc main_arg3) :=
  calc W2 m ρ c (Proc.devRef .tc main_arg3)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Buffer `main_arg4` is not written between boundaries 0 and 4. -/
theorem carry_arg4_4_0 : W4 m ρ c (Proc.devRef .tc main_arg4) = W0 m ρ c (Proc.devRef .tc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Buffer `main_arg5` is not written between boundaries 0 and 4. -/
theorem carry_arg5_4_0 : W4 m ρ c (Proc.devRef .tc main_arg5) = W0 m ρ c (Proc.devRef .tc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Buffer `main_arg6` is not written between boundaries 0 and 6. -/
theorem carry_arg6_6_0 : W6 m ρ c (Proc.devRef .tc main_arg6) = W0 m ρ c (Proc.devRef .tc main_arg6) :=
  calc W6 m ρ c (Proc.devRef .tc main_arg6)
    _ = W5 m ρ c (Proc.devRef .tc main_arg6) := W6_of_ne m ρ c main_arg6 (by decide)
    _ = W4 m ρ c (Proc.devRef .tc main_arg6) := StableHlo.after_of_forall_not_mem (b := Proc.devRef .tc main_arg6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Buffer `main_arg7` is not written between boundaries 0 and 7. -/
theorem carry_arg7_7_0 : W7 m ρ c (Proc.devRef .tc main_arg7) = W0 m ρ c (Proc.devRef .tc main_arg7) :=
  calc W7 m ρ c (Proc.devRef .tc main_arg7)
    _ = W6 m ρ c (Proc.devRef .tc main_arg7) := W7_of_ne m ρ c main_arg7 (by decide)
    _ = W5 m ρ c (Proc.devRef .tc main_arg7) := W6_of_ne m ρ c main_arg7 (by decide)
    _ = W4 m ρ c (Proc.devRef .tc main_arg7) := StableHlo.after_of_forall_not_mem (b := Proc.devRef .tc main_arg7) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Buffer `main_arg8` is not written between boundaries 0 and 9. -/
theorem carry_arg8_9_0 : W9 m ρ c (Proc.devRef .tc main_arg8) = W0 m ρ c (Proc.devRef .tc main_arg8) :=
  calc W9 m ρ c (Proc.devRef .tc main_arg8)
    _ = W8 m ρ c (Proc.devRef .tc main_arg8) := W9_of_ne m ρ c main_arg8 (by decide)
    _ = W7 m ρ c (Proc.devRef .tc main_arg8) := StableHlo.after_of_forall_not_mem (b := Proc.devRef .tc main_arg8) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg8) := W7_of_ne m ρ c main_arg8 (by decide)
    _ = W5 m ρ c (Proc.devRef .tc main_arg8) := W6_of_ne m ρ c main_arg8 (by decide)
    _ = W4 m ρ c (Proc.devRef .tc main_arg8) := StableHlo.after_of_forall_not_mem (b := Proc.devRef .tc main_arg8) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Buffer `main_arg9` is not written between boundaries 0 and 9. -/
theorem carry_arg9_9_0 : W9 m ρ c (Proc.devRef .tc main_arg9) = W0 m ρ c (Proc.devRef .tc main_arg9) :=
  calc W9 m ρ c (Proc.devRef .tc main_arg9)
    _ = W8 m ρ c (Proc.devRef .tc main_arg9) := W9_of_ne m ρ c main_arg9 (by decide)
    _ = W7 m ρ c (Proc.devRef .tc main_arg9) := StableHlo.after_of_forall_not_mem (b := Proc.devRef .tc main_arg9) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg9) := W7_of_ne m ρ c main_arg9 (by decide)
    _ = W5 m ρ c (Proc.devRef .tc main_arg9) := W6_of_ne m ρ c main_arg9 (by decide)
    _ = W4 m ρ c (Proc.devRef .tc main_arg9) := StableHlo.after_of_forall_not_mem (b := Proc.devRef .tc main_arg9) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Buffer `main_arg10` is not written between boundaries 0 and 11. -/
theorem carry_arg10_11_0 : W11 m ρ c (Proc.devRef .tc main_arg10) = W0 m ρ c (Proc.devRef .tc main_arg10) :=
  calc W11 m ρ c (Proc.devRef .tc main_arg10)
    _ = W10 m ρ c (Proc.devRef .tc main_arg10) := W11_of_ne m ρ c main_arg10 (by decide)
    _ = W9 m ρ c (Proc.devRef .tc main_arg10) := StableHlo.after_of_forall_not_mem (b := Proc.devRef .tc main_arg10) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg10) := W9_of_ne m ρ c main_arg10 (by decide)
    _ = W7 m ρ c (Proc.devRef .tc main_arg10) := StableHlo.after_of_forall_not_mem (b := Proc.devRef .tc main_arg10) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg10) := W7_of_ne m ρ c main_arg10 (by decide)
    _ = W5 m ρ c (Proc.devRef .tc main_arg10) := W6_of_ne m ρ c main_arg10 (by decide)
    _ = W4 m ρ c (Proc.devRef .tc main_arg10) := StableHlo.after_of_forall_not_mem (b := Proc.devRef .tc main_arg10) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Buffer `main_arg11` is not written between boundaries 0 and 12. -/
theorem carry_arg11_12_0 : W12 m ρ c (Proc.devRef .tc main_arg11) = W0 m ρ c (Proc.devRef .tc main_arg11) :=
  calc W12 m ρ c (Proc.devRef .tc main_arg11)
    _ = W11 m ρ c (Proc.devRef .tc main_arg11) := W12_of_ne m ρ c main_arg11 (by decide)
    _ = W10 m ρ c (Proc.devRef .tc main_arg11) := W11_of_ne m ρ c main_arg11 (by decide)
    _ = W9 m ρ c (Proc.devRef .tc main_arg11) := StableHlo.after_of_forall_not_mem (b := Proc.devRef .tc main_arg11) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg11) := W9_of_ne m ρ c main_arg11 (by decide)
    _ = W7 m ρ c (Proc.devRef .tc main_arg11) := StableHlo.after_of_forall_not_mem (b := Proc.devRef .tc main_arg11) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg11) := W7_of_ne m ρ c main_arg11 (by decide)
    _ = W5 m ρ c (Proc.devRef .tc main_arg11) := W6_of_ne m ρ c main_arg11 (by decide)
    _ = W4 m ρ c (Proc.devRef .tc main_arg11) := StableHlo.after_of_forall_not_mem (b := Proc.devRef .tc main_arg11) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Buffer `main_v45_0` is not written between boundaries 4 and 5. -/
theorem carry_v45_0_5_4 : W5 m ρ c (Proc.devRef .tc main_v45_0) = W4 m ρ c (Proc.devRef .tc main_v45_0) :=
  calc W5 m ρ c (Proc.devRef .tc main_v45_0)
    _ = W4 m ρ c (Proc.devRef .tc main_v45_0) := StableHlo.after_of_forall_not_mem (b := Proc.devRef .tc main_v45_0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Buffer `main_v81_0` is not written between boundaries 9 and 10. -/
theorem carry_v81_0_10_9 : W10 m ρ c (Proc.devRef .tc main_v81_0) = W9 m ρ c (Proc.devRef .tc main_v81_0) :=
  calc W10 m ρ c (Proc.devRef .tc main_v81_0)
    _ = W9 m ρ c (Proc.devRef .tc main_v81_0) := StableHlo.after_of_forall_not_mem (b := Proc.devRef .tc main_v81_0) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.KernelIdeal.KValue

end
-- ==== Proof.MatmulBlock.lean ====
/-
  The three matrix-product bodies read at an index. A block of 10000 rows of the left operand against the whole
  weight matrix: entry (r, j) of the stored block is the exact sum over the 128 contracted positions k of
  x(r, k) · w(k, j).
-/
import proofs.«113071_j28192165331202_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.KValue

open Idealize.ShloMosaic Idealize.ShloMosaic.ValueIdx Cert.KernelIdeal Cert.KernelIdeal.Gen

/-- Entry `(r, j)` of one block's product: the sum over the contracted axis of the block's row `r` times the
    weight's column `j` (the rounding of both operands to bf16 is the identity on the extended reals, and the
    accumulator is the zero splat). -/
theorem prod0_apply (x0 : Vec Ideal S10000x128 .f32) (x1 : Vec Ideal S128x128 .f32) (r : Fin 10000) (j : Fin 128) :
    k0_pay1 (F := Ideal) x0 x1 (ix2 r j) = ∑ k : Fin 128, x0 (ix2 r k) * x1 (ix2 k j) := by
  unfold k0_pay1
  refine (Ideal.matmul_constant_zero_apply dot_S10000x128_S128x128_S10000x128_1_0_0_1_n_n none _ _ (ix2 r j)).trans ?_
  rw [← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 r j) ((contrEquiv1 dot_S10000x128_S128x128_S10000x128_1_0_0_1_n_n 128 rfl rfl).symm k) = ix2 r k := funext fun a => Fin.ext (by
    match a with
    | ⟨0, _⟩ =>
      show (dot_S10000x128_S128x128_S10000x128_1_0_0_1_n_n.lhsIdx (ix2 r j) _ 0).val = r.val
      unfold DotDims.lhsIdx
      rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
      rfl
    | ⟨1, _⟩ => exact ((dot_S10000x128_S128x128_S10000x128_1_0_0_1_n_n.lhsIdx_val_of_single rfl (ix2 r j) _).trans hk))
  have er : dot_S10000x128_S128x128_S10000x128_1_0_0_1_n_n.rhsIdx (ix2 r j) ((contrEquiv1 dot_S10000x128_S128x128_S10000x128_1_0_0_1_n_n 128 rfl rfl).symm k) = ix2 k j := funext fun a => Fin.ext (by
    match a with
    | ⟨0, _⟩ => exact ((dot_S10000x128_S128x128_S10000x128_1_0_0_1_n_n.rhsIdx_val_of_single rfl (ix2 r j) _).trans hk)
    | ⟨1, _⟩ =>
      show (dot_S10000x128_S128x128_S10000x128_1_0_0_1_n_n.rhsIdx (ix2 r j) _ 1).val = j.val
      unfold DotDims.rhsIdx
      rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
      rfl)
  rw [el, er]
  first | rfl | (rw [shapeCast_self]; rfl)

/-- Entry `(r, j)` of one block's product: the sum over the contracted axis of the block's row `r` times the
    weight's column `j` (the rounding of both operands to bf16 is the identity on the extended reals, and the
    accumulator is the zero splat). -/
theorem prod3_apply (x0 : Vec Ideal S10000x128 .f32) (x1 : Vec Ideal S128x128 .f32) (r : Fin 10000) (j : Fin 128) :
    k3_pay1 (F := Ideal) x0 x1 (ix2 r j) = ∑ k : Fin 128, x0 (ix2 r k) * x1 (ix2 k j) := by
  unfold k3_pay1
  refine (Ideal.matmul_constant_zero_apply dot_S10000x128_S128x128_S10000x128_1_0_0_1_n_n none _ _ (ix2 r j)).trans ?_
  rw [← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 r j) ((contrEquiv1 dot_S10000x128_S128x128_S10000x128_1_0_0_1_n_n 128 rfl rfl).symm k) = ix2 r k := funext fun a => Fin.ext (by
    match a with
    | ⟨0, _⟩ =>
      show (dot_S10000x128_S128x128_S10000x128_1_0_0_1_n_n.lhsIdx (ix2 r j) _ 0).val = r.val
      unfold DotDims.lhsIdx
      rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
      rfl
    | ⟨1, _⟩ => exact ((dot_S10000x128_S128x128_S10000x128_1_0_0_1_n_n.lhsIdx_val_of_single rfl (ix2 r j) _).trans hk))
  have er : dot_S10000x128_S128x128_S10000x128_1_0_0_1_n_n.rhsIdx (ix2 r j) ((contrEquiv1 dot_S10000x128_S128x128_S10000x128_1_0_0_1_n_n 128 rfl rfl).symm k) = ix2 k j := funext fun a => Fin.ext (by
    match a with
    | ⟨0, _⟩ => exact ((dot_S10000x128_S128x128_S10000x128_1_0_0_1_n_n.rhsIdx_val_of_single rfl (ix2 r j) _).trans hk)
    | ⟨1, _⟩ =>
      show (dot_S10000x128_S128x128_S10000x128_1_0_0_1_n_n.rhsIdx (ix2 r j) _ 1).val = j.val
      unfold DotDims.rhsIdx
      rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
      rfl)
  rw [el, er]
  first | rfl | (rw [shapeCast_self]; rfl)

/-- Entry `(r, j)` of one block's product: the sum over the contracted axis of the block's row `r` times the
    weight's column `j` (the rounding of both operands to bf16 is the identity on the extended reals, and the
    accumulator is the zero splat). -/
theorem prod6_apply (x0 : Vec Ideal S10000x128 .f32) (x1 : Vec Ideal S128x10 .f32) (r : Fin 10000) (j : Fin 10) :
    k6_pay1 (F := Ideal) x0 x1 (ix2 r j) = ∑ k : Fin 128, x0 (ix2 r k) * x1 (ix2 k j) := by
  unfold k6_pay1
  refine (Ideal.matmul_constant_zero_apply dot_S10000x128_S128x10_S10000x10_1_0_0_1_n_n none _ _ (ix2 r j)).trans ?_
  rw [← Equiv.sum_comp (contrEquiv1 dot_S10000x128_S128x10_S10000x10_1_0_0_1_n_n 128 rfl rfl).symm]
  refine Finset.sum_congr rfl fun k _ => ?_
  have hk := contrEquiv1_symm_val dot_S10000x128_S128x10_S10000x10_1_0_0_1_n_n 128 rfl rfl k
  have el : dot_S10000x128_S128x10_S10000x10_1_0_0_1_n_n.lhsIdx (ix2 r j) ((contrEquiv1 dot_S10000x128_S128x10_S10000x10_1_0_0_1_n_n 128 rfl rfl).symm k) = ix2 r k := funext fun a => Fin.ext (by
    match a with
    | ⟨0, _⟩ =>
      show (dot_S10000x128_S128x10_S10000x10_1_0_0_1_n_n.lhsIdx (ix2 r j) _ 0).val = r.val
      unfold DotDims.lhsIdx
      rw [dif_neg (show ¬(0 : Fin S10000x128.rank) ∈ dot_S10000x128_S128x10_S10000x10_1_0_0_1_n_n.lhsBatch by decide), dif_pos (show (0 : Fin S10000x128.rank) ∈ dot_S10000x128_S128x10_S10000x10_1_0_0_1_n_n.lhsNonContracting by decide)]
      rfl
    | ⟨1, _⟩ => exact ((dot_S10000x128_S128x10_S10000x10_1_0_0_1_n_n.lhsIdx_val_of_single rfl (ix2 r j) _).trans hk))
  have er : dot_S10000x128_S128x10_S10000x10_1_0_0_1_n_n.rhsIdx (ix2 r j) ((contrEquiv1 dot_S10000x128_S128x10_S10000x10_1_0_0_1_n_n 128 rfl rfl).symm k) = ix2 k j := funext fun a => Fin.ext (by
    match a with
    | ⟨0, _⟩ => exact ((dot_S10000x128_S128x10_S10000x10_1_0_0_1_n_n.rhsIdx_val_of_single rfl (ix2 r j) _).trans hk)
    | ⟨1, _⟩ =>
      show (dot_S10000x128_S128x10_S10000x10_1_0_0_1_n_n.rhsIdx (ix2 r j) _ 1).val = j.val
      unfold DotDims.rhsIdx
      rw [dif_neg (show ¬(1 : Fin S128x10.rank) ∈ dot_S10000x128_S128x10_S10000x10_1_0_0_1_n_n.rhsBatch by decide), dif_pos (show (1 : Fin S128x10.rank) ∈ dot_S10000x128_S128x10_S10000x10_1_0_0_1_n_n.rhsNonContracting by decide)]
      rfl)
  rw [el, er]
  first | rfl | (rw [shapeCast_self]; rfl)

end Cert.KernelIdeal.KValue

end
-- ==== Proof.Product0.lean ====
/-
  Region 0: the matrix product written block by block is the whole product array. Point t of the grid of ten
  multiplies rows [10000 t, 10000 t + 10000) of the left operand by the whole weight matrix and writes that block of
  the result, so entry (i, j) of the result array is the sum over k of x(i, k) · w(k, j), whatever the block.
-/
import proofs.«113071_j28192165331202_1_alg».proof.Proof.Gen.KernelIdeal.Frame
import proofs.«113071_j28192165331202_1_alg».proof.Proof.MatmulBlock

set_option maxRecDepth 16384

noncomputable section

namespace Cert.KernelIdeal.KValue

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem zeros2_0 : (![0, 0] : Fin 2 → Nat) = fun _ => 0 := funext fun a => by fin_cases a <;> rfl

/-- The product of a 100000-row array by a weight matrix, entry by entry. -/
def productArr0 (X : S100000x128.Idx → EReal) (W : S128x128.Idx → EReal) : S100000x128.Idx → EReal :=
  fun i => ∑ k : Fin 128, X (ix2 ⟨(i 0).val, idx2_lt0 i⟩ k) * W (ix2 k ⟨(i 1).val, idx2_lt1 i⟩)

/-- The index maps over the grid: the left operand's and the result's row blocks move together, the weight stays. -/
theorem blocks_0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 9
    ∧ win0_2.index t (1 : Fin 2) = 0 :=
  (by decide +kernel : ∀ t : Fin grid0.N, _)

/-- Every row block of the result is some point's. -/
theorem blocks_onto_0 : ∀ (q0 : Fin 10), ∃ t : Fin cfg0.N, win0_2.index t = ![q0.val, 0] :=
  (by decide +kernel : ∀ (q0 : Fin 10), ∃ t : Fin grid0.N, win0_2.index t = ![q0.val, 0])

/-- What point t writes back is block t of the product array of the arrays the region finds. -/
theorem written_0 (c : Dev nD) (t : Fin cfg0.N) :
    (dat0 (F := Ideal) V c).flushed 2 t = ((cfg0.win 2).blk t).view.read (Elt Ideal) (productArr0 (V c main_arg0) (V c main_arg2)) := by
  show (cfg0.win 2).cut (grid0.coords t) ((dat0 (F := Ideal) V c).after 2 t) = _
  rw [after0_2]
  unfold out0_2
  rw [View.canon_unit_zero zeros2_0]
  simp only [View.ld_unit_zero (S := S10000x128) zeros2_0, View.ld_unit_zero (S := S128x128) zeros2_0]
  obtain ⟨e0, e1, e2, e3, e4, e5⟩ := blocks_0 t
  funext j
  obtain ⟨r, q, rfl⟩ : ∃ (r : Fin 10000) (q : Fin 128), j = ix2 r q := ⟨j 0, j 1, eq_ix2 j⟩
  refine (prod0_apply _ _ r q).trans ?_
  show _ = productArr0 (V c main_arg0) (V c main_arg2) (((cfg0.win 2).blk t).view.emb (ix2 r q))
  unfold productArr0
  refine Finset.sum_congr rfl fun k _ => ?_
  have hx : iblk0 V c 0 t (ix2 r k) = V c main_arg0 (ix2 ⟨((((cfg0.win 2).blk t).view.emb (ix2 r q)) 0).val, idx2_lt0 _⟩ k) := by
    show V c main_arg0 (((cfg0.win 0).blk t).view.emb (ix2 r k)) = _
    refine congrArg (V c main_arg0) (funext fun a => Fin.ext ?_)
    match a with
    | ⟨0, _⟩ => show win0_0.index t (0 : Fin 2) * 10000 + 1 * r.val = win0_2.index t (0 : Fin 2) * 10000 + 1 * r.val; omega
    | ⟨1, _⟩ => show win0_0.index t (1 : Fin 2) * 128 + 1 * k.val = k.val; omega
  have hw : iblk0 V c 1 t (ix2 k q) = V c main_arg2 (ix2 k ⟨((((cfg0.win 2).blk t).view.emb (ix2 r q)) 1).val, idx2_lt1 _⟩) := by
    show V c main_arg2 (((cfg0.win 1).blk t).view.emb (ix2 k q)) = _
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  rw [hx, hw]

/-- An index of the result is in point t's block iff each coordinate is in the block's range on its axis. -/
theorem in_block_0 (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v27).slice (win0_2.rect t)).set ↔ _
  rw [View.set_slice_whole, Rect.mem_set_unit]
  exact Iff.rfl

/-- The ten row blocks tile the result: row i lies in block i / 10000. -/
theorem tiled_0 (i : S100000x128.Idx) :
    ∃ t : Fin cfg0.N, (cfg0.win 2).flush t = true ∧ i ∈ ((cfg0.win 2).blk t).view.set := by
  have hi0 : (i 0).val < 100000 := idx2_lt0 i
  have hi1 : (i 1).val < 128 := idx2_lt1 i
  obtain ⟨t, ht⟩ := blocks_onto_0 ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [in_block_0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- After the region the result array is the product array of the arrays it found. -/
theorem product_0 (c : Dev nD) :
    (dat0 (F := Ideal) V c).arrAt 2 cfg0.N = productArr0 (V c main_arg0) (V c main_arg2) :=
  (dat0 (F := Ideal) V c).arrAt_eq_of_cover 2 _ (fun t _ => written_0 V c t) (tiled_0)

end Cert.KernelIdeal.KValue

end
-- ==== Proof.Product3.lean ====
/-
  Region 3: the matrix product written block by block is the whole product array. Point t of the grid of ten
  multiplies rows [10000 t, 10000 t + 10000) of the left operand by the whole weight matrix and writes that block of
  the result, so entry (i, j) of the result array is the sum over k of x(i, k) · w(k, j), whatever the block.
-/
import proofs.«113071_j28192165331202_1_alg».proof.Proof.Gen.KernelIdeal.Frame
import proofs.«113071_j28192165331202_1_alg».proof.Proof.MatmulBlock

set_option maxRecDepth 16384

noncomputable section

namespace Cert.KernelIdeal.KValue

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem zeros2_3 : (![0, 0] : Fin 2 → Nat) = fun _ => 0 := funext fun a => by fin_cases a <;> rfl

/-- The product of a 100000-row array by a weight matrix, entry by entry. -/
def productArr3 (X : S100000x128.Idx → EReal) (W : S128x128.Idx → EReal) : S100000x128.Idx → EReal :=
  fun i => ∑ k : Fin 128, X (ix2 ⟨(i 0).val, idx2_lt0 i⟩ k) * W (ix2 k ⟨(i 1).val, idx2_lt1 i⟩)

/-- The index maps over the grid: the left operand's and the result's row blocks move together, the weight stays. -/
theorem blocks_3 : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (0 : Fin 2) ≤ 9
    ∧ win3_2.index t (1 : Fin 2) = 0 :=
  (by decide +kernel : ∀ t : Fin grid3.N, _)

/-- Every row block of the result is some point's. -/
theorem blocks_onto_3 : ∀ (q0 : Fin 10), ∃ t : Fin cfg3.N, win3_2.index t = ![q0.val, 0] :=
  (by decide +kernel : ∀ (q0 : Fin 10), ∃ t : Fin grid3.N, win3_2.index t = ![q0.val, 0])

/-- What point t writes back is block t of the product array of the arrays the region finds. -/
theorem written_3 (c : Dev nD) (t : Fin cfg3.N) :
    (dat3 (F := Ideal) V c).flushed 2 t = ((cfg3.win 2).blk t).view.read (Elt Ideal) (productArr3 (V c main_v62) (V c main_arg6)) := by
  show (cfg3.win 2).cut (grid3.coords t) ((dat3 (F := Ideal) V c).after 2 t) = _
  rw [after3_2]
  unfold out3_2
  rw [View.canon_unit_zero zeros2_3]
  simp only [View.ld_unit_zero (S := S10000x128) zeros2_3, View.ld_unit_zero (S := S128x128) zeros2_3]
  obtain ⟨e0, e1, e2, e3, e4, e5⟩ := blocks_3 t
  funext j
  obtain ⟨r, q, rfl⟩ : ∃ (r : Fin 10000) (q : Fin 128), j = ix2 r q := ⟨j 0, j 1, eq_ix2 j⟩
  refine (prod3_apply _ _ r q).trans ?_
  show _ = productArr3 (V c main_v62) (V c main_arg6) (((cfg3.win 2).blk t).view.emb (ix2 r q))
  unfold productArr3
  refine Finset.sum_congr rfl fun k _ => ?_
  have hx : iblk3 V c 0 t (ix2 r k) = V c main_v62 (ix2 ⟨((((cfg3.win 2).blk t).view.emb (ix2 r q)) 0).val, idx2_lt0 _⟩ k) := by
    show V c main_v62 (((cfg3.win 0).blk t).view.emb (ix2 r k)) = _
    refine congrArg (V c main_v62) (funext fun a => Fin.ext ?_)
    match a with
    | ⟨0, _⟩ => show win3_0.index t (0 : Fin 2) * 10000 + 1 * r.val = win3_2.index t (0 : Fin 2) * 10000 + 1 * r.val; omega
    | ⟨1, _⟩ => show win3_0.index t (1 : Fin 2) * 128 + 1 * k.val = k.val; omega
  have hw : iblk3 V c 1 t (ix2 k q) = V c main_arg6 (ix2 k ⟨((((cfg3.win 2).blk t).view.emb (ix2 r q)) 1).val, idx2_lt1 _⟩) := by
    show V c main_arg6 (((cfg3.win 1).blk t).view.emb (ix2 k q)) = _
    refine congrArg (V c main_arg6) (funext fun a => Fin.ext ?_)
    match a with
    | ⟨0, _⟩ => show win3_1.index t (0 : Fin 2) * 128 + 1 * k.val = k.val; omega
    | ⟨1, _⟩ => show win3_1.index t (1 : Fin 2) * 128 + 1 * q.val = win3_2.index t (1 : Fin 2) * 128 + 1 * q.val; omega
  rw [hx, hw]

/-- An index of the result is in point t's block iff each coordinate is in the block's range on its axis. -/
theorem in_block_3 (t : Fin cfg3.N) (i : S100000x128.Idx) :
    i ∈ ((cfg3.win 2).blk t).view.set ↔ ∀ a : Fin 2, win3_2.index t a * S10000x128.size a ≤ (i a).val ∧ (i a).val < win3_2.index t a * S10000x128.size a + S10000x128.size a := by
  show i ∈ ((View.whole main_v63).slice (win3_2.rect t)).set ↔ _
  rw [View.set_slice_whole, Rect.mem_set_unit]
  exact Iff.rfl

/-- The ten row blocks tile the result: row i lies in block i / 10000. -/
theorem tiled_3 (i : S100000x128.Idx) :
    ∃ t : Fin cfg3.N, (cfg3.win 2).flush t = true ∧ i ∈ ((cfg3.win 2).blk t).view.set := by
  have hi0 : (i 0).val < 100000 := idx2_lt0 i
  have hi1 : (i 1).val < 128 := idx2_lt1 i
  obtain ⟨t, ht⟩ := blocks_onto_3 ⟨(i 0).val / 10000, by omega⟩
  have q0 : win3_2.index t (0 : Fin 2) = (i 0).val / 10000 := congrFun ht 0
  have q1 : win3_2.index t (1 : Fin 2) = 0 := congrFun ht 1
  refine ⟨t, flush3_2 t, ?_⟩
  rw [in_block_3]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 128 ≤ (i 1).val ∧ (i 1).val < win3_2.index t (1 : Fin 2) * 128 + 128; omega

/-- After the region the result array is the product array of the arrays it found. -/
theorem product_3 (c : Dev nD) :
    (dat3 (F := Ideal) V c).arrAt 2 cfg3.N = productArr3 (V c main_v62) (V c main_arg6) :=
  (dat3 (F := Ideal) V c).arrAt_eq_of_cover 2 _ (fun t _ => written_3 V c t) (tiled_3)

end Cert.KernelIdeal.KValue

end
-- ==== Proof.Product6.lean ====
/-
  Region 6: the matrix product written block by block is the whole product array. Point t of the grid of ten
  multiplies rows [10000 t, 10000 t + 10000) of the left operand by the whole weight matrix and writes that block of
  the result, so entry (i, j) of the result array is the sum over k of x(i, k) · w(k, j), whatever the block.
-/
import proofs.«113071_j28192165331202_1_alg».proof.Proof.Gen.KernelIdeal.Frame
import proofs.«113071_j28192165331202_1_alg».proof.Proof.MatmulBlock

set_option maxRecDepth 16384

noncomputable section

namespace Cert.KernelIdeal.KValue

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem zeros2_6 : (![0, 0] : Fin 2 → Nat) = fun _ => 0 := funext fun a => by fin_cases a <;> rfl

/-- The product of a 100000-row array by a weight matrix, entry by entry. -/
def productArr6 (X : S100000x128.Idx → EReal) (W : S128x10.Idx → EReal) : S100000x10.Idx → EReal :=
  fun i => ∑ k : Fin 128, X (ix2 ⟨(i 0).val, idx2_lt0 i⟩ k) * W (ix2 k ⟨(i 1).val, idx2_lt1 i⟩)

/-- The index maps over the grid: the left operand's and the result's row blocks move together, the weight stays. -/
theorem blocks_6 : ∀ t : Fin cfg6.N, win6_0.index t (0 : Fin 2) = win6_2.index t (0 : Fin 2)
    ∧ win6_0.index t (1 : Fin 2) = 0
    ∧ win6_1.index t (0 : Fin 2) = 0
    ∧ win6_1.index t (1 : Fin 2) = 0
    ∧ win6_2.index t (0 : Fin 2) ≤ 9
    ∧ win6_2.index t (1 : Fin 2) = 0 :=
  (by decide +kernel : ∀ t : Fin grid6.N, _)

/-- Every row block of the result is some point's. -/
theorem blocks_onto_6 : ∀ (q0 : Fin 10), ∃ t : Fin cfg6.N, win6_2.index t = ![q0.val, 0] :=
  (by decide +kernel : ∀ (q0 : Fin 10), ∃ t : Fin grid6.N, win6_2.index t = ![q0.val, 0])

/-- What point t writes back is block t of the product array of the arrays the region finds. -/
theorem written_6 (c : Dev nD) (t : Fin cfg6.N) :
    (dat6 (F := Ideal) V c).flushed 2 t = ((cfg6.win 2).blk t).view.read (Elt Ideal) (productArr6 (V c main_v98) (V c main_arg10)) := by
  show (cfg6.win 2).cut (grid6.coords t) ((dat6 (F := Ideal) V c).after 2 t) = _
  rw [after6_2]
  unfold out6_2
  rw [View.canon_unit_zero zeros2_6]
  simp only [View.ld_unit_zero (S := S10000x128) zeros2_6, View.ld_unit_zero (S := S128x10) zeros2_6]
  obtain ⟨e0, e1, e2, e3, e4, e5⟩ := blocks_6 t
  funext j
  obtain ⟨r, q, rfl⟩ : ∃ (r : Fin 10000) (q : Fin 10), j = ix2 r q := ⟨j 0, j 1, eq_ix2 j⟩
  refine (prod6_apply _ _ r q).trans ?_
  show _ = productArr6 (V c main_v98) (V c main_arg10) (((cfg6.win 2).blk t).view.emb (ix2 r q))
  unfold productArr6
  refine Finset.sum_congr rfl fun k _ => ?_
  have hx : iblk6 V c 0 t (ix2 r k) = V c main_v98 (ix2 ⟨((((cfg6.win 2).blk t).view.emb (ix2 r q)) 0).val, idx2_lt0 _⟩ k) := by
    show V c main_v98 (((cfg6.win 0).blk t).view.emb (ix2 r k)) = _
    refine congrArg (V c main_v98) (funext fun a => Fin.ext ?_)
    match a with
    | ⟨0, _⟩ => show win6_0.index t (0 : Fin 2) * 10000 + 1 * r.val = win6_2.index t (0 : Fin 2) * 10000 + 1 * r.val; omega
    | ⟨1, _⟩ => show win6_0.index t (1 : Fin 2) * 128 + 1 * k.val = k.val; omega
  have hw : iblk6 V c 1 t (ix2 k q) = V c main_arg10 (ix2 k ⟨((((cfg6.win 2).blk t).view.emb (ix2 r q)) 1).val, idx2_lt1 _⟩) := by
    show V c main_arg10 (((cfg6.win 1).blk t).view.emb (ix2 k q)) = _
    refine congrArg (V c main_arg10) (funext fun a => Fin.ext ?_)
    match a with
    | ⟨0, _⟩ => show win6_1.index t (0 : Fin 2) * 128 + 1 * k.val = k.val; omega
    | ⟨1, _⟩ => show win6_1.index t (1 : Fin 2) * 10 + 1 * q.val = win6_2.index t (1 : Fin 2) * 10 + 1 * q.val; omega
  rw [hx, hw]

/-- An index of the result is in point t's block iff each coordinate is in the block's range on its axis. -/
theorem in_block_6 (t : Fin cfg6.N) (i : S100000x10.Idx) :
    i ∈ ((cfg6.win 2).blk t).view.set ↔ ∀ a : Fin 2, win6_2.index t a * S10000x10.size a ≤ (i a).val ∧ (i a).val < win6_2.index t a * S10000x10.size a + S10000x10.size a := by
  show i ∈ ((View.whole main_v99).slice (win6_2.rect t)).set ↔ _
  rw [View.set_slice_whole, Rect.mem_set_unit]
  exact Iff.rfl

/-- The ten row blocks tile the result: row i lies in block i / 10000. -/
theorem tiled_6 (i : S100000x10.Idx) :
    ∃ t : Fin cfg6.N, (cfg6.win 2).flush t = true ∧ i ∈ ((cfg6.win 2).blk t).view.set := by
  have hi0 : (i 0).val < 100000 := idx2_lt0 i
  have hi1 : (i 1).val < 10 := idx2_lt1 i
  obtain ⟨t, ht⟩ := blocks_onto_6 ⟨(i 0).val / 10000, by omega⟩
  have q0 : win6_2.index t (0 : Fin 2) = (i 0).val / 10000 := congrFun ht 0
  have q1 : win6_2.index t (1 : Fin 2) = 0 := congrFun ht 1
  refine ⟨t, flush6_2 t, ?_⟩
  rw [in_block_6]
  intro a
  match a with
  | ⟨0, _⟩ => show win6_2.index t (0 : Fin 2) * 10000 ≤ (i 0).val ∧ (i 0).val < win6_2.index t (0 : Fin 2) * 10000 + 10000; omega
  | ⟨1, _⟩ => show win6_2.index t (1 : Fin 2) * 10 ≤ (i 1).val ∧ (i 1).val < win6_2.index t (1 : Fin 2) * 10 + 10; omega

/-- After the region the result array is the product array of the arrays it found. -/
theorem product_6 (c : Dev nD) :
    (dat6 (F := Ideal) V c).arrAt 2 cfg6.N = productArr6 (V c main_v98) (V c main_arg10) :=
  (dat6 (F := Ideal) V c).arrAt_eq_of_cover 2 _ (fun t _ => written_6 V c t) (tiled_6)

end Cert.KernelIdeal.KValue

end
-- ==== Proof.PointwiseBlock.lean ====
/-
  The bodies of the combine and the normalize kernels read at an index. A combine block is agg + self + bias, entry by
  entry, and its two one-row accumulators gain the block's column sums of the combined values and of their squares;
  a normalize block is max(x · scale + shift, 0), the scale and the shift one row broadcast over the block's rows.
-/
import proofs.«113071_j28192165331202_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KValue

open Idealize.ShloMosaic Idealize.ShloMosaic.ValueIdx Cert.KernelIdeal Cert.KernelIdeal.Gen

/-- A lane sum down the 10000 rows of a block, at column j. -/
theorem colsum128 (src : FVec Ideal S10000x128 .f32) (h : S10000x128.Reduces [0] S128) (hφ : FKind.Formats .f32)
    (hacc : (0x00000000#32 : BitVec 32) = 0x00000000#32) (j : Fin 128) :
    multiReduction .add [0] S128 src 0x00000000#32 h hφ hacc (ix1 j) = ∑ r : Fin 10000, src (ix2 r j) :=
  (Ideal.multiReduction_add_single src 0x00000000#32 h hφ hacc (ix1 j)).trans
    (Finset.sum_congr rfl fun r _ => congrArg src (funext fun a => by match a with | ⟨0, _⟩ => rfl | ⟨1, _⟩ => rfl))

theorem colsum10 (src : FVec Ideal S10000x10 .f32) (h : S10000x10.Reduces [0] S10) (hφ : FKind.Formats .f32)
    (hacc : (0x00000000#32 : BitVec 32) = 0x00000000#32) (j : Fin 10) :
    multiReduction .add [0] S10 src 0x00000000#32 h hφ hacc (ix1 j) = ∑ r : Fin 10000, src (ix2 r j) :=
  (Ideal.multiReduction_add_single src 0x00000000#32 h hφ hacc (ix1 j)).trans
    (Finset.sum_congr rfl fun r _ => congrArg src (funext fun a => by match a with | ⟨0, _⟩ => rfl | ⟨1, _⟩ => rfl))

/-- Region 1's combined block at (r, j): the aggregated entry plus the self-loop entry plus the bias of column j. -/
theorem comb1_apply (v3 v5 : Vec Ideal S10000x128 .f32) (v8 : Vec Ideal S1x128 .f32) (r : Fin 10000) (j : Fin 128) :
    k1_pay3 (F := Ideal) v3 v5 v8 (ix2 r j) = (v3 (ix2 r j) + v5 (ix2 r j)) + v8 (ix2 (0 : Fin 1) j) := by
  unfold k1_pay3
  show (shapeCast S10000x128 v3 _ (ix2 r j) + shapeCast S10000x128 v5 _ (ix2 r j))
    + broadcastTo S10000x128 (shapeCast S1x128 v8 _) _ (ix2 r j) = _
  rw [shapeCast_self, shapeCast_self, shapeCast_self]
  exact congrArg (_ + ·) (broadcastTo_1b_ab_apply v8 _ r j)

/-- Region 1's running column sum after a point: what it held before plus the sum of the block's column j. -/
theorem colsum1_apply (v3 v5 : Vec Ideal S10000x128 .f32) (v8 v13 : Vec Ideal S1x128 .f32) (j : Fin 128) :
    k1_pay4 (F := Ideal) v3 v5 v8 v13 (ix2 (0 : Fin 1) j)
      = v13 (ix2 (0 : Fin 1) j) + ∑ r : Fin 10000, k1_pay3 (F := Ideal) v3 v5 v8 (ix2 r j) := by
  unfold k1_pay4
  show shapeCast S1x128 v13 _ (ix2 (0 : Fin 1) j) + shapeCast S1x128 (multiReduction .add [0] S128 (k1_pay3 (F := Ideal) v3 v5 v8) 0x00000000#32 _ _ _) _ (ix2 (0 : Fin 1) j) = _
  rw [shapeCast_self]
  refine congrArg (_ + ·) ?_
  refine (shapeCast_a_1a_apply _ _ (0 : Fin 1) j).trans ?_
  exact colsum128 _ _ _ _ j

/-- Region 1's running column sum of squares after a point. -/
theorem colsq1_apply (v3 v5 : Vec Ideal S10000x128 .f32) (v8 v19 : Vec Ideal S1x128 .f32) (j : Fin 128) :
    k1_pay5 (F := Ideal) v3 v5 v8 v19 (ix2 (0 : Fin 1) j)
      = v19 (ix2 (0 : Fin 1) j) + ∑ r : Fin 10000, k1_pay3 (F := Ideal) v3 v5 v8 (ix2 r j) * k1_pay3 (F := Ideal) v3 v5 v8 (ix2 r j) := by
  unfold k1_pay5
  show shapeCast S1x128 v19 _ (ix2 (0 : Fin 1) j) + shapeCast S1x128 (multiReduction .add [0] S128 (mulf (k1_pay3 (F := Ideal) v3 v5 v8) (k1_pay3 (F := Ideal) v3 v5 v8)) 0x00000000#32 _ _ _) _ (ix2 (0 : Fin 1) j) = _
  rw [shapeCast_self]
  refine congrArg (_ + ·) ?_
  refine (shapeCast_a_1a_apply _ _ (0 : Fin 1) j).trans ?_
  exact colsum128 _ _ _ _ j

/-- The first point resets both accumulators to zero. -/
theorem reset1a_apply (i : S1x128.Idx) : k1_pay1 (F := Ideal) i = 0 := by
  unfold k1_pay1
  show Ideal.ofBits .f32 0x00000000#32 = 0
  exact Ideal.ofBits_zero_f32
theorem reset1b_apply (i : S1x128.Idx) : k1_pay2 (F := Ideal) i = 0 := by
  unfold k1_pay2
  show Ideal.ofBits .f32 0x00000000#32 = 0
  exact Ideal.ofBits_zero_f32

/-- Region 4's combined block at (r, j): the aggregated entry plus the self-loop entry plus the bias of column j. -/
theorem comb4_apply (v3 v5 : Vec Ideal S10000x128 .f32) (v8 : Vec Ideal S1x128 .f32) (r : Fin 10000) (j : Fin 128) :
    k4_pay3 (F := Ideal) v3 v5 v8 (ix2 r j) = (v3 (ix2 r j) + v5 (ix2 r j)) + v8 (ix2 (0 : Fin 1) j) := by
  unfold k4_pay3
  show (shapeCast S10000x128 v3 _ (ix2 r j) + shapeCast S10000x128 v5 _ (ix2 r j))
    + broadcastTo S10000x128 (shapeCast S1x128 v8 _) _ (ix2 r j) = _
  rw [shapeCast_self, shapeCast_self, shapeCast_self]
  exact congrArg (_ + ·) (broadcastTo_1b_ab_apply v8 _ r j)

/-- Region 4's running column sum after a point: what it held before plus the sum of the block's column j. -/
theorem colsum4_apply (v3 v5 : Vec Ideal S10000x128 .f32) (v8 v13 : Vec Ideal S1x128 .f32) (j : Fin 128) :
    k4_pay4 (F := Ideal) v3 v5 v8 v13 (ix2 (0 : Fin 1) j)
      = v13 (ix2 (0 : Fin 1) j) + ∑ r : Fin 10000, k4_pay3 (F := Ideal) v3 v5 v8 (ix2 r j) := by
  unfold k4_pay4
  show shapeCast S1x128 v13 _ (ix2 (0 : Fin 1) j) + shapeCast S1x128 (multiReduction .add [0] S128 (k4_pay3 (F := Ideal) v3 v5 v8) 0x00000000#32 _ _ _) _ (ix2 (0 : Fin 1) j) = _
  rw [shapeCast_self]
  refine congrArg (_ + ·) ?_
  refine (shapeCast_a_1a_apply _ _ (0 : Fin 1) j).trans ?_
  exact colsum128 _ _ _ _ j

/-- Region 4's running column sum of squares after a point. -/
theorem colsq4_apply (v3 v5 : Vec Ideal S10000x128 .f32) (v8 v19 : Vec Ideal S1x128 .f32) (j : Fin 128) :
    k4_pay5 (F := Ideal) v3 v5 v8 v19 (ix2 (0 : Fin 1) j)
      = v19 (ix2 (0 : Fin 1) j) + ∑ r : Fin 10000, k4_pay3 (F := Ideal) v3 v5 v8 (ix2 r j) * k4_pay3 (F := Ideal) v3 v5 v8 (ix2 r j) := by
  unfold k4_pay5
  show shapeCast S1x128 v19 _ (ix2 (0 : Fin 1) j) + shapeCast S1x128 (multiReduction .add [0] S128 (mulf (k4_pay3 (F := Ideal) v3 v5 v8) (k4_pay3 (F := Ideal) v3 v5 v8)) 0x00000000#32 _ _ _) _ (ix2 (0 : Fin 1) j) = _
  rw [shapeCast_self]
  refine congrArg (_ + ·) ?_
  refine (shapeCast_a_1a_apply _ _ (0 : Fin 1) j).trans ?_
  exact colsum128 _ _ _ _ j

/-- The first point resets both accumulators to zero. -/
theorem reset4a_apply (i : S1x128.Idx) : k4_pay1 (F := Ideal) i = 0 := by
  unfold k4_pay1
  show Ideal.ofBits .f32 0x00000000#32 = 0
  exact Ideal.ofBits_zero_f32
theorem reset4b_apply (i : S1x128.Idx) : k4_pay2 (F := Ideal) i = 0 := by
  unfold k4_pay2
  show Ideal.ofBits .f32 0x00000000#32 = 0
  exact Ideal.ofBits_zero_f32

/-- Region 7's combined block at (r, j): the aggregated entry plus the self-loop entry plus the bias of column j. -/
theorem comb7_apply (v3 v5 : Vec Ideal S10000x10 .f32) (v8 : Vec Ideal S1x10 .f32) (r : Fin 10000) (j : Fin 10) :
    k7_pay3 (F := Ideal) v3 v5 v8 (ix2 r j) = (v3 (ix2 r j) + v5 (ix2 r j)) + v8 (ix2 (0 : Fin 1) j) := by
  unfold k7_pay3
  show (shapeCast S10000x10 v3 _ (ix2 r j) + shapeCast S10000x10 v5 _ (ix2 r j))
    + broadcastTo S10000x10 (shapeCast S1x10 v8 _) _ (ix2 r j) = _
  rw [shapeCast_self, shapeCast_self, shapeCast_self]
  exact congrArg (_ + ·) (broadcastTo_1b_ab_apply v8 _ r j)

/-- Region 7's running column sum after a point: what it held before plus the sum of the block's column j. -/
theorem colsum7_apply (v3 v5 : Vec Ideal S10000x10 .f32) (v8 v13 : Vec Ideal S1x10 .f32) (j : Fin 10) :
    k7_pay4 (F := Ideal) v3 v5 v8 v13 (ix2 (0 : Fin 1) j)
      = v13 (ix2 (0 : Fin 1) j) + ∑ r : Fin 10000, k7_pay3 (F := Ideal) v3 v5 v8 (ix2 r j) := by
  unfold k7_pay4
  show shapeCast S1x10 v13 _ (ix2 (0 : Fin 1) j) + shapeCast S1x10 (multiReduction .add [0] S10 (k7_pay3 (F := Ideal) v3 v5 v8) 0x00000000#32 _ _ _) _ (ix2 (0 : Fin 1) j) = _
  rw [shapeCast_self]
  refine congrArg (_ + ·) ?_
  refine (shapeCast_a_1a_apply _ _ (0 : Fin 1) j).trans ?_
  exact colsum10 _ _ _ _ j

/-- Region 7's running column sum of squares after a point. -/
theorem colsq7_apply (v3 v5 : Vec Ideal S10000x10 .f32) (v8 v19 : Vec Ideal S1x10 .f32) (j : Fin 10) :
    k7_pay5 (F := Ideal) v3 v5 v8 v19 (ix2 (0 : Fin 1) j)
      = v19 (ix2 (0 : Fin 1) j) + ∑ r : Fin 10000, k7_pay3 (F := Ideal) v3 v5 v8 (ix2 r j) * k7_pay3 (F := Ideal) v3 v5 v8 (ix2 r j) := by
  unfold k7_pay5
  show shapeCast S1x10 v19 _ (ix2 (0 : Fin 1) j) + shapeCast S1x10 (multiReduction .add [0] S10 (mulf (k7_pay3 (F := Ideal) v3 v5 v8) (k7_pay3 (F := Ideal) v3 v5 v8)) 0x00000000#32 _ _ _) _ (ix2 (0 : Fin 1) j) = _
  rw [shapeCast_self]
  refine congrArg (_ + ·) ?_
  refine (shapeCast_a_1a_apply _ _ (0 : Fin 1) j).trans ?_
  exact colsum10 _ _ _ _ j

/-- The first point resets both accumulators to zero. -/
theorem reset7a_apply (i : S1x10.Idx) : k7_pay1 (F := Ideal) i = 0 := by
  unfold k7_pay1
  show Ideal.ofBits .f32 0x00000000#32 = 0
  exact Ideal.ofBits_zero_f32
theorem reset7b_apply (i : S1x10.Idx) : k7_pay2 (F := Ideal) i = 0 := by
  unfold k7_pay2
  show Ideal.ofBits .f32 0x00000000#32 = 0
  exact Ideal.ofBits_zero_f32

/-- Region 2's normalized block at (r, j): the entry times the column's scale plus the column's shift, cut below at 0. -/
theorem norm2_apply (v0 : Vec Ideal S10000x128 .f32) (v2 v6 : Vec Ideal S1x128 .f32) (r : Fin 10000) (j : Fin 128) :
    k2_pay1 (F := Ideal) v0 v2 v6 (ix2 r j) = max (v0 (ix2 r j) * v2 (ix2 (0 : Fin 1) j) + v6 (ix2 (0 : Fin 1) j)) 0 := by
  unfold k2_pay1
  show max (shapeCast S10000x128 v0 _ (ix2 r j) * broadcastTo S10000x128 (shapeCast S1x128 v2 _) _ (ix2 r j)
      + broadcastTo S10000x128 (shapeCast S1x128 v6 _) _ (ix2 r j)) (Ideal.ofBits .f32 0x00000000#32) = _
  rw [shapeCast_self, shapeCast_self, shapeCast_self, Ideal.ofBits_zero_f32,
    broadcastTo_1b_ab_apply v2 _ r j, broadcastTo_1b_ab_apply v6 _ r j]

/-- Region 5's normalized block at (r, j): the entry times the column's scale plus the column's shift, cut below at 0. -/
theorem norm5_apply (v0 : Vec Ideal S10000x128 .f32) (v2 v6 : Vec Ideal S1x128 .f32) (r : Fin 10000) (j : Fin 128) :
    k5_pay1 (F := Ideal) v0 v2 v6 (ix2 r j) = max (v0 (ix2 r j) * v2 (ix2 (0 : Fin 1) j) + v6 (ix2 (0 : Fin 1) j)) 0 := by
  unfold k5_pay1
  show max (shapeCast S10000x128 v0 _ (ix2 r j) * broadcastTo S10000x128 (shapeCast S1x128 v2 _) _ (ix2 r j)
      + broadcastTo S10000x128 (shapeCast S1x128 v6 _) _ (ix2 r j)) (Ideal.ofBits .f32 0x00000000#32) = _
  rw [shapeCast_self, shapeCast_self, shapeCast_self, Ideal.ofBits_zero_f32,
    broadcastTo_1b_ab_apply v2 _ r j, broadcastTo_1b_ab_apply v6 _ r j]

end Cert.KernelIdeal.KValue

end
-- ==== Proof.Norm2.lean ====
/-
  Region 2: the normalize-and-cut kernel written block by block is one whole-array function. Point t handles rows
  [10000 t, 10000 t + 10000); the scale and the shift are one row each, the same at every point. Entry (i, j) of the
  result is max(x(i, j) · scale(j) + shift(j), 0).
-/
import proofs.«113071_j28192165331202_1_alg».proof.Proof.Gen.KernelIdeal.Frame
import proofs.«113071_j28192165331202_1_alg».proof.Proof.PointwiseBlock

set_option maxRecDepth 16384

noncomputable section

namespace Cert.KernelIdeal.KValue

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem zeros2_n2 : (![0, 0] : Fin 2 → Nat) = fun _ => 0 := funext fun a => by fin_cases a <;> rfl

/-- x · scale + shift cut below at zero, the scale and shift taken from the one row at the entry's column. -/
def normArr2 (X : S100000x128.Idx → EReal) (Sc Sh : S1x128.Idx → EReal) : S100000x128.Idx → EReal :=
  fun i => max (X i * Sc (ix2 (0 : Fin 1) ⟨(i 1).val, idx2_lt1 i⟩) + Sh (ix2 (0 : Fin 1) ⟨(i 1).val, idx2_lt1 i⟩)) 0

/-- The index maps over the grid: the input's and the result's row blocks move together, the two rows stay. -/
theorem nblocks_2 : ∀ t : Fin cfg2.N, win2_0.index t (0 : Fin 2) = win2_3.index t (0 : Fin 2)
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) ≤ 9
    ∧ win2_3.index t (1 : Fin 2) = 0 :=
  (by decide +kernel : ∀ t : Fin grid2.N, _)

theorem nblocks_onto_2 : ∀ (q0 : Fin 10), ∃ t : Fin cfg2.N, win2_3.index t = ![q0.val, 0] :=
  (by decide +kernel : ∀ (q0 : Fin 10), ∃ t : Fin grid2.N, win2_3.index t = ![q0.val, 0])

/-- What point t writes back is block t of the normalized array of the arrays the region finds. -/
theorem nwritten_2 (c : Dev nD) (t : Fin cfg2.N) :
    (dat2 (F := Ideal) V c).flushed 3 t = ((cfg2.win 3).blk t).view.read (Elt Ideal) (normArr2 (V c main_v45_0) (V c main_v60) (V c main_v61)) := by
  show (cfg2.win 3).cut (grid2.coords t) ((dat2 (F := Ideal) V c).after 3 t) = _
  rw [after2_3]
  unfold out2_3
  rw [View.canon_unit_zero zeros2_n2]
  simp only [View.ld_unit_zero (S := S10000x128) zeros2_n2, View.ld_unit_zero (S := S1x128) zeros2_n2]
  obtain ⟨e0, e1, e2, e3, e4, e5, e6, e7⟩ := nblocks_2 t
  funext j
  obtain ⟨r, q, rfl⟩ : ∃ (r : Fin 10000) (q : Fin 128), j = ix2 r q := ⟨j 0, j 1, eq_ix2 j⟩
  refine (norm2_apply _ _ _ r q).trans ?_
  show _ = normArr2 (V c main_v45_0) (V c main_v60) (V c main_v61) (((cfg2.win 3).blk t).view.emb (ix2 r q))
  unfold normArr2
  have hx : iblk2 V c 0 t (ix2 r q) = V c main_v45_0 (((cfg2.win 3).blk t).view.emb (ix2 r q)) := by
    show V c main_v45_0 (((cfg2.win 0).blk t).view.emb (ix2 r q)) = _
    refine congrArg (V c main_v45_0) (funext fun a => Fin.ext ?_)
    match a with
    | ⟨0, _⟩ => show win2_0.index t (0 : Fin 2) * 10000 + 1 * r.val = win2_3.index t (0 : Fin 2) * 10000 + 1 * r.val; omega
    | ⟨1, _⟩ => show win2_0.index t (1 : Fin 2) * 128 + 1 * q.val = win2_3.index t (1 : Fin 2) * 128 + 1 * q.val; omega
  have hs : iblk2 V c 1 t (ix2 (0 : Fin 1) q) = V c main_v60 (ix2 (0 : Fin 1) ⟨((((cfg2.win 3).blk t).view.emb (ix2 r q)) 1).val, idx2_lt1 _⟩) := by
    show V c main_v60 (((cfg2.win 1).blk t).view.emb (ix2 (0 : Fin 1) q)) = _
    refine congrArg (V c main_v60) (funext fun a => Fin.ext ?_)
    match a with
    | ⟨0, _⟩ => show win2_1.index t (0 : Fin 2) * 1 + 1 * 0 = 0; omega
    | ⟨1, _⟩ => show win2_1.index t (1 : Fin 2) * 128 + 1 * q.val = win2_3.index t (1 : Fin 2) * 128 + 1 * q.val; omega
  have hh : iblk2 V c 2 t (ix2 (0 : Fin 1) q) = V c main_v61 (ix2 (0 : Fin 1) ⟨((((cfg2.win 3).blk t).view.emb (ix2 r q)) 1).val, idx2_lt1 _⟩) := by
    show V c main_v61 (((cfg2.win 2).blk t).view.emb (ix2 (0 : Fin 1) q)) = _
    refine congrArg (V c main_v61) (funext fun a => Fin.ext ?_)
    match a with
    | ⟨0, _⟩ => show win2_2.index t (0 : Fin 2) * 1 + 1 * 0 = 0; omega
    | ⟨1, _⟩ => show win2_2.index t (1 : Fin 2) * 128 + 1 * q.val = win2_3.index t (1 : Fin 2) * 128 + 1 * q.val; omega
  rw [hx, hs, hh]

theorem nin_block_2 (t : Fin cfg2.N) (i : S100000x128.Idx) :
    i ∈ ((cfg2.win 3).blk t).view.set ↔ ∀ a : Fin 2, win2_3.index t a * S10000x128.size a ≤ (i a).val ∧ (i a).val < win2_3.index t a * S10000x128.size a + S10000x128.size a := by
  show i ∈ ((View.whole main_v62).slice (win2_3.rect t)).set ↔ _
  rw [View.set_slice_whole, Rect.mem_set_unit]
  exact Iff.rfl

theorem ntiled_2 (i : S100000x128.Idx) :
    ∃ t : Fin cfg2.N, (cfg2.win 3).flush t = true ∧ i ∈ ((cfg2.win 3).blk t).view.set := by
  have hi0 : (i 0).val < 100000 := idx2_lt0 i
  have hi1 : (i 1).val < 128 := idx2_lt1 i
  obtain ⟨t, ht⟩ := nblocks_onto_2 ⟨(i 0).val / 10000, by omega⟩
  have q0 : win2_3.index t (0 : Fin 2) = (i 0).val / 10000 := congrFun ht 0
  have q1 : win2_3.index t (1 : Fin 2) = 0 := congrFun ht 1
  refine ⟨t, flush2_3 t, ?_⟩
  rw [nin_block_2]
  intro a
  match a with
  | ⟨0, _⟩ => show win2_3.index t (0 : Fin 2) * 10000 ≤ (i 0).val ∧ (i 0).val < win2_3.index t (0 : Fin 2) * 10000 + 10000; omega
  | ⟨1, _⟩ => show win2_3.index t (1 : Fin 2) * 128 ≤ (i 1).val ∧ (i 1).val < win2_3.index t (1 : Fin 2) * 128 + 128; omega

/-- After the region the result array is the normalized array of the arrays it found. -/
theorem normalized_2 (c : Dev nD) :
    (dat2 (F := Ideal) V c).arrAt 3 cfg2.N = normArr2 (V c main_v45_0) (V c main_v60) (V c main_v61) :=
  (dat2 (F := Ideal) V c).arrAt_eq_of_cover 3 _ (fun t _ => nwritten_2 V c t) (ntiled_2)

end Cert.KernelIdeal.KValue

end
-- ==== Proof.Norm5.lean ====
/-
  Region 5: the normalize-and-cut kernel written block by block is one whole-array function. Point t handles rows
  [10000 t, 10000 t + 10000); the scale and the shift are one row each, the same at every point. Entry (i, j) of the
  result is max(x(i, j) · scale(j) + shift(j), 0).
-/
import proofs.«113071_j28192165331202_1_alg».proof.Proof.Gen.KernelIdeal.Frame
import proofs.«113071_j28192165331202_1_alg».proof.Proof.PointwiseBlock

set_option maxRecDepth 16384

noncomputable section

namespace Cert.KernelIdeal.KValue

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem zeros2_n5 : (![0, 0] : Fin 2 → Nat) = fun _ => 0 := funext fun a => by fin_cases a <;> rfl

/-- x · scale + shift cut below at zero, the scale and shift taken from the one row at the entry's column. -/
def normArr5 (X : S100000x128.Idx → EReal) (Sc Sh : S1x128.Idx → EReal) : S100000x128.Idx → EReal :=
  fun i => max (X i * Sc (ix2 (0 : Fin 1) ⟨(i 1).val, idx2_lt1 i⟩) + Sh (ix2 (0 : Fin 1) ⟨(i 1).val, idx2_lt1 i⟩)) 0

/-- The index maps over the grid: the input's and the result's row blocks move together, the two rows stay. -/
theorem nblocks_5 : ∀ t : Fin cfg5.N, win5_0.index t (0 : Fin 2) = win5_3.index t (0 : Fin 2)
    ∧ win5_0.index t (1 : Fin 2) = 0
    ∧ win5_1.index t (0 : Fin 2) = 0
    ∧ win5_1.index t (1 : Fin 2) = 0
    ∧ win5_2.index t (0 : Fin 2) = 0
    ∧ win5_2.index t (1 : Fin 2) = 0
    ∧ win5_3.index t (0 : Fin 2) ≤ 9
    ∧ win5_3.index t (1 : Fin 2) = 0 :=
  (by decide +kernel : ∀ t : Fin grid5.N, _)

theorem nblocks_onto_5 : ∀ (q0 : Fin 10), ∃ t : Fin cfg5.N, win5_3.index t = ![q0.val, 0] :=
  (by decide +kernel : ∀ (q0 : Fin 10), ∃ t : Fin grid5.N, win5_3.index t = ![q0.val, 0])

/-- What point t writes back is block t of the normalized array of the arrays the region finds. -/
theorem nwritten_5 (c : Dev nD) (t : Fin cfg5.N) :
    (dat5 (F := Ideal) V c).flushed 3 t = ((cfg5.win 3).blk t).view.read (Elt Ideal) (normArr5 (V c main_v81_0) (V c main_v96) (V c main_v97)) := by
  show (cfg5.win 3).cut (grid5.coords t) ((dat5 (F := Ideal) V c).after 3 t) = _
  rw [after5_3]
  unfold out5_3
  rw [View.canon_unit_zero zeros2_n5]
  simp only [View.ld_unit_zero (S := S10000x128) zeros2_n5, View.ld_unit_zero (S := S1x128) zeros2_n5]
  obtain ⟨e0, e1, e2, e3, e4, e5, e6, e7⟩ := nblocks_5 t
  funext j
  obtain ⟨r, q, rfl⟩ : ∃ (r : Fin 10000) (q : Fin 128), j = ix2 r q := ⟨j 0, j 1, eq_ix2 j⟩
  refine (norm5_apply _ _ _ r q).trans ?_
  show _ = normArr5 (V c main_v81_0) (V c main_v96) (V c main_v97) (((cfg5.win 3).blk t).view.emb (ix2 r q))
  unfold normArr5
  have hx : iblk5 V c 0 t (ix2 r q) = V c main_v81_0 (((cfg5.win 3).blk t).view.emb (ix2 r q)) := by
    show V c main_v81_0 (((cfg5.win 0).blk t).view.emb (ix2 r q)) = _
    refine congrArg (V c main_v81_0) (funext fun a => Fin.ext ?_)
    match a with
    | ⟨0, _⟩ => show win5_0.index t (0 : Fin 2) * 10000 + 1 * r.val = win5_3.index t (0 : Fin 2) * 10000 + 1 * r.val; omega
    | ⟨1, _⟩ => show win5_0.index t (1 : Fin 2) * 128 + 1 * q.val = win5_3.index t (1 : Fin 2) * 128 + 1 * q.val; omega
  have hs : iblk5 V c 1 t (ix2 (0 : Fin 1) q) = V c main_v96 (ix2 (0 : Fin 1) ⟨((((cfg5.win 3).blk t).view.emb (ix2 r q)) 1).val, idx2_lt1 _⟩) := by
    show V c main_v96 (((cfg5.win 1).blk t).view.emb (ix2 (0 : Fin 1) q)) = _
    refine congrArg (V c main_v96) (funext fun a => Fin.ext ?_)
    match a with
    | ⟨0, _⟩ => show win5_1.index t (0 : Fin 2) * 1 + 1 * 0 = 0; omega
    | ⟨1, _⟩ => show win5_1.index t (1 : Fin 2) * 128 + 1 * q.val = win5_3.index t (1 : Fin 2) * 128 + 1 * q.val; omega
  have hh : iblk5 V c 2 t (ix2 (0 : Fin 1) q) = V c main_v97 (ix2 (0 : Fin 1) ⟨((((cfg5.win 3).blk t).view.emb (ix2 r q)) 1).val, idx2_lt1 _⟩) := by
    show V c main_v97 (((cfg5.win 2).blk t).view.emb (ix2 (0 : Fin 1) q)) = _
    refine congrArg (V c main_v97) (funext fun a => Fin.ext ?_)
    match a with
    | ⟨0, _⟩ => show win5_2.index t (0 : Fin 2) * 1 + 1 * 0 = 0; omega
    | ⟨1, _⟩ => show win5_2.index t (1 : Fin 2) * 128 + 1 * q.val = win5_3.index t (1 : Fin 2) * 128 + 1 * q.val; omega
  rw [hx, hs, hh]

theorem nin_block_5 (t : Fin cfg5.N) (i : S100000x128.Idx) :
    i ∈ ((cfg5.win 3).blk t).view.set ↔ ∀ a : Fin 2, win5_3.index t a * S10000x128.size a ≤ (i a).val ∧ (i a).val < win5_3.index t a * S10000x128.size a + S10000x128.size a := by
  show i ∈ ((View.whole main_v98).slice (win5_3.rect t)).set ↔ _
  rw [View.set_slice_whole, Rect.mem_set_unit]
  exact Iff.rfl

theorem ntiled_5 (i : S100000x128.Idx) :
    ∃ t : Fin cfg5.N, (cfg5.win 3).flush t = true ∧ i ∈ ((cfg5.win 3).blk t).view.set := by
  have hi0 : (i 0).val < 100000 := idx2_lt0 i
  have hi1 : (i 1).val < 128 := idx2_lt1 i
  obtain ⟨t, ht⟩ := nblocks_onto_5 ⟨(i 0).val / 10000, by omega⟩
  have q0 : win5_3.index t (0 : Fin 2) = (i 0).val / 10000 := congrFun ht 0
  have q1 : win5_3.index t (1 : Fin 2) = 0 := congrFun ht 1
  refine ⟨t, flush5_3 t, ?_⟩
  rw [nin_block_5]
  intro a
  match a with
  | ⟨0, _⟩ => show win5_3.index t (0 : Fin 2) * 10000 ≤ (i 0).val ∧ (i 0).val < win5_3.index t (0 : Fin 2) * 10000 + 10000; omega
  | ⟨1, _⟩ => show win5_3.index t (1 : Fin 2) * 128 ≤ (i 1).val ∧ (i 1).val < win5_3.index t (1 : Fin 2) * 128 + 128; omega

/-- After the region the result array is the normalized array of the arrays it found. -/
theorem normalized_5 (c : Dev nD) :
    (dat5 (F := Ideal) V c).arrAt 3 cfg5.N = normArr5 (V c main_v81_0) (V c main_v96) (V c main_v97) :=
  (dat5 (F := Ideal) V c).arrAt_eq_of_cover 3 _ (fun t _ => nwritten_5 V c t) (ntiled_5)

end Cert.KernelIdeal.KValue

end
-- ==== Proof.CombinePieces1.lean ====
/-
  Region 1 (a combine kernel): what each of its three outputs' staging buffers holds after the body, in each of its two
  cases — the first grid point, which first resets both accumulators to zero, and the later points, which carry them over.
  The block output is the combined block; each accumulator is the value it had (zero at the first point) plus the
  block's column sums.
-/
import proofs.«113071_j28192165331202_1_alg».proof.Proof.Gen.KernelIdeal.Frame
import Idealize.ShloMosaic.Lib.Pipeline.Value

set_option maxRecDepth 16384

noncomputable section

namespace Cert.KernelIdeal.KValue

open Idealize.ShloMosaic Idealize.ShloMosaic.TcCoe Idealize.ShloMosaic.Tactic Idealize.SL.Sem
open Cert.KernelIdeal Cert.KernelIdeal.Gen

variable {F : FTy → Type} [FloatOps F]

theorem zeros2_c1 : (![0, 0] : Fin 2 → Nat) = fun _ => 0 := funext fun a => by fin_cases a <;> rfl

/-! ## Region 1 -/

/-- First point: the block written is the combined block of the three input blocks. -/
theorem first1_block (c : Dev nD) (i : grid1.Coords) (arg1 : Memref sig .tc .vmem S10000x128 .f32) (harg1 : arg1.IsWhole) (arg2 : Memref sig .tc .vmem S10000x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond1_0 i)
    (x0 x1 : Vec F S10000x128 .f32) (x2 : Vec F S1x128 .f32) :
    out1_A_3 c i arg1 harg1 arg2 harg2 arg3 harg3 arg4 harg4 arg5 harg5 arg6 harg6 hc0 x0 x1 x2 = k1_pay3 x0 x1 x2 := by
  unfold out1_A_3
  rw [View.read_writes_eq_canon _ _ _ (cover1_A_3 c i arg1 harg1 arg2 harg2 arg3 harg3 arg4 harg4 arg5 harg5 arg6 harg6 hc0 x0 x1 x2)]
  unfold kernelRun1_A
  dsimp only
  try sl_unfold_words
  rw [View.canon_cons_unit_zero zeros2_c1]
  simp only [View.readAt_eq_ld, harg1.read_unread, harg2.read_unread, harg3.read_unread, harg5.read_unread, harg6.read_unread, View.ld_unit_zero (S := S10000x128) zeros2_c1, View.ld_unit_zero (S := S1x128) zeros2_c1]

/-- First point: the column-sum accumulator is the zero row plus the block's column sums. -/
theorem first1_sum (c : Dev nD) (i : grid1.Coords) (arg1 : Memref sig .tc .vmem S10000x128 .f32) (harg1 : arg1.IsWhole) (arg2 : Memref sig .tc .vmem S10000x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond1_0 i)
    (x0 x1 : Vec F S10000x128 .f32) (x2 : Vec F S1x128 .f32) :
    out1_A_4 c i arg1 harg1 arg2 harg2 arg3 harg3 arg4 harg4 arg5 harg5 arg6 harg6 hc0 x0 x1 x2 = k1_pay4 x0 x1 x2 (k1_pay1 (F := F)) := by
  unfold out1_A_4
  rw [View.read_writes_eq_canon _ _ _ (cover1_A_4 c i arg1 harg1 arg2 harg2 arg3 harg3 arg4 harg4 arg5 harg5 arg6 harg6 hc0 x0 x1 x2)]
  unfold kernelRun1_A
  dsimp only
  try sl_unfold_words
  rw [View.canon_cons_unit_zero zeros2_c1]
  simp only [View.readAt_eq_ld, harg1.read_unread, harg2.read_unread, harg3.read_unread, harg5.read_unread, harg6.read_unread, View.ld_unit_zero (S := S10000x128) zeros2_c1, View.ld_unit_zero (S := S1x128) zeros2_c1]
  rw [View.readCov_unit_zero (S := S1x128) arg5.view zeros2_c1]

/-- First point: the sum-of-squares accumulator likewise. -/
theorem first1_sq (c : Dev nD) (i : grid1.Coords) (arg1 : Memref sig .tc .vmem S10000x128 .f32) (harg1 : arg1.IsWhole) (arg2 : Memref sig .tc .vmem S10000x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond1_0 i)
    (x0 x1 : Vec F S10000x128 .f32) (x2 : Vec F S1x128 .f32) :
    out1_A_5 c i arg1 harg1 arg2 harg2 arg3 harg3 arg4 harg4 arg5 harg5 arg6 harg6 hc0 x0 x1 x2 = k1_pay5 x0 x1 x2 (k1_pay2 (F := F)) := by
  unfold out1_A_5
  rw [View.read_writes_eq_canon _ _ _ (cover1_A_5 c i arg1 harg1 arg2 harg2 arg3 harg3 arg4 harg4 arg5 harg5 arg6 harg6 hc0 x0 x1 x2)]
  unfold kernelRun1_A
  dsimp only
  try sl_unfold_words
  rw [View.canon_cons_unit_zero zeros2_c1]
  simp only [View.readAt_eq_ld, harg1.read_unread, harg2.read_unread, harg3.read_unread, harg5.read_unread, harg6.read_unread, View.ld_unit_zero (S := S10000x128) zeros2_c1, View.ld_unit_zero (S := S1x128) zeros2_c1]
  rw [View.readCov_unit_zero (S := S1x128) arg6.view zeros2_c1]

/-- Later points: the block written is again the combined block. -/
theorem later1_block (c : Dev nD) (i : grid1.Coords) (arg1 : Memref sig .tc .vmem S10000x128 .f32) (harg1 : arg1.IsWhole) (arg2 : Memref sig .tc .vmem S10000x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i)
    (x0 x1 : Vec F S10000x128 .f32) (x2 xo4 xo5 : Vec F S1x128 .f32) :
    out1_B_3 c i arg1 harg1 arg2 harg2 arg3 harg3 arg4 harg4 arg5 harg5 arg6 harg6 hc0 x0 x1 x2 xo4 xo5 = k1_pay3 x0 x1 x2 := by
  unfold out1_B_3
  rw [View.read_writes_eq_canon _ _ _ (cover1_B_3 c i arg1 harg1 arg2 harg2 arg3 harg3 arg4 harg4 arg5 harg5 arg6 harg6 hc0 x0 x1 x2 xo4 xo5)]
  unfold kernelRun1_B
  dsimp only
  try sl_unfold_words
  rw [View.canon_cons_unit_zero zeros2_c1]
  simp only [View.readAt_eq_ld, harg1.read_unread, harg2.read_unread, harg3.read_unread, harg5.read_unread, harg6.read_unread, View.ld_unit_zero (S := S10000x128) zeros2_c1, View.ld_unit_zero (S := S1x128) zeros2_c1]

/-- Later points: the column-sum accumulator is what the point before left plus the block's column sums. -/
theorem later1_sum (c : Dev nD) (i : grid1.Coords) (arg1 : Memref sig .tc .vmem S10000x128 .f32) (harg1 : arg1.IsWhole) (arg2 : Memref sig .tc .vmem S10000x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i)
    (x0 x1 : Vec F S10000x128 .f32) (x2 xo4 xo5 : Vec F S1x128 .f32) :
    out1_B_4 c i arg1 harg1 arg2 harg2 arg3 harg3 arg4 harg4 arg5 harg5 arg6 harg6 hc0 x0 x1 x2 xo4 xo5 = k1_pay4 x0 x1 x2 xo4 := by
  unfold out1_B_4
  rw [View.read_writes_eq_canon _ _ _ (cover1_B_4 c i arg1 harg1 arg2 harg2 arg3 harg3 arg4 harg4 arg5 harg5 arg6 harg6 hc0 x0 x1 x2 xo4 xo5)]
  unfold kernelRun1_B
  dsimp only
  try sl_unfold_words
  rw [View.canon_cons_unit_zero zeros2_c1]
  simp only [View.readAt_eq_ld, harg1.read_unread, harg2.read_unread, harg3.read_unread, harg5.read_unread, harg6.read_unread, View.ld_unit_zero (S := S10000x128) zeros2_c1, View.ld_unit_zero (S := S1x128) zeros2_c1]

/-- Later points: the sum-of-squares accumulator likewise. -/
theorem later1_sq (c : Dev nD) (i : grid1.Coords) (arg1 : Memref sig .tc .vmem S10000x128 .f32) (harg1 : arg1.IsWhole) (arg2 : Memref sig .tc .vmem S10000x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i)
    (x0 x1 : Vec F S10000x128 .f32) (x2 xo4 xo5 : Vec F S1x128 .f32) :
    out1_B_5 c i arg1 harg1 arg2 harg2 arg3 harg3 arg4 harg4 arg5 harg5 arg6 harg6 hc0 x0 x1 x2 xo4 xo5 = k1_pay5 x0 x1 x2 xo5 := by
  unfold out1_B_5
  rw [View.read_writes_eq_canon _ _ _ (cover1_B_5 c i arg1 harg1 arg2 harg2 arg3 harg3 arg4 harg4 arg5 harg5 arg6 harg6 hc0 x0 x1 x2 xo4 xo5)]
  unfold kernelRun1_B
  dsimp only
  try sl_unfold_words
  rw [View.canon_cons_unit_zero zeros2_c1]
  simp only [View.readAt_eq_ld, harg1.read_unread, harg2.read_unread, harg3.read_unread, harg5.read_unread, harg6.read_unread, View.ld_unit_zero (S := S10000x128) zeros2_c1, View.ld_unit_zero (S := S1x128) zeros2_c1]

end Cert.KernelIdeal.KValue

end
-- ==== Proof.Combine1.lean ====
/-
  Region 1 (a combine kernel): its three output arrays as functions of the arrays it finds. Point t of the grid of ten
  combines rows [10000 t, 10000 t + 10000): entry (i, j) of the block output is agg(i, j) + self(i, j) + bias(j). The two
  one-row outputs stay in their staging buffers across the grid and are written back once, after the last point: by
  induction over the points, after point n they hold the column sums of the combined values, and of their squares,
  over the first 10000 (n + 1) rows; after the last point, over all 100000 rows.
-/
import proofs.«113071_j28192165331202_1_alg».proof.Proof.Gen.KernelIdeal.Frame
import proofs.«113071_j28192165331202_1_alg».proof.Proof.PointwiseBlock
import proofs.«113071_j28192165331202_1_alg».proof.Proof.CombinePieces1

set_option maxRecDepth 16384

noncomputable section

namespace Cert.KernelIdeal.KValue

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem zeros2_k1 : (![0, 0] : Fin 2 → Nat) = fun _ => 0 := funext fun a => by fin_cases a <;> rfl

/-- agg + self + bias, entry by entry, the bias taken from its one row at the entry's column. -/
def combArr1 (A S : S100000x128.Idx → EReal) (B : S1x128.Idx → EReal) : S100000x128.Idx → EReal :=
  fun i => (A i + S i) + B (ix2 (0 : Fin 1) ⟨(i 1).val, idx2_lt1 i⟩)

/-- Column j of an array read at a row number, zero past the last row. -/
def colAt1 (X : S100000x128.Idx → EReal) (j : Fin 128) (k : ℕ) : EReal :=
  if h : k < 100000 then X (ix2 ⟨k, h⟩ j) else 0

/-- The column sums of an array, as one row. -/
def colSums1 (X : S100000x128.Idx → EReal) : S1x128.Idx → EReal :=
  fun i => ∑ r : Fin 100000, X (ix2 r ⟨(i 1).val, idx2_lt1 i⟩)

theorem grid_1 : cfg1.N = 10 := N_1

/-- The index maps over the grid: point t handles row block t of both inputs and of the block output; the bias and the
    two accumulators stay at their one block. -/
theorem cblocks_1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = t.val
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0 :=
  (by decide +kernel : ∀ t : Fin grid1.N, _)

theorem cblocks_onto_1 : ∀ (q0 : Fin 10), ∃ t : Fin cfg1.N, win1_3.index t = ![q0.val, 0] :=
  (by decide +kernel : ∀ (q0 : Fin 10), ∃ t : Fin grid1.N, win1_3.index t = ![q0.val, 0])

theorem last_1 : ∃ t : Fin cfg1.N, t.val = 9 :=
  (by decide +kernel : ∃ t : Fin grid1.N, t.val = 9)

/-- The combined block of point t, entry (r, j), is the combined array at row 10000 t + r, column j. -/
theorem block_entry_1 (c : Dev nD) (t : Fin cfg1.N) (r : Fin 10000) (j : Fin 128) :
    k1_pay3 (F := Ideal) (iblk1 V c 0 t) (iblk1 V c 1 t) (iblk1 V c 2 t) (ix2 r j)
      = (combArr1 (V c main_v40) (V c main_v43) (V c main_v44)) (((cfg1.win 3).blk t).view.emb (ix2 r j)) := by
  obtain ⟨e0, e1, e2, e3, e4, e5, e6, e7, e8, e9, e10, e11⟩ := cblocks_1 t
  refine (comb1_apply _ _ _ r j).trans ?_
  unfold combArr1
  have ha : iblk1 V c 0 t (ix2 r j) = V c main_v40 (((cfg1.win 3).blk t).view.emb (ix2 r j)) := by
    show V c main_v40 (((cfg1.win 0).blk t).view.emb (ix2 r j)) = _
    refine congrArg (V c main_v40) (funext fun a => Fin.ext ?_)
    match a with
    | ⟨0, _⟩ => show win1_0.index t (0 : Fin 2) * 10000 + 1 * r.val = win1_3.index t (0 : Fin 2) * 10000 + 1 * r.val; omega
    | ⟨1, _⟩ => show win1_0.index t (1 : Fin 2) * 128 + 1 * j.val = win1_3.index t (1 : Fin 2) * 128 + 1 * j.val; omega
  have hs : iblk1 V c 1 t (ix2 r j) = V c main_v43 (((cfg1.win 3).blk t).view.emb (ix2 r j)) := by
    show V c main_v43 (((cfg1.win 1).blk t).view.emb (ix2 r j)) = _
    refine congrArg (V c main_v43) (funext fun a => Fin.ext ?_)
    match a with
    | ⟨0, _⟩ => show win1_1.index t (0 : Fin 2) * 10000 + 1 * r.val = win1_3.index t (0 : Fin 2) * 10000 + 1 * r.val; omega
    | ⟨1, _⟩ => show win1_1.index t (1 : Fin 2) * 128 + 1 * j.val = win1_3.index t (1 : Fin 2) * 128 + 1 * j.val; omega
  have hb : iblk1 V c 2 t (ix2 (0 : Fin 1) j) = V c main_v44 (ix2 (0 : Fin 1) ⟨((((cfg1.win 3).blk t).view.emb (ix2 r j)) 1).val, idx2_lt1 _⟩) := by
    show V c main_v44 (((cfg1.win 2).blk t).view.emb (ix2 (0 : Fin 1) j)) = _
    refine congrArg (V c main_v44) (funext fun a => Fin.ext ?_)
    match a with
    | ⟨0, _⟩ => show win1_2.index t (0 : Fin 2) * 1 + 1 * 0 = 0; omega
    | ⟨1, _⟩ => show win1_2.index t (1 : Fin 2) * 128 + 1 * j.val = win1_3.index t (1 : Fin 2) * 128 + 1 * j.val; omega
  rw [ha, hs, hb]

/-- The same entry through the row number. -/
theorem block_col_1 (c : Dev nD) (t : Fin cfg1.N) (r : Fin 10000) (j : Fin 128) :
    k1_pay3 (F := Ideal) (iblk1 V c 0 t) (iblk1 V c 1 t) (iblk1 V c 2 t) (ix2 r j)
      = colAt1 (combArr1 (V c main_v40) (V c main_v43) (V c main_v44)) j (t.val * 10000 + r.val) := by
  obtain ⟨e0, e1, e2, e3, e4, e5, e6, e7, e8, e9, e10, e11⟩ := cblocks_1 t
  have ht : t.val < 10 := lt_of_lt_of_eq t.isLt grid_1
  have hk : t.val * 10000 + r.val < 100000 := by have := r.isLt; omega
  rw [block_entry_1 V c t r j]
  unfold colAt1
  rw [dif_pos hk]
  refine congrArg (combArr1 (V c main_v40) (V c main_v43) (V c main_v44)) (funext fun a => Fin.ext ?_)
  match a with
  | ⟨0, _⟩ => show win1_3.index t (0 : Fin 2) * 10000 + 1 * r.val = t.val * 10000 + r.val; omega
  | ⟨1, _⟩ => show win1_3.index t (1 : Fin 2) * 128 + 1 * j.val = j.val; omega

/-- What every point leaves in the block output's buffer is its combined block. -/
theorem block_at_1 (c : Dev nD) (t : Fin cfg1.N) :
    (outsAt1 (F := Ideal) V c t.val t.isLt).1 = k1_pay3 (F := Ideal) (iblk1 V c 0 t) (iblk1 V c 1 t) (iblk1 V c 2 t) := by
  by_cases h0 : t.val % 10 = 0
  · rw [outsAt1_A V c t h0]
    dsimp only
    exact first1_block (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (iblk1 V c 0 t) (iblk1 V c 1 t) (iblk1 V c 2 t)
  · rw [outsAt1_B V c t h0]
    dsimp only
    exact later1_block (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (iblk1 V c 0 t) (iblk1 V c 1 t) (iblk1 V c 2 t) _ _

/-- What point t writes back of the block output is block t of the combined array. -/
theorem cwritten_1 (c : Dev nD) (t : Fin cfg1.N) :
    (dat1 (F := Ideal) V c).flushed 3 t = ((cfg1.win 3).blk t).view.read (Elt Ideal) (combArr1 (V c main_v40) (V c main_v43) (V c main_v44)) := by
  show (cfg1.win 3).cut (grid1.coords t) ((dat1 (F := Ideal) V c).after 3 t) = _
  rw [after1_3, block_at_1 V c t]
  funext y
  obtain ⟨r, j, rfl⟩ : ∃ (r : Fin 10000) (j : Fin 128), y = ix2 r j := ⟨y 0, y 1, eq_ix2 y⟩
  exact block_entry_1 V c t r j

theorem cin_block_1 (t : Fin cfg1.N) (i : S100000x128.Idx) :
    i ∈ ((cfg1.win 3).blk t).view.set ↔ ∀ a : Fin 2, win1_3.index t a * S10000x128.size a ≤ (i a).val ∧ (i a).val < win1_3.index t a * S10000x128.size a + S10000x128.size a := by
  show i ∈ ((View.whole main_v45_0).slice (win1_3.rect t)).set ↔ _
  rw [View.set_slice_whole, Rect.mem_set_unit]
  exact Iff.rfl

theorem ctiled_1 (i : S100000x128.Idx) :
    ∃ t : Fin cfg1.N, (cfg1.win 3).flush t = true ∧ i ∈ ((cfg1.win 3).blk t).view.set := by
  have hi0 : (i 0).val < 100000 := idx2_lt0 i
  have hi1 : (i 1).val < 128 := idx2_lt1 i
  obtain ⟨t, ht⟩ := cblocks_onto_1 ⟨(i 0).val / 10000, by omega⟩
  have q0 : win1_3.index t (0 : Fin 2) = (i 0).val / 10000 := congrFun ht 0
  have q1 : win1_3.index t (1 : Fin 2) = 0 := congrFun ht 1
  refine ⟨t, flush1_3 t, ?_⟩
  rw [cin_block_1]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 128 ≤ (i 1).val ∧ (i 1).val < win1_3.index t (1 : Fin 2) * 128 + 128; omega

/-- After the region the block output is the combined array of the arrays it found. -/
theorem combined_1 (c : Dev nD) :
    (dat1 (F := Ideal) V c).arrAt 3 cfg1.N = (combArr1 (V c main_v40) (V c main_v43) (V c main_v44)) :=
  (dat1 (F := Ideal) V c).arrAt_eq_of_cover 3 _ (fun t _ => cwritten_1 V c t) (ctiled_1)

/-! ## The two accumulators -/

/-- A block's column sum is a stretch of the array's column: rows 10000 t … 10000 t + 9999. -/
theorem stretch_1 (c : Dev nD) (t : Fin cfg1.N) (j : Fin 128) (f : EReal → EReal) :
    ∑ r : Fin 10000, f (k1_pay3 (F := Ideal) (iblk1 V c 0 t) (iblk1 V c 1 t) (iblk1 V c 2 t) (ix2 r j))
      = ∑ k ∈ Finset.range 10000, f (colAt1 (combArr1 (V c main_v40) (V c main_v43) (V c main_v44)) j (t.val * 10000 + k)) := by
  rw [← Fin.sum_univ_eq_sum_range (fun k => f (colAt1 (combArr1 (V c main_v40) (V c main_v43) (V c main_v44)) j (t.val * 10000 + k))) 10000]
  exact Finset.sum_congr rfl fun r _ => congrArg f (block_col_1 V c t r j)

/-- After point n the two accumulators hold the column sums, of the combined values and of their squares, over the
    first 10000 (n + 1) rows. -/
theorem running_1 (c : Dev nD) (j : Fin 128) : ∀ (n : ℕ) (hn : n < cfg1.N),
    (outsAt1 (F := Ideal) V c n hn).2.1 (ix2 (0 : Fin 1) j) = ∑ k ∈ Finset.range ((n + 1) * 10000), colAt1 (combArr1 (V c main_v40) (V c main_v43) (V c main_v44)) j k
    ∧ (outsAt1 (F := Ideal) V c n hn).2.2 (ix2 (0 : Fin 1) j) = ∑ k ∈ Finset.range ((n + 1) * 10000), colAt1 (combArr1 (V c main_v40) (V c main_v43) (V c main_v44)) j k * colAt1 (combArr1 (V c main_v40) (V c main_v43) (V c main_v44)) j k
  | 0, hn => by
    have h0 : (⟨0, hn⟩ : Fin cfg1.N).val % 10 = 0 := Nat.zero_mod _
    have hA := outsAt1_A (F := Ideal) V c ⟨0, hn⟩ h0
    have e : outsAt1 (F := Ideal) V c 0 hn = outsAt1 (F := Ideal) V c (⟨0, hn⟩ : Fin cfg1.N).val (⟨0, hn⟩ : Fin cfg1.N).isLt := rfl
    rw [e, hA]
    dsimp only
    rw [first1_sum (F := Ideal) c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) ((hcond1_0 ⟨0, hn⟩).mpr h0) (iblk1 V c 0 ⟨0, hn⟩) (iblk1 V c 1 ⟨0, hn⟩) (iblk1 V c 2 ⟨0, hn⟩),
      first1_sq (F := Ideal) c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) ((hcond1_0 ⟨0, hn⟩).mpr h0) (iblk1 V c 0 ⟨0, hn⟩) (iblk1 V c 1 ⟨0, hn⟩) (iblk1 V c 2 ⟨0, hn⟩),
      colsum1_apply, colsq1_apply, reset1a_apply, reset1b_apply]
    have s1 := stretch_1 V c ⟨0, hn⟩ j (fun x => x)
    have s2 := stretch_1 V c ⟨0, hn⟩ j (fun x => x * x)
    simp only [zero_add, Nat.zero_mul, Nat.zero_add, Nat.one_mul] at s1 s2 ⊢
    exact ⟨s1, s2⟩
  | n + 1, hn => by
    have hlt : n + 1 < 10 := lt_of_lt_of_eq hn grid_1
    have h0 : ¬ (⟨n + 1, hn⟩ : Fin cfg1.N).val % 10 = 0 := by show ¬ (n + 1) % 10 = 0; omega
    have hB := outsAt1_B (F := Ideal) V c ⟨n + 1, hn⟩ h0
    obtain ⟨ih1, ih2⟩ := running_1 c j n (Nat.lt_of_succ_lt hn)
    have e : outsAt1 (F := Ideal) V c (n + 1) hn = outsAt1 (F := Ideal) V c (⟨n + 1, hn⟩ : Fin cfg1.N).val (⟨n + 1, hn⟩ : Fin cfg1.N).isLt := rfl
    rw [e, hB]
    dsimp only
    rw [later1_sum (F := Ideal) c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) _ _,
      later1_sq (F := Ideal) c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) _ _,
      colsum1_apply, colsq1_apply]
    have s1 := stretch_1 V c ⟨n + 1, hn⟩ j (fun x => x)
    have s2 := stretch_1 V c ⟨n + 1, hn⟩ j (fun x => x * x)
    have en : (n + 1 + 1) * 10000 = (n + 1) * 10000 + 10000 := by omega
    have ep : (outsAt1 (F := Ideal) V c ((⟨n + 1, hn⟩ : Fin cfg1.N).val - 1) (Nat.lt_of_le_of_lt (Nat.sub_le _ _) (⟨n + 1, hn⟩ : Fin cfg1.N).isLt))
        = outsAt1 (F := Ideal) V c n (Nat.lt_of_succ_lt hn) := rfl
    rw [ep, en, Finset.sum_range_add, Finset.sum_range_add, ih1, ih2]
    dsimp only at s1 s2
    exact ⟨congrArg (_ + ·) s1, congrArg (_ + ·) s2⟩

/-- The whole column as a sum over row numbers. -/
theorem whole_col_1 (X : S100000x128.Idx → EReal) (j : Fin 128) (f : EReal → EReal) :
    ∑ k ∈ Finset.range 100000, f (colAt1 X j k) = ∑ r : Fin 100000, f (X (ix2 r j)) := by
  rw [← Fin.sum_univ_eq_sum_range (fun k => f (colAt1 X j k)) 100000]
  exact Finset.sum_congr rfl fun r _ => congrArg f (dif_pos r.isLt)

theorem ain_block4_1 (t : Fin cfg1.N) (i : S1x128.Idx) :
    i ∈ ((cfg1.win 4).blk t).view.set ↔ ∀ a : Fin 2, win1_4.index t a * S1x128.size a ≤ (i a).val ∧ (i a).val < win1_4.index t a * S1x128.size a + S1x128.size a := by
  show i ∈ ((View.whole main_v45_1).slice (win1_4.rect t)).set ↔ _
  rw [View.set_slice_whole, Rect.mem_set_unit]
  exact Iff.rfl

set_option maxRecDepth 200000 in
/-- The one write-back of this accumulator, after the last point, is the row of column sums over all rows. -/
theorem colsums_written_1 (c : Dev nD) (t : Fin cfg1.N) (hf : (cfg1.win 4).flush t = true) :
    (dat1 (F := Ideal) V c).flushed 4 t = ((cfg1.win 4).blk t).view.read (Elt Ideal) (colSums1 (combArr1 (V c main_v40) (V c main_v43) (V c main_v44))) := by
  obtain ⟨e0, e1, e2, e3, e4, e5, e6, e7, e8, e9, e10, e11⟩ := cblocks_1 t
  have ht : t.val = 9 := by have h9 := (flush1_4 t).mp hf; have hl : t.val < 10 := lt_of_lt_of_eq t.isLt grid_1; omega
  show (cfg1.win 4).cut (grid1.coords t) ((dat1 (F := Ideal) V c).after 4 t) = _
  rw [after1_4]
  funext y
  obtain ⟨u, j, rfl⟩ : ∃ (u : Fin 1) (j : Fin 128), y = ix2 u j := ⟨y 0, y 1, eq_ix2 y⟩
  obtain rfl : u = 0 := Fin.ext (by have := u.isLt; omega)
  refine ((running_1 V c j t.val t.isLt).1).trans ?_
  show _ = colSums1 (combArr1 (V c main_v40) (V c main_v43) (V c main_v44)) (((cfg1.win 4).blk t).view.emb (ix2 (0 : Fin 1) j))
  unfold colSums1
  have hj : (⟨((((cfg1.win 4).blk t).view.emb (ix2 (0 : Fin 1) j)) 1).val, idx2_lt1 _⟩ : Fin 128) = j :=
    Fin.ext (by show win1_4.index t (1 : Fin 2) * 128 + 1 * j.val = j.val; omega)
  rw [hj, ht]
  exact whole_col_1 (combArr1 (V c main_v40) (V c main_v43) (V c main_v44)) j (fun x => x)

theorem acover4_1 (i : S1x128.Idx) :
    ∃ t : Fin cfg1.N, (cfg1.win 4).flush t = true ∧ i ∈ ((cfg1.win 4).blk t).view.set := by
  obtain ⟨t, ht⟩ := last_1
  obtain ⟨e0, e1, e2, e3, e4, e5, e6, e7, e8, e9, e10, e11⟩ := cblocks_1 t
  have hi0 : (i 0).val < 1 := idx2_lt0 i
  have hi1 : (i 1).val < 128 := idx2_lt1 i
  refine ⟨t, (flush1_4 t).mpr (by omega), ?_⟩
  rw [ain_block4_1]
  intro a
  match a with
  | ⟨0, _⟩ => show win1_4.index t (0 : Fin 2) * 1 ≤ (i 0).val ∧ (i 0).val < win1_4.index t (0 : Fin 2) * 1 + 1; omega
  | ⟨1, _⟩ => show win1_4.index t (1 : Fin 2) * 128 ≤ (i 1).val ∧ (i 1).val < win1_4.index t (1 : Fin 2) * 128 + 128; omega

theorem colsums_1 (c : Dev nD) :
    (dat1 (F := Ideal) V c).arrAt 4 cfg1.N = colSums1 (combArr1 (V c main_v40) (V c main_v43) (V c main_v44)) :=
  (dat1 (F := Ideal) V c).arrAt_eq_of_cover 4 _ (fun t hf => colsums_written_1 V c t hf) (acover4_1)

theorem ain_block5_1 (t : Fin cfg1.N) (i : S1x128.Idx) :
    i ∈ ((cfg1.win 5).blk t).view.set ↔ ∀ a : Fin 2, win1_5.index t a * S1x128.size a ≤ (i a).val ∧ (i a).val < win1_5.index t a * S1x128.size a + S1x128.size a := by
  show i ∈ ((View.whole main_v45_2).slice (win1_5.rect t)).set ↔ _
  rw [View.set_slice_whole, Rect.mem_set_unit]
  exact Iff.rfl

set_option maxRecDepth 200000 in
/-- The one write-back of this accumulator, after the last point, is the row of column sums over all rows. -/
theorem colsqs_written_1 (c : Dev nD) (t : Fin cfg1.N) (hf : (cfg1.win 5).flush t = true) :
    (dat1 (F := Ideal) V c).flushed 5 t = ((cfg1.win 5).blk t).view.read (Elt Ideal) (colSums1 (fun i => (combArr1 (V c main_v40) (V c main_v43) (V c main_v44)) i * (combArr1 (V c main_v40) (V c main_v43) (V c main_v44)) i)) := by
  obtain ⟨e0, e1, e2, e3, e4, e5, e6, e7, e8, e9, e10, e11⟩ := cblocks_1 t
  have ht : t.val = 9 := by have h9 := (flush1_5 t).mp hf; have hl : t.val < 10 := lt_of_lt_of_eq t.isLt grid_1; omega
  show (cfg1.win 5).cut (grid1.coords t) ((dat1 (F := Ideal) V c).after 5 t) = _
  rw [after1_5]
  funext y
  obtain ⟨u, j, rfl⟩ : ∃ (u : Fin 1) (j : Fin 128), y = ix2 u j := ⟨y 0, y 1, eq_ix2 y⟩
  obtain rfl : u = 0 := Fin.ext (by have := u.isLt; omega)
  refine ((running_1 V c j t.val t.isLt).2).trans ?_
  show _ = colSums1 (fun i => (combArr1 (V c main_v40) (V c main_v43) (V c main_v44)) i * (combArr1 (V c main_v40) (V c main_v43) (V c main_v44)) i) (((cfg1.win 5).blk t).view.emb (ix2 (0 : Fin 1) j))
  unfold colSums1
  have hj : (⟨((((cfg1.win 5).blk t).view.emb (ix2 (0 : Fin 1) j)) 1).val, idx2_lt1 _⟩ : Fin 128) = j :=
    Fin.ext (by show win1_5.index t (1 : Fin 2) * 128 + 1 * j.val = j.val; omega)
  rw [hj, ht]
  exact whole_col_1 (combArr1 (V c main_v40) (V c main_v43) (V c main_v44)) j (fun x => x * x)

theorem acover5_1 (i : S1x128.Idx) :
    ∃ t : Fin cfg1.N, (cfg1.win 5).flush t = true ∧ i ∈ ((cfg1.win 5).blk t).view.set := by
  obtain ⟨t, ht⟩ := last_1
  obtain ⟨e0, e1, e2, e3, e4, e5, e6, e7, e8, e9, e10, e11⟩ := cblocks_1 t
  have hi0 : (i 0).val < 1 := idx2_lt0 i
  have hi1 : (i 1).val < 128 := idx2_lt1 i
  refine ⟨t, (flush1_5 t).mpr (by omega), ?_⟩
  rw [ain_block5_1]
  intro a
  match a with
  | ⟨0, _⟩ => show win1_5.index t (0 : Fin 2) * 1 ≤ (i 0).val ∧ (i 0).val < win1_5.index t (0 : Fin 2) * 1 + 1; omega
  | ⟨1, _⟩ => show win1_5.index t (1 : Fin 2) * 128 ≤ (i 1).val ∧ (i 1).val < win1_5.index t (1 : Fin 2) * 128 + 128; omega

theorem colsqs_1 (c : Dev nD) :
    (dat1 (F := Ideal) V c).arrAt 5 cfg1.N = colSums1 (fun i => (combArr1 (V c main_v40) (V c main_v43) (V c main_v44)) i * (combArr1 (V c main_v40) (V c main_v43) (V c main_v44)) i) :=
  (dat1 (F := Ideal) V c).arrAt_eq_of_cover 5 _ (fun t hf => colsqs_written_1 V c t hf) (acover5_1)

end Cert.KernelIdeal.KValue

end
-- ==== Proof.CombinePieces4.lean ====
/-
  Region 4 (a combine kernel): what each of its three outputs' staging buffers holds after the body, in each of its two
  cases — the first grid point, which first resets both accumulators to zero, and the later points, which carry them over.
  The block output is the combined block; each accumulator is the value it had (zero at the first point) plus the
  block's column sums.
-/
import proofs.«113071_j28192165331202_1_alg».proof.Proof.Gen.KernelIdeal.Frame
import Idealize.ShloMosaic.Lib.Pipeline.Value

set_option maxRecDepth 16384

noncomputable section

namespace Cert.KernelIdeal.KValue

open Idealize.ShloMosaic Idealize.ShloMosaic.TcCoe Idealize.ShloMosaic.Tactic Idealize.SL.Sem
open Cert.KernelIdeal Cert.KernelIdeal.Gen

variable {F : FTy → Type} [FloatOps F]

theorem zeros2_c4 : (![0, 0] : Fin 2 → Nat) = fun _ => 0 := funext fun a => by fin_cases a <;> rfl

/-! ## Region 4 -/

/-- First point: the block written is the combined block of the three input blocks. -/
theorem first4_block (c : Dev nD) (i : grid4.Coords) (arg1 : Memref sig .tc .vmem S10000x128 .f32) (harg1 : arg1.IsWhole) (arg2 : Memref sig .tc .vmem S10000x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond4_0 i)
    (x0 x1 : Vec F S10000x128 .f32) (x2 : Vec F S1x128 .f32) :
    out4_A_3 c i arg1 harg1 arg2 harg2 arg3 harg3 arg4 harg4 arg5 harg5 arg6 harg6 hc0 x0 x1 x2 = k4_pay3 x0 x1 x2 := by
  unfold out4_A_3
  rw [View.read_writes_eq_canon _ _ _ (cover4_A_3 c i arg1 harg1 arg2 harg2 arg3 harg3 arg4 harg4 arg5 harg5 arg6 harg6 hc0 x0 x1 x2)]
  unfold kernelRun4_A
  dsimp only
  try sl_unfold_words
  rw [View.canon_cons_unit_zero zeros2_c4]
  simp only [View.readAt_eq_ld, harg1.read_unread, harg2.read_unread, harg3.read_unread, harg5.read_unread, harg6.read_unread, View.ld_unit_zero (S := S10000x128) zeros2_c4, View.ld_unit_zero (S := S1x128) zeros2_c4]

/-- First point: the column-sum accumulator is the zero row plus the block's column sums. -/
theorem first4_sum (c : Dev nD) (i : grid4.Coords) (arg1 : Memref sig .tc .vmem S10000x128 .f32) (harg1 : arg1.IsWhole) (arg2 : Memref sig .tc .vmem S10000x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond4_0 i)
    (x0 x1 : Vec F S10000x128 .f32) (x2 : Vec F S1x128 .f32) :
    out4_A_4 c i arg1 harg1 arg2 harg2 arg3 harg3 arg4 harg4 arg5 harg5 arg6 harg6 hc0 x0 x1 x2 = k4_pay4 x0 x1 x2 (k4_pay1 (F := F)) := by
  unfold out4_A_4
  rw [View.read_writes_eq_canon _ _ _ (cover4_A_4 c i arg1 harg1 arg2 harg2 arg3 harg3 arg4 harg4 arg5 harg5 arg6 harg6 hc0 x0 x1 x2)]
  unfold kernelRun4_A
  dsimp only
  try sl_unfold_words
  rw [View.canon_cons_unit_zero zeros2_c4]
  simp only [View.readAt_eq_ld, harg1.read_unread, harg2.read_unread, harg3.read_unread, harg5.read_unread, harg6.read_unread, View.ld_unit_zero (S := S10000x128) zeros2_c4, View.ld_unit_zero (S := S1x128) zeros2_c4]
  rw [View.readCov_unit_zero (S := S1x128) arg5.view zeros2_c4]

/-- First point: the sum-of-squares accumulator likewise. -/
theorem first4_sq (c : Dev nD) (i : grid4.Coords) (arg1 : Memref sig .tc .vmem S10000x128 .f32) (harg1 : arg1.IsWhole) (arg2 : Memref sig .tc .vmem S10000x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond4_0 i)
    (x0 x1 : Vec F S10000x128 .f32) (x2 : Vec F S1x128 .f32) :
    out4_A_5 c i arg1 harg1 arg2 harg2 arg3 harg3 arg4 harg4 arg5 harg5 arg6 harg6 hc0 x0 x1 x2 = k4_pay5 x0 x1 x2 (k4_pay2 (F := F)) := by
  unfold out4_A_5
  rw [View.read_writes_eq_canon _ _ _ (cover4_A_5 c i arg1 harg1 arg2 harg2 arg3 harg3 arg4 harg4 arg5 harg5 arg6 harg6 hc0 x0 x1 x2)]
  unfold kernelRun4_A
  dsimp only
  try sl_unfold_words
  rw [View.canon_cons_unit_zero zeros2_c4]
  simp only [View.readAt_eq_ld, harg1.read_unread, harg2.read_unread, harg3.read_unread, harg5.read_unread, harg6.read_unread, View.ld_unit_zero (S := S10000x128) zeros2_c4, View.ld_unit_zero (S := S1x128) zeros2_c4]
  rw [View.readCov_unit_zero (S := S1x128) arg6.view zeros2_c4]

/-- Later points: the block written is again the combined block. -/
theorem later4_block (c : Dev nD) (i : grid4.Coords) (arg1 : Memref sig .tc .vmem S10000x128 .f32) (harg1 : arg1.IsWhole) (arg2 : Memref sig .tc .vmem S10000x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i)
    (x0 x1 : Vec F S10000x128 .f32) (x2 xo4 xo5 : Vec F S1x128 .f32) :
    out4_B_3 c i arg1 harg1 arg2 harg2 arg3 harg3 arg4 harg4 arg5 harg5 arg6 harg6 hc0 x0 x1 x2 xo4 xo5 = k4_pay3 x0 x1 x2 := by
  unfold out4_B_3
  rw [View.read_writes_eq_canon _ _ _ (cover4_B_3 c i arg1 harg1 arg2 harg2 arg3 harg3 arg4 harg4 arg5 harg5 arg6 harg6 hc0 x0 x1 x2 xo4 xo5)]
  unfold kernelRun4_B
  dsimp only
  try sl_unfold_words
  rw [View.canon_cons_unit_zero zeros2_c4]
  simp only [View.readAt_eq_ld, harg1.read_unread, harg2.read_unread, harg3.read_unread, harg5.read_unread, harg6.read_unread, View.ld_unit_zero (S := S10000x128) zeros2_c4, View.ld_unit_zero (S := S1x128) zeros2_c4]

/-- Later points: the column-sum accumulator is what the point before left plus the block's column sums. -/
theorem later4_sum (c : Dev nD) (i : grid4.Coords) (arg1 : Memref sig .tc .vmem S10000x128 .f32) (harg1 : arg1.IsWhole) (arg2 : Memref sig .tc .vmem S10000x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i)
    (x0 x1 : Vec F S10000x128 .f32) (x2 xo4 xo5 : Vec F S1x128 .f32) :
    out4_B_4 c i arg1 harg1 arg2 harg2 arg3 harg3 arg4 harg4 arg5 harg5 arg6 harg6 hc0 x0 x1 x2 xo4 xo5 = k4_pay4 x0 x1 x2 xo4 := by
  unfold out4_B_4
  rw [View.read_writes_eq_canon _ _ _ (cover4_B_4 c i arg1 harg1 arg2 harg2 arg3 harg3 arg4 harg4 arg5 harg5 arg6 harg6 hc0 x0 x1 x2 xo4 xo5)]
  unfold kernelRun4_B
  dsimp only
  try sl_unfold_words
  rw [View.canon_cons_unit_zero zeros2_c4]
  simp only [View.readAt_eq_ld, harg1.read_unread, harg2.read_unread, harg3.read_unread, harg5.read_unread, harg6.read_unread, View.ld_unit_zero (S := S10000x128) zeros2_c4, View.ld_unit_zero (S := S1x128) zeros2_c4]

/-- Later points: the sum-of-squares accumulator likewise. -/
theorem later4_sq (c : Dev nD) (i : grid4.Coords) (arg1 : Memref sig .tc .vmem S10000x128 .f32) (harg1 : arg1.IsWhole) (arg2 : Memref sig .tc .vmem S10000x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i)
    (x0 x1 : Vec F S10000x128 .f32) (x2 xo4 xo5 : Vec F S1x128 .f32) :
    out4_B_5 c i arg1 harg1 arg2 harg2 arg3 harg3 arg4 harg4 arg5 harg5 arg6 harg6 hc0 x0 x1 x2 xo4 xo5 = k4_pay5 x0 x1 x2 xo5 := by
  unfold out4_B_5
  rw [View.read_writes_eq_canon _ _ _ (cover4_B_5 c i arg1 harg1 arg2 harg2 arg3 harg3 arg4 harg4 arg5 harg5 arg6 harg6 hc0 x0 x1 x2 xo4 xo5)]
  unfold kernelRun4_B
  dsimp only
  try sl_unfold_words
  rw [View.canon_cons_unit_zero zeros2_c4]
  simp only [View.readAt_eq_ld, harg1.read_unread, harg2.read_unread, harg3.read_unread, harg5.read_unread, harg6.read_unread, View.ld_unit_zero (S := S10000x128) zeros2_c4, View.ld_unit_zero (S := S1x128) zeros2_c4]

end Cert.KernelIdeal.KValue

end
-- ==== Proof.Combine4.lean ====
/-
  Region 4 (a combine kernel): its three output arrays as functions of the arrays it finds. Point t of the grid of ten
  combines rows [10000 t, 10000 t + 10000): entry (i, j) of the block output is agg(i, j) + self(i, j) + bias(j). The two
  one-row outputs stay in their staging buffers across the grid and are written back once, after the last point: by
  induction over the points, after point n they hold the column sums of the combined values, and of their squares,
  over the first 10000 (n + 1) rows; after the last point, over all 100000 rows.
-/
import proofs.«113071_j28192165331202_1_alg».proof.Proof.Gen.KernelIdeal.Frame
import proofs.«113071_j28192165331202_1_alg».proof.Proof.PointwiseBlock
import proofs.«113071_j28192165331202_1_alg».proof.Proof.CombinePieces4

set_option maxRecDepth 16384

noncomputable section

namespace Cert.KernelIdeal.KValue

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem zeros2_k4 : (![0, 0] : Fin 2 → Nat) = fun _ => 0 := funext fun a => by fin_cases a <;> rfl

/-- agg + self + bias, entry by entry, the bias taken from its one row at the entry's column. -/
def combArr4 (A S : S100000x128.Idx → EReal) (B : S1x128.Idx → EReal) : S100000x128.Idx → EReal :=
  fun i => (A i + S i) + B (ix2 (0 : Fin 1) ⟨(i 1).val, idx2_lt1 i⟩)

/-- Column j of an array read at a row number, zero past the last row. -/
def colAt4 (X : S100000x128.Idx → EReal) (j : Fin 128) (k : ℕ) : EReal :=
  if h : k < 100000 then X (ix2 ⟨k, h⟩ j) else 0

/-- The column sums of an array, as one row. -/
def colSums4 (X : S100000x128.Idx → EReal) : S1x128.Idx → EReal :=
  fun i => ∑ r : Fin 100000, X (ix2 r ⟨(i 1).val, idx2_lt1 i⟩)

theorem grid_4 : cfg4.N = 10 := N_4

/-- The index maps over the grid: point t handles row block t of both inputs and of the block output; the bias and the
    two accumulators stay at their one block. -/
theorem cblocks_4 : ∀ t : Fin cfg4.N, win4_0.index t (0 : Fin 2) = t.val
    ∧ win4_0.index t (1 : Fin 2) = 0
    ∧ win4_1.index t (0 : Fin 2) = t.val
    ∧ win4_1.index t (1 : Fin 2) = 0
    ∧ win4_2.index t (0 : Fin 2) = 0
    ∧ win4_2.index t (1 : Fin 2) = 0
    ∧ win4_3.index t (0 : Fin 2) = t.val
    ∧ win4_3.index t (1 : Fin 2) = 0
    ∧ win4_4.index t (0 : Fin 2) = 0
    ∧ win4_4.index t (1 : Fin 2) = 0
    ∧ win4_5.index t (0 : Fin 2) = 0
    ∧ win4_5.index t (1 : Fin 2) = 0 :=
  (by decide +kernel : ∀ t : Fin grid4.N, _)

theorem cblocks_onto_4 : ∀ (q0 : Fin 10), ∃ t : Fin cfg4.N, win4_3.index t = ![q0.val, 0] :=
  (by decide +kernel : ∀ (q0 : Fin 10), ∃ t : Fin grid4.N, win4_3.index t = ![q0.val, 0])

theorem last_4 : ∃ t : Fin cfg4.N, t.val = 9 :=
  (by decide +kernel : ∃ t : Fin grid4.N, t.val = 9)

/-- The combined block of point t, entry (r, j), is the combined array at row 10000 t + r, column j. -/
theorem block_entry_4 (c : Dev nD) (t : Fin cfg4.N) (r : Fin 10000) (j : Fin 128) :
    k4_pay3 (F := Ideal) (iblk4 V c 0 t) (iblk4 V c 1 t) (iblk4 V c 2 t) (ix2 r j)
      = (combArr4 (V c main_v76) (V c main_v79) (V c main_v80)) (((cfg4.win 3).blk t).view.emb (ix2 r j)) := by
  obtain ⟨e0, e1, e2, e3, e4, e5, e6, e7, e8, e9, e10, e11⟩ := cblocks_4 t
  refine (comb4_apply _ _ _ r j).trans ?_
  unfold combArr4
  have ha : iblk4 V c 0 t (ix2 r j) = V c main_v76 (((cfg4.win 3).blk t).view.emb (ix2 r j)) := by
    show V c main_v76 (((cfg4.win 0).blk t).view.emb (ix2 r j)) = _
    refine congrArg (V c main_v76) (funext fun a => Fin.ext ?_)
    match a with
    | ⟨0, _⟩ => show win4_0.index t (0 : Fin 2) * 10000 + 1 * r.val = win4_3.index t (0 : Fin 2) * 10000 + 1 * r.val; omega
    | ⟨1, _⟩ => show win4_0.index t (1 : Fin 2) * 128 + 1 * j.val = win4_3.index t (1 : Fin 2) * 128 + 1 * j.val; omega
  have hs : iblk4 V c 1 t (ix2 r j) = V c main_v79 (((cfg4.win 3).blk t).view.emb (ix2 r j)) := by
    show V c main_v79 (((cfg4.win 1).blk t).view.emb (ix2 r j)) = _
    refine congrArg (V c main_v79) (funext fun a => Fin.ext ?_)
    match a with
    | ⟨0, _⟩ => show win4_1.index t (0 : Fin 2) * 10000 + 1 * r.val = win4_3.index t (0 : Fin 2) * 10000 + 1 * r.val; omega
    | ⟨1, _⟩ => show win4_1.index t (1 : Fin 2) * 128 + 1 * j.val = win4_3.index t (1 : Fin 2) * 128 + 1 * j.val; omega
  have hb : iblk4 V c 2 t (ix2 (0 : Fin 1) j) = V c main_v80 (ix2 (0 : Fin 1) ⟨((((cfg4.win 3).blk t).view.emb (ix2 r j)) 1).val, idx2_lt1 _⟩) := by
    show V c main_v80 (((cfg4.win 2).blk t).view.emb (ix2 (0 : Fin 1) j)) = _
    refine congrArg (V c main_v80) (funext fun a => Fin.ext ?_)
    match a with
    | ⟨0, _⟩ => show win4_2.index t (0 : Fin 2) * 1 + 1 * 0 = 0; omega
    | ⟨1, _⟩ => show win4_2.index t (1 : Fin 2) * 128 + 1 * j.val = win4_3.index t (1 : Fin 2) * 128 + 1 * j.val; omega
  rw [ha, hs, hb]

/-- The same entry through the row number. -/
theorem block_col_4 (c : Dev nD) (t : Fin cfg4.N) (r : Fin 10000) (j : Fin 128) :
    k4_pay3 (F := Ideal) (iblk4 V c 0 t) (iblk4 V c 1 t) (iblk4 V c 2 t) (ix2 r j)
      = colAt4 (combArr4 (V c main_v76) (V c main_v79) (V c main_v80)) j (t.val * 10000 + r.val) := by
  obtain ⟨e0, e1, e2, e3, e4, e5, e6, e7, e8, e9, e10, e11⟩ := cblocks_4 t
  have ht : t.val < 10 := lt_of_lt_of_eq t.isLt grid_4
  have hk : t.val * 10000 + r.val < 100000 := by have := r.isLt; omega
  rw [block_entry_4 V c t r j]
  unfold colAt4
  rw [dif_pos hk]
  refine congrArg (combArr4 (V c main_v76) (V c main_v79) (V c main_v80)) (funext fun a => Fin.ext ?_)
  match a with
  | ⟨0, _⟩ => show win4_3.index t (0 : Fin 2) * 10000 + 1 * r.val = t.val * 10000 + r.val; omega
  | ⟨1, _⟩ => show win4_3.index t (1 : Fin 2) * 128 + 1 * j.val = j.val; omega

/-- What every point leaves in the block output's buffer is its combined block. -/
theorem block_at_4 (c : Dev nD) (t : Fin cfg4.N) :
    (outsAt4 (F := Ideal) V c t.val t.isLt).1 = k4_pay3 (F := Ideal) (iblk4 V c 0 t) (iblk4 V c 1 t) (iblk4 V c 2 t) := by
  by_cases h0 : t.val % 10 = 0
  · rw [outsAt4_A V c t h0]
    dsimp only
    exact first4_block (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) ((hcond4_0 t).mpr h0) (iblk4 V c 0 t) (iblk4 V c 1 t) (iblk4 V c 2 t)
  · rw [outsAt4_B V c t h0]
    dsimp only
    exact later4_block (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (fun h => h0 ((hcond4_0 t).mp h)) (iblk4 V c 0 t) (iblk4 V c 1 t) (iblk4 V c 2 t) _ _

/-- What point t writes back of the block output is block t of the combined array. -/
theorem cwritten_4 (c : Dev nD) (t : Fin cfg4.N) :
    (dat4 (F := Ideal) V c).flushed 3 t = ((cfg4.win 3).blk t).view.read (Elt Ideal) (combArr4 (V c main_v76) (V c main_v79) (V c main_v80)) := by
  show (cfg4.win 3).cut (grid4.coords t) ((dat4 (F := Ideal) V c).after 3 t) = _
  rw [after4_3, block_at_4 V c t]
  funext y
  obtain ⟨r, j, rfl⟩ : ∃ (r : Fin 10000) (j : Fin 128), y = ix2 r j := ⟨y 0, y 1, eq_ix2 y⟩
  exact block_entry_4 V c t r j

theorem cin_block_4 (t : Fin cfg4.N) (i : S100000x128.Idx) :
    i ∈ ((cfg4.win 3).blk t).view.set ↔ ∀ a : Fin 2, win4_3.index t a * S10000x128.size a ≤ (i a).val ∧ (i a).val < win4_3.index t a * S10000x128.size a + S10000x128.size a := by
  show i ∈ ((View.whole main_v81_0).slice (win4_3.rect t)).set ↔ _
  rw [View.set_slice_whole, Rect.mem_set_unit]
  exact Iff.rfl

theorem ctiled_4 (i : S100000x128.Idx) :
    ∃ t : Fin cfg4.N, (cfg4.win 3).flush t = true ∧ i ∈ ((cfg4.win 3).blk t).view.set := by
  have hi0 : (i 0).val < 100000 := idx2_lt0 i
  have hi1 : (i 1).val < 128 := idx2_lt1 i
  obtain ⟨t, ht⟩ := cblocks_onto_4 ⟨(i 0).val / 10000, by omega⟩
  have q0 : win4_3.index t (0 : Fin 2) = (i 0).val / 10000 := congrFun ht 0
  have q1 : win4_3.index t (1 : Fin 2) = 0 := congrFun ht 1
  refine ⟨t, flush4_3 t, ?_⟩
  rw [cin_block_4]
  intro a
  match a with
  | ⟨0, _⟩ => show win4_3.index t (0 : Fin 2) * 10000 ≤ (i 0).val ∧ (i 0).val < win4_3.index t (0 : Fin 2) * 10000 + 10000; omega
  | ⟨1, _⟩ => show win4_3.index t (1 : Fin 2) * 128 ≤ (i 1).val ∧ (i 1).val < win4_3.index t (1 : Fin 2) * 128 + 128; omega

/-- After the region the block output is the combined array of the arrays it found. -/
theorem combined_4 (c : Dev nD) :
    (dat4 (F := Ideal) V c).arrAt 3 cfg4.N = (combArr4 (V c main_v76) (V c main_v79) (V c main_v80)) :=
  (dat4 (F := Ideal) V c).arrAt_eq_of_cover 3 _ (fun t _ => cwritten_4 V c t) (ctiled_4)

/-! ## The two accumulators -/

/-- A block's column sum is a stretch of the array's column: rows 10000 t … 10000 t + 9999. -/
theorem stretch_4 (c : Dev nD) (t : Fin cfg4.N) (j : Fin 128) (f : EReal → EReal) :
    ∑ r : Fin 10000, f (k4_pay3 (F := Ideal) (iblk4 V c 0 t) (iblk4 V c 1 t) (iblk4 V c 2 t) (ix2 r j))
      = ∑ k ∈ Finset.range 10000, f (colAt4 (combArr4 (V c main_v76) (V c main_v79) (V c main_v80)) j (t.val * 10000 + k)) := by
  rw [← Fin.sum_univ_eq_sum_range (fun k => f (colAt4 (combArr4 (V c main_v76) (V c main_v79) (V c main_v80)) j (t.val * 10000 + k))) 10000]
  exact Finset.sum_congr rfl fun r _ => congrArg f (block_col_4 V c t r j)

/-- After point n the two accumulators hold the column sums, of the combined values and of their squares, over the
    first 10000 (n + 1) rows. -/
theorem running_4 (c : Dev nD) (j : Fin 128) : ∀ (n : ℕ) (hn : n < cfg4.N),
    (outsAt4 (F := Ideal) V c n hn).2.1 (ix2 (0 : Fin 1) j) = ∑ k ∈ Finset.range ((n + 1) * 10000), colAt4 (combArr4 (V c main_v76) (V c main_v79) (V c main_v80)) j k
    ∧ (outsAt4 (F := Ideal) V c n hn).2.2 (ix2 (0 : Fin 1) j) = ∑ k ∈ Finset.range ((n + 1) * 10000), colAt4 (combArr4 (V c main_v76) (V c main_v79) (V c main_v80)) j k * colAt4 (combArr4 (V c main_v76) (V c main_v79) (V c main_v80)) j k
  | 0, hn => by
    have h0 : (⟨0, hn⟩ : Fin cfg4.N).val % 10 = 0 := Nat.zero_mod _
    have hA := outsAt4_A (F := Ideal) V c ⟨0, hn⟩ h0
    have e : outsAt4 (F := Ideal) V c 0 hn = outsAt4 (F := Ideal) V c (⟨0, hn⟩ : Fin cfg4.N).val (⟨0, hn⟩ : Fin cfg4.N).isLt := rfl
    rw [e, hA]
    dsimp only
    rw [first4_sum (F := Ideal) c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) ((hcond4_0 ⟨0, hn⟩).mpr h0) (iblk4 V c 0 ⟨0, hn⟩) (iblk4 V c 1 ⟨0, hn⟩) (iblk4 V c 2 ⟨0, hn⟩),
      first4_sq (F := Ideal) c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) ((hcond4_0 ⟨0, hn⟩).mpr h0) (iblk4 V c 0 ⟨0, hn⟩) (iblk4 V c 1 ⟨0, hn⟩) (iblk4 V c 2 ⟨0, hn⟩),
      colsum4_apply, colsq4_apply, reset4a_apply, reset4b_apply]
    have s1 := stretch_4 V c ⟨0, hn⟩ j (fun x => x)
    have s2 := stretch_4 V c ⟨0, hn⟩ j (fun x => x * x)
    simp only [zero_add, Nat.zero_mul, Nat.zero_add, Nat.one_mul] at s1 s2 ⊢
    exact ⟨s1, s2⟩
  | n + 1, hn => by
    have hlt : n + 1 < 10 := lt_of_lt_of_eq hn grid_4
    have h0 : ¬ (⟨n + 1, hn⟩ : Fin cfg4.N).val % 10 = 0 := by show ¬ (n + 1) % 10 = 0; omega
    have hB := outsAt4_B (F := Ideal) V c ⟨n + 1, hn⟩ h0
    obtain ⟨ih1, ih2⟩ := running_4 c j n (Nat.lt_of_succ_lt hn)
    have e : outsAt4 (F := Ideal) V c (n + 1) hn = outsAt4 (F := Ideal) V c (⟨n + 1, hn⟩ : Fin cfg4.N).val (⟨n + 1, hn⟩ : Fin cfg4.N).isLt := rfl
    rw [e, hB]
    dsimp only
    rw [later4_sum (F := Ideal) c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (fun h => h0 ((hcond4_0 ⟨n + 1, hn⟩).mp h)) (iblk4 V c 0 ⟨n + 1, hn⟩) (iblk4 V c 1 ⟨n + 1, hn⟩) (iblk4 V c 2 ⟨n + 1, hn⟩) _ _,
      later4_sq (F := Ideal) c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (fun h => h0 ((hcond4_0 ⟨n + 1, hn⟩).mp h)) (iblk4 V c 0 ⟨n + 1, hn⟩) (iblk4 V c 1 ⟨n + 1, hn⟩) (iblk4 V c 2 ⟨n + 1, hn⟩) _ _,
      colsum4_apply, colsq4_apply]
    have s1 := stretch_4 V c ⟨n + 1, hn⟩ j (fun x => x)
    have s2 := stretch_4 V c ⟨n + 1, hn⟩ j (fun x => x * x)
    have en : (n + 1 + 1) * 10000 = (n + 1) * 10000 + 10000 := by omega
    have ep : (outsAt4 (F := Ideal) V c ((⟨n + 1, hn⟩ : Fin cfg4.N).val - 1) (Nat.lt_of_le_of_lt (Nat.sub_le _ _) (⟨n + 1, hn⟩ : Fin cfg4.N).isLt))
        = outsAt4 (F := Ideal) V c n (Nat.lt_of_succ_lt hn) := rfl
    rw [ep, en, Finset.sum_range_add, Finset.sum_range_add, ih1, ih2]
    dsimp only at s1 s2
    exact ⟨congrArg (_ + ·) s1, congrArg (_ + ·) s2⟩

/-- The whole column as a sum over row numbers. -/
theorem whole_col_4 (X : S100000x128.Idx → EReal) (j : Fin 128) (f : EReal → EReal) :
    ∑ k ∈ Finset.range 100000, f (colAt4 X j k) = ∑ r : Fin 100000, f (X (ix2 r j)) := by
  rw [← Fin.sum_univ_eq_sum_range (fun k => f (colAt4 X j k)) 100000]
  exact Finset.sum_congr rfl fun r _ => congrArg f (dif_pos r.isLt)

theorem ain_block4_4 (t : Fin cfg4.N) (i : S1x128.Idx) :
    i ∈ ((cfg4.win 4).blk t).view.set ↔ ∀ a : Fin 2, win4_4.index t a * S1x128.size a ≤ (i a).val ∧ (i a).val < win4_4.index t a * S1x128.size a + S1x128.size a := by
  show i ∈ ((View.whole main_v81_1).slice (win4_4.rect t)).set ↔ _
  rw [View.set_slice_whole, Rect.mem_set_unit]
  exact Iff.rfl

set_option maxRecDepth 200000 in
/-- The one write-back of this accumulator, after the last point, is the row of column sums over all rows. -/
theorem colsums_written_4 (c : Dev nD) (t : Fin cfg4.N) (hf : (cfg4.win 4).flush t = true) :
    (dat4 (F := Ideal) V c).flushed 4 t = ((cfg4.win 4).blk t).view.read (Elt Ideal) (colSums4 (combArr4 (V c main_v76) (V c main_v79) (V c main_v80))) := by
  obtain ⟨e0, e1, e2, e3, e4, e5, e6, e7, e8, e9, e10, e11⟩ := cblocks_4 t
  have ht : t.val = 9 := by have h9 := (flush4_4 t).mp hf; have hl : t.val < 10 := lt_of_lt_of_eq t.isLt grid_4; omega
  show (cfg4.win 4).cut (grid4.coords t) ((dat4 (F := Ideal) V c).after 4 t) = _
  rw [after4_4]
  funext y
  obtain ⟨u, j, rfl⟩ : ∃ (u : Fin 1) (j : Fin 128), y = ix2 u j := ⟨y 0, y 1, eq_ix2 y⟩
  obtain rfl : u = 0 := Fin.ext (by have := u.isLt; omega)
  refine ((running_4 V c j t.val t.isLt).1).trans ?_
  show _ = colSums4 (combArr4 (V c main_v76) (V c main_v79) (V c main_v80)) (((cfg4.win 4).blk t).view.emb (ix2 (0 : Fin 1) j))
  unfold colSums4
  have hj : (⟨((((cfg4.win 4).blk t).view.emb (ix2 (0 : Fin 1) j)) 1).val, idx2_lt1 _⟩ : Fin 128) = j :=
    Fin.ext (by show win4_4.index t (1 : Fin 2) * 128 + 1 * j.val = j.val; omega)
  rw [hj, ht]
  exact whole_col_4 (combArr4 (V c main_v76) (V c main_v79) (V c main_v80)) j (fun x => x)

theorem acover4_4 (i : S1x128.Idx) :
    ∃ t : Fin cfg4.N, (cfg4.win 4).flush t = true ∧ i ∈ ((cfg4.win 4).blk t).view.set := by
  obtain ⟨t, ht⟩ := last_4
  obtain ⟨e0, e1, e2, e3, e4, e5, e6, e7, e8, e9, e10, e11⟩ := cblocks_4 t
  have hi0 : (i 0).val < 1 := idx2_lt0 i
  have hi1 : (i 1).val < 128 := idx2_lt1 i
  refine ⟨t, (flush4_4 t).mpr (by omega), ?_⟩
  rw [ain_block4_4]
  intro a
  match a with
  | ⟨0, _⟩ => show win4_4.index t (0 : Fin 2) * 1 ≤ (i 0).val ∧ (i 0).val < win4_4.index t (0 : Fin 2) * 1 + 1; omega
  | ⟨1, _⟩ => show win4_4.index t (1 : Fin 2) * 128 ≤ (i 1).val ∧ (i 1).val < win4_4.index t (1 : Fin 2) * 128 + 128; omega

theorem colsums_4 (c : Dev nD) :
    (dat4 (F := Ideal) V c).arrAt 4 cfg4.N = colSums4 (combArr4 (V c main_v76) (V c main_v79) (V c main_v80)) :=
  (dat4 (F := Ideal) V c).arrAt_eq_of_cover 4 _ (fun t hf => colsums_written_4 V c t hf) (acover4_4)

theorem ain_block5_4 (t : Fin cfg4.N) (i : S1x128.Idx) :
    i ∈ ((cfg4.win 5).blk t).view.set ↔ ∀ a : Fin 2, win4_5.index t a * S1x128.size a ≤ (i a).val ∧ (i a).val < win4_5.index t a * S1x128.size a + S1x128.size a := by
  show i ∈ ((View.whole main_v81_2).slice (win4_5.rect t)).set ↔ _
  rw [View.set_slice_whole, Rect.mem_set_unit]
  exact Iff.rfl

set_option maxRecDepth 200000 in
/-- The one write-back of this accumulator, after the last point, is the row of column sums over all rows. -/
theorem colsqs_written_4 (c : Dev nD) (t : Fin cfg4.N) (hf : (cfg4.win 5).flush t = true) :
    (dat4 (F := Ideal) V c).flushed 5 t = ((cfg4.win 5).blk t).view.read (Elt Ideal) (colSums4 (fun i => (combArr4 (V c main_v76) (V c main_v79) (V c main_v80)) i * (combArr4 (V c main_v76) (V c main_v79) (V c main_v80)) i)) := by
  obtain ⟨e0, e1, e2, e3, e4, e5, e6, e7, e8, e9, e10, e11⟩ := cblocks_4 t
  have ht : t.val = 9 := by have h9 := (flush4_5 t).mp hf; have hl : t.val < 10 := lt_of_lt_of_eq t.isLt grid_4; omega
  show (cfg4.win 5).cut (grid4.coords t) ((dat4 (F := Ideal) V c).after 5 t) = _
  rw [after4_5]
  funext y
  obtain ⟨u, j, rfl⟩ : ∃ (u : Fin 1) (j : Fin 128), y = ix2 u j := ⟨y 0, y 1, eq_ix2 y⟩
  obtain rfl : u = 0 := Fin.ext (by have := u.isLt; omega)
  refine ((running_4 V c j t.val t.isLt).2).trans ?_
  show _ = colSums4 (fun i => (combArr4 (V c main_v76) (V c main_v79) (V c main_v80)) i * (combArr4 (V c main_v76) (V c main_v79) (V c main_v80)) i) (((cfg4.win 5).blk t).view.emb (ix2 (0 : Fin 1) j))
  unfold colSums4
  have hj : (⟨((((cfg4.win 5).blk t).view.emb (ix2 (0 : Fin 1) j)) 1).val, idx2_lt1 _⟩ : Fin 128) = j :=
    Fin.ext (by show win4_5.index t (1 : Fin 2) * 128 + 1 * j.val = j.val; omega)
  rw [hj, ht]
  exact whole_col_4 (combArr4 (V c main_v76) (V c main_v79) (V c main_v80)) j (fun x => x * x)

theorem acover5_4 (i : S1x128.Idx) :
    ∃ t : Fin cfg4.N, (cfg4.win 5).flush t = true ∧ i ∈ ((cfg4.win 5).blk t).view.set := by
  obtain ⟨t, ht⟩ := last_4
  obtain ⟨e0, e1, e2, e3, e4, e5, e6, e7, e8, e9, e10, e11⟩ := cblocks_4 t
  have hi0 : (i 0).val < 1 := idx2_lt0 i
  have hi1 : (i 1).val < 128 := idx2_lt1 i
  refine ⟨t, (flush4_5 t).mpr (by omega), ?_⟩
  rw [ain_block5_4]
  intro a
  match a with
  | ⟨0, _⟩ => show win4_5.index t (0 : Fin 2) * 1 ≤ (i 0).val ∧ (i 0).val < win4_5.index t (0 : Fin 2) * 1 + 1; omega
  | ⟨1, _⟩ => show win4_5.index t (1 : Fin 2) * 128 ≤ (i 1).val ∧ (i 1).val < win4_5.index t (1 : Fin 2) * 128 + 128; omega

theorem colsqs_4 (c : Dev nD) :
    (dat4 (F := Ideal) V c).arrAt 5 cfg4.N = colSums4 (fun i => (combArr4 (V c main_v76) (V c main_v79) (V c main_v80)) i * (combArr4 (V c main_v76) (V c main_v79) (V c main_v80)) i) :=
  (dat4 (F := Ideal) V c).arrAt_eq_of_cover 5 _ (fun t hf => colsqs_written_4 V c t hf) (acover5_4)

end Cert.KernelIdeal.KValue

end
-- ==== Proof.CombinePieces7.lean ====
/-
  Region 7 (a combine kernel): what each of its three outputs' staging buffers holds after the body, in each of its two
  cases — the first grid point, which first resets both accumulators to zero, and the later points, which carry them over.
  The block output is the combined block; each accumulator is the value it had (zero at the first point) plus the
  block's column sums.
-/
import proofs.«113071_j28192165331202_1_alg».proof.Proof.Gen.KernelIdeal.Frame
import Idealize.ShloMosaic.Lib.Pipeline.Value

set_option maxRecDepth 16384

noncomputable section

namespace Cert.KernelIdeal.KValue

open Idealize.ShloMosaic Idealize.ShloMosaic.TcCoe Idealize.ShloMosaic.Tactic Idealize.SL.Sem
open Cert.KernelIdeal Cert.KernelIdeal.Gen

variable {F : FTy → Type} [FloatOps F]

theorem zeros2_c7 : (![0, 0] : Fin 2 → Nat) = fun _ => 0 := funext fun a => by fin_cases a <;> rfl

/-! ## Region 7 -/

/-- First point: the block written is the combined block of the three input blocks. -/
theorem first7_block (c : Dev nD) (i : grid7.Coords) (arg1 : Memref sig .tc .vmem S10000x10 .f32) (harg1 : arg1.IsWhole) (arg2 : Memref sig .tc .vmem S10000x10 .f32) (harg2 : arg2.IsWhole) (arg3 : Memref sig .tc .vmem S1x10 .f32) (harg3 : arg3.IsWhole) (arg4 : Memref sig .tc .vmem S10000x10 .f32) (harg4 : arg4.IsWhole) (arg5 : Memref sig .tc .vmem S1x10 .f32) (harg5 : arg5.IsWhole) (arg6 : Memref sig .tc .vmem S1x10 .f32) (harg6 : arg6.IsWhole) (hc0 : cond7_0 i)
    (x0 x1 : Vec F S10000x10 .f32) (x2 : Vec F S1x10 .f32) :
    out7_A_3 c i arg1 harg1 arg2 harg2 arg3 harg3 arg4 harg4 arg5 harg5 arg6 harg6 hc0 x0 x1 x2 = k7_pay3 x0 x1 x2 := by
  unfold out7_A_3
  rw [View.read_writes_eq_canon _ _ _ (cover7_A_3 c i arg1 harg1 arg2 harg2 arg3 harg3 arg4 harg4 arg5 harg5 arg6 harg6 hc0 x0 x1 x2)]
  unfold kernelRun7_A
  dsimp only
  try sl_unfold_words
  rw [View.canon_cons_unit_zero zeros2_c7]
  simp only [View.readAt_eq_ld, harg1.read_unread, harg2.read_unread, harg3.read_unread, harg5.read_unread, harg6.read_unread, View.ld_unit_zero (S := S10000x10) zeros2_c7, View.ld_unit_zero (S := S1x10) zeros2_c7]

/-- First point: the column-sum accumulator is the zero row plus the block's column sums. -/
theorem first7_sum (c : Dev nD) (i : grid7.Coords) (arg1 : Memref sig .tc .vmem S10000x10 .f32) (harg1 : arg1.IsWhole) (arg2 : Memref sig .tc .vmem S10000x10 .f32) (harg2 : arg2.IsWhole) (arg3 : Memref sig .tc .vmem S1x10 .f32) (harg3 : arg3.IsWhole) (arg4 : Memref sig .tc .vmem S10000x10 .f32) (harg4 : arg4.IsWhole) (arg5 : Memref sig .tc .vmem S1x10 .f32) (harg5 : arg5.IsWhole) (arg6 : Memref sig .tc .vmem S1x10 .f32) (harg6 : arg6.IsWhole) (hc0 : cond7_0 i)
    (x0 x1 : Vec F S10000x10 .f32) (x2 : Vec F S1x10 .f32) :
    out7_A_4 c i arg1 harg1 arg2 harg2 arg3 harg3 arg4 harg4 arg5 harg5 arg6 harg6 hc0 x0 x1 x2 = k7_pay4 x0 x1 x2 (k7_pay1 (F := F)) := by
  unfold out7_A_4
  rw [View.read_writes_eq_canon _ _ _ (cover7_A_4 c i arg1 harg1 arg2 harg2 arg3 harg3 arg4 harg4 arg5 harg5 arg6 harg6 hc0 x0 x1 x2)]
  unfold kernelRun7_A
  dsimp only
  try sl_unfold_words
  rw [View.canon_cons_unit_zero zeros2_c7]
  simp only [View.readAt_eq_ld, harg1.read_unread, harg2.read_unread, harg3.read_unread, harg5.read_unread, harg6.read_unread, View.ld_unit_zero (S := S10000x10) zeros2_c7, View.ld_unit_zero (S := S1x10) zeros2_c7]
  rw [View.readCov_unit_zero (S := S1x10) arg5.view zeros2_c7]

/-- First point: the sum-of-squares accumulator likewise. -/
theorem first7_sq (c : Dev nD) (i : grid7.Coords) (arg1 : Memref sig .tc .vmem S10000x10 .f32) (harg1 : arg1.IsWhole) (arg2 : Memref sig .tc .vmem S10000x10 .f32) (harg2 : arg2.IsWhole) (arg3 : Memref sig .tc .vmem S1x10 .f32) (harg3 : arg3.IsWhole) (arg4 : Memref sig .tc .vmem S10000x10 .f32) (harg4 : arg4.IsWhole) (arg5 : Memref sig .tc .vmem S1x10 .f32) (harg5 : arg5.IsWhole) (arg6 : Memref sig .tc .vmem S1x10 .f32) (harg6 : arg6.IsWhole) (hc0 : cond7_0 i)
    (x0 x1 : Vec F S10000x10 .f32) (x2 : Vec F S1x10 .f32) :
    out7_A_5 c i arg1 harg1 arg2 harg2 arg3 harg3 arg4 harg4 arg5 harg5 arg6 harg6 hc0 x0 x1 x2 = k7_pay5 x0 x1 x2 (k7_pay2 (F := F)) := by
  unfold out7_A_5
  rw [View.read_writes_eq_canon _ _ _ (cover7_A_5 c i arg1 harg1 arg2 harg2 arg3 harg3 arg4 harg4 arg5 harg5 arg6 harg6 hc0 x0 x1 x2)]
  unfold kernelRun7_A
  dsimp only
  try sl_unfold_words
  rw [View.canon_cons_unit_zero zeros2_c7]
  simp only [View.readAt_eq_ld, harg1.read_unread, harg2.read_unread, harg3.read_unread, harg5.read_unread, harg6.read_unread, View.ld_unit_zero (S := S10000x10) zeros2_c7, View.ld_unit_zero (S := S1x10) zeros2_c7]
  rw [View.readCov_unit_zero (S := S1x10) arg6.view zeros2_c7]

/-- Later points: the block written is again the combined block. -/
theorem later7_block (c : Dev nD) (i : grid7.Coords) (arg1 : Memref sig .tc .vmem S10000x10 .f32) (harg1 : arg1.IsWhole) (arg2 : Memref sig .tc .vmem S10000x10 .f32) (harg2 : arg2.IsWhole) (arg3 : Memref sig .tc .vmem S1x10 .f32) (harg3 : arg3.IsWhole) (arg4 : Memref sig .tc .vmem S10000x10 .f32) (harg4 : arg4.IsWhole) (arg5 : Memref sig .tc .vmem S1x10 .f32) (harg5 : arg5.IsWhole) (arg6 : Memref sig .tc .vmem S1x10 .f32) (harg6 : arg6.IsWhole) (hc0 : ¬cond7_0 i)
    (x0 x1 : Vec F S10000x10 .f32) (x2 xo4 xo5 : Vec F S1x10 .f32) :
    out7_B_3 c i arg1 harg1 arg2 harg2 arg3 harg3 arg4 harg4 arg5 harg5 arg6 harg6 hc0 x0 x1 x2 xo4 xo5 = k7_pay3 x0 x1 x2 := by
  unfold out7_B_3
  rw [View.read_writes_eq_canon _ _ _ (cover7_B_3 c i arg1 harg1 arg2 harg2 arg3 harg3 arg4 harg4 arg5 harg5 arg6 harg6 hc0 x0 x1 x2 xo4 xo5)]
  unfold kernelRun7_B
  dsimp only
  try sl_unfold_words
  rw [View.canon_cons_unit_zero zeros2_c7]
  simp only [View.readAt_eq_ld, harg1.read_unread, harg2.read_unread, harg3.read_unread, harg5.read_unread, harg6.read_unread, View.ld_unit_zero (S := S10000x10) zeros2_c7, View.ld_unit_zero (S := S1x10) zeros2_c7]

/-- Later points: the column-sum accumulator is what the point before left plus the block's column sums. -/
theorem later7_sum (c : Dev nD) (i : grid7.Coords) (arg1 : Memref sig .tc .vmem S10000x10 .f32) (harg1 : arg1.IsWhole) (arg2 : Memref sig .tc .vmem S10000x10 .f32) (harg2 : arg2.IsWhole) (arg3 : Memref sig .tc .vmem S1x10 .f32) (harg3 : arg3.IsWhole) (arg4 : Memref sig .tc .vmem S10000x10 .f32) (harg4 : arg4.IsWhole) (arg5 : Memref sig .tc .vmem S1x10 .f32) (harg5 : arg5.IsWhole) (arg6 : Memref sig .tc .vmem S1x10 .f32) (harg6 : arg6.IsWhole) (hc0 : ¬cond7_0 i)
    (x0 x1 : Vec F S10000x10 .f32) (x2 xo4 xo5 : Vec F S1x10 .f32) :
    out7_B_4 c i arg1 harg1 arg2 harg2 arg3 harg3 arg4 harg4 arg5 harg5 arg6 harg6 hc0 x0 x1 x2 xo4 xo5 = k7_pay4 x0 x1 x2 xo4 := by
  unfold out7_B_4
  rw [View.read_writes_eq_canon _ _ _ (cover7_B_4 c i arg1 harg1 arg2 harg2 arg3 harg3 arg4 harg4 arg5 harg5 arg6 harg6 hc0 x0 x1 x2 xo4 xo5)]
  unfold kernelRun7_B
  dsimp only
  try sl_unfold_words
  rw [View.canon_cons_unit_zero zeros2_c7]
  simp only [View.readAt_eq_ld, harg1.read_unread, harg2.read_unread, harg3.read_unread, harg5.read_unread, harg6.read_unread, View.ld_unit_zero (S := S10000x10) zeros2_c7, View.ld_unit_zero (S := S1x10) zeros2_c7]

/-- Later points: the sum-of-squares accumulator likewise. -/
theorem later7_sq (c : Dev nD) (i : grid7.Coords) (arg1 : Memref sig .tc .vmem S10000x10 .f32) (harg1 : arg1.IsWhole) (arg2 : Memref sig .tc .vmem S10000x10 .f32) (harg2 : arg2.IsWhole) (arg3 : Memref sig .tc .vmem S1x10 .f32) (harg3 : arg3.IsWhole) (arg4 : Memref sig .tc .vmem S10000x10 .f32) (harg4 : arg4.IsWhole) (arg5 : Memref sig .tc .vmem S1x10 .f32) (harg5 : arg5.IsWhole) (arg6 : Memref sig .tc .vmem S1x10 .f32) (harg6 : arg6.IsWhole) (hc0 : ¬cond7_0 i)
    (x0 x1 : Vec F S10000x10 .f32) (x2 xo4 xo5 : Vec F S1x10 .f32) :
    out7_B_5 c i arg1 harg1 arg2 harg2 arg3 harg3 arg4 harg4 arg5 harg5 arg6 harg6 hc0 x0 x1 x2 xo4 xo5 = k7_pay5 x0 x1 x2 xo5 := by
  unfold out7_B_5
  rw [View.read_writes_eq_canon _ _ _ (cover7_B_5 c i arg1 harg1 arg2 harg2 arg3 harg3 arg4 harg4 arg5 harg5 arg6 harg6 hc0 x0 x1 x2 xo4 xo5)]
  unfold kernelRun7_B
  dsimp only
  try sl_unfold_words
  rw [View.canon_cons_unit_zero zeros2_c7]
  simp only [View.readAt_eq_ld, harg1.read_unread, harg2.read_unread, harg3.read_unread, harg5.read_unread, harg6.read_unread, View.ld_unit_zero (S := S10000x10) zeros2_c7, View.ld_unit_zero (S := S1x10) zeros2_c7]

end Cert.KernelIdeal.KValue

end
-- ==== Proof.Combine7.lean ====
/-
  Region 7 (a combine kernel): its three output arrays as functions of the arrays it finds. Point t of the grid of ten
  combines rows [10000 t, 10000 t + 10000): entry (i, j) of the block output is agg(i, j) + self(i, j) + bias(j). The two
  one-row outputs stay in their staging buffers across the grid and are written back once, after the last point: by
  induction over the points, after point n they hold the column sums of the combined values, and of their squares,
  over the first 10000 (n + 1) rows; after the last point, over all 100000 rows.
-/
import proofs.«113071_j28192165331202_1_alg».proof.Proof.Gen.KernelIdeal.Frame
import proofs.«113071_j28192165331202_1_alg».proof.Proof.PointwiseBlock
import proofs.«113071_j28192165331202_1_alg».proof.Proof.CombinePieces7

set_option maxRecDepth 16384

noncomputable section

namespace Cert.KernelIdeal.KValue

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem zeros2_k7 : (![0, 0] : Fin 2 → Nat) = fun _ => 0 := funext fun a => by fin_cases a <;> rfl

/-- agg + self + bias, entry by entry, the bias taken from its one row at the entry's column. -/
def combArr7 (A S : S100000x10.Idx → EReal) (B : S1x10.Idx → EReal) : S100000x10.Idx → EReal :=
  fun i => (A i + S i) + B (ix2 (0 : Fin 1) ⟨(i 1).val, idx2_lt1 i⟩)

/-- Column j of an array read at a row number, zero past the last row. -/
def colAt7 (X : S100000x10.Idx → EReal) (j : Fin 10) (k : ℕ) : EReal :=
  if h : k < 100000 then X (ix2 ⟨k, h⟩ j) else 0

/-- The column sums of an array, as one row. -/
def colSums7 (X : S100000x10.Idx → EReal) : S1x10.Idx → EReal :=
  fun i => ∑ r : Fin 100000, X (ix2 r ⟨(i 1).val, idx2_lt1 i⟩)

theorem grid_7 : cfg7.N = 10 := N_7

/-- The index maps over the grid: point t handles row block t of both inputs and of the block output; the bias and the
    two accumulators stay at their one block. -/
theorem cblocks_7 : ∀ t : Fin cfg7.N, win7_0.index t (0 : Fin 2) = t.val
    ∧ win7_0.index t (1 : Fin 2) = 0
    ∧ win7_1.index t (0 : Fin 2) = t.val
    ∧ win7_1.index t (1 : Fin 2) = 0
    ∧ win7_2.index t (0 : Fin 2) = 0
    ∧ win7_2.index t (1 : Fin 2) = 0
    ∧ win7_3.index t (0 : Fin 2) = t.val
    ∧ win7_3.index t (1 : Fin 2) = 0
    ∧ win7_4.index t (0 : Fin 2) = 0
    ∧ win7_4.index t (1 : Fin 2) = 0
    ∧ win7_5.index t (0 : Fin 2) = 0
    ∧ win7_5.index t (1 : Fin 2) = 0 :=
  (by decide +kernel : ∀ t : Fin grid7.N, _)

theorem cblocks_onto_7 : ∀ (q0 : Fin 10), ∃ t : Fin cfg7.N, win7_3.index t = ![q0.val, 0] :=
  (by decide +kernel : ∀ (q0 : Fin 10), ∃ t : Fin grid7.N, win7_3.index t = ![q0.val, 0])

theorem last_7 : ∃ t : Fin cfg7.N, t.val = 9 :=
  (by decide +kernel : ∃ t : Fin grid7.N, t.val = 9)

/-- The combined block of point t, entry (r, j), is the combined array at row 10000 t + r, column j. -/
theorem block_entry_7 (c : Dev nD) (t : Fin cfg7.N) (r : Fin 10000) (j : Fin 10) :
    k7_pay3 (F := Ideal) (iblk7 V c 0 t) (iblk7 V c 1 t) (iblk7 V c 2 t) (ix2 r j)
      = (combArr7 (V c main_v112) (V c main_v115) (V c main_v116)) (((cfg7.win 3).blk t).view.emb (ix2 r j)) := by
  obtain ⟨e0, e1, e2, e3, e4, e5, e6, e7, e8, e9, e10, e11⟩ := cblocks_7 t
  refine (comb7_apply _ _ _ r j).trans ?_
  unfold combArr7
  have ha : iblk7 V c 0 t (ix2 r j) = V c main_v112 (((cfg7.win 3).blk t).view.emb (ix2 r j)) := by
    show V c main_v112 (((cfg7.win 0).blk t).view.emb (ix2 r j)) = _
    refine congrArg (V c main_v112) (funext fun a => Fin.ext ?_)
    match a with
    | ⟨0, _⟩ => show win7_0.index t (0 : Fin 2) * 10000 + 1 * r.val = win7_3.index t (0 : Fin 2) * 10000 + 1 * r.val; omega
    | ⟨1, _⟩ => show win7_0.index t (1 : Fin 2) * 10 + 1 * j.val = win7_3.index t (1 : Fin 2) * 10 + 1 * j.val; omega
  have hs : iblk7 V c 1 t (ix2 r j) = V c main_v115 (((cfg7.win 3).blk t).view.emb (ix2 r j)) := by
    show V c main_v115 (((cfg7.win 1).blk t).view.emb (ix2 r j)) = _
    refine congrArg (V c main_v115) (funext fun a => Fin.ext ?_)
    match a with
    | ⟨0, _⟩ => show win7_1.index t (0 : Fin 2) * 10000 + 1 * r.val = win7_3.index t (0 : Fin 2) * 10000 + 1 * r.val; omega
    | ⟨1, _⟩ => show win7_1.index t (1 : Fin 2) * 10 + 1 * j.val = win7_3.index t (1 : Fin 2) * 10 + 1 * j.val; omega
  have hb : iblk7 V c 2 t (ix2 (0 : Fin 1) j) = V c main_v116 (ix2 (0 : Fin 1) ⟨((((cfg7.win 3).blk t).view.emb (ix2 r j)) 1).val, idx2_lt1 _⟩) := by
    show V c main_v116 (((cfg7.win 2).blk t).view.emb (ix2 (0 : Fin 1) j)) = _
    refine congrArg (V c main_v116) (funext fun a => Fin.ext ?_)
    match a with
    | ⟨0, _⟩ => show win7_2.index t (0 : Fin 2) * 1 + 1 * 0 = 0; omega
    | ⟨1, _⟩ => show win7_2.index t (1 : Fin 2) * 10 + 1 * j.val = win7_3.index t (1 : Fin 2) * 10 + 1 * j.val; omega
  rw [ha, hs, hb]

/-- The same entry through the row number. -/
theorem block_col_7 (c : Dev nD) (t : Fin cfg7.N) (r : Fin 10000) (j : Fin 10) :
    k7_pay3 (F := Ideal) (iblk7 V c 0 t) (iblk7 V c 1 t) (iblk7 V c 2 t) (ix2 r j)
      = colAt7 (combArr7 (V c main_v112) (V c main_v115) (V c main_v116)) j (t.val * 10000 + r.val) := by
  obtain ⟨e0, e1, e2, e3, e4, e5, e6, e7, e8, e9, e10, e11⟩ := cblocks_7 t
  have ht : t.val < 10 := lt_of_lt_of_eq t.isLt grid_7
  have hk : t.val * 10000 + r.val < 100000 := by have := r.isLt; omega
  rw [block_entry_7 V c t r j]
  unfold colAt7
  rw [dif_pos hk]
  refine congrArg (combArr7 (V c main_v112) (V c main_v115) (V c main_v116)) (funext fun a => Fin.ext ?_)
  match a with
  | ⟨0, _⟩ => show win7_3.index t (0 : Fin 2) * 10000 + 1 * r.val = t.val * 10000 + r.val; omega
  | ⟨1, _⟩ => show win7_3.index t (1 : Fin 2) * 10 + 1 * j.val = j.val; omega

/-- What every point leaves in the block output's buffer is its combined block. -/
theorem block_at_7 (c : Dev nD) (t : Fin cfg7.N) :
    (outsAt7 (F := Ideal) V c t.val t.isLt).1 = k7_pay3 (F := Ideal) (iblk7 V c 0 t) (iblk7 V c 1 t) (iblk7 V c 2 t) := by
  by_cases h0 : t.val % 10 = 0
  · rw [outsAt7_A V c t h0]
    dsimp only
    exact first7_block (F := Ideal) c (grid7.coords t) (ms7_0 t) (hs7_0 t) (ms7_1 t) (hs7_1 t) (ms7_2 t) (hs7_2 t) (ms7_3 t) (hs7_3 t) (ms7_4 t) (hs7_4 t) (ms7_5 t) (hs7_5 t) ((hcond7_0 t).mpr h0) (iblk7 V c 0 t) (iblk7 V c 1 t) (iblk7 V c 2 t)
  · rw [outsAt7_B V c t h0]
    dsimp only
    exact later7_block (F := Ideal) c (grid7.coords t) (ms7_0 t) (hs7_0 t) (ms7_1 t) (hs7_1 t) (ms7_2 t) (hs7_2 t) (ms7_3 t) (hs7_3 t) (ms7_4 t) (hs7_4 t) (ms7_5 t) (hs7_5 t) (fun h => h0 ((hcond7_0 t).mp h)) (iblk7 V c 0 t) (iblk7 V c 1 t) (iblk7 V c 2 t) _ _

/-- What point t writes back of the block output is block t of the combined array. -/
theorem cwritten_7 (c : Dev nD) (t : Fin cfg7.N) :
    (dat7 (F := Ideal) V c).flushed 3 t = ((cfg7.win 3).blk t).view.read (Elt Ideal) (combArr7 (V c main_v112) (V c main_v115) (V c main_v116)) := by
  show (cfg7.win 3).cut (grid7.coords t) ((dat7 (F := Ideal) V c).after 3 t) = _
  rw [after7_3, block_at_7 V c t]
  funext y
  obtain ⟨r, j, rfl⟩ : ∃ (r : Fin 10000) (j : Fin 10), y = ix2 r j := ⟨y 0, y 1, eq_ix2 y⟩
  exact block_entry_7 V c t r j

theorem cin_block_7 (t : Fin cfg7.N) (i : S100000x10.Idx) :
    i ∈ ((cfg7.win 3).blk t).view.set ↔ ∀ a : Fin 2, win7_3.index t a * S10000x10.size a ≤ (i a).val ∧ (i a).val < win7_3.index t a * S10000x10.size a + S10000x10.size a := by
  show i ∈ ((View.whole main_v117_0).slice (win7_3.rect t)).set ↔ _
  rw [View.set_slice_whole, Rect.mem_set_unit]
  exact Iff.rfl

theorem ctiled_7 (i : S100000x10.Idx) :
    ∃ t : Fin cfg7.N, (cfg7.win 3).flush t = true ∧ i ∈ ((cfg7.win 3).blk t).view.set := by
  have hi0 : (i 0).val < 100000 := idx2_lt0 i
  have hi1 : (i 1).val < 10 := idx2_lt1 i
  obtain ⟨t, ht⟩ := cblocks_onto_7 ⟨(i 0).val / 10000, by omega⟩
  have q0 : win7_3.index t (0 : Fin 2) = (i 0).val / 10000 := congrFun ht 0
  have q1 : win7_3.index t (1 : Fin 2) = 0 := congrFun ht 1
  refine ⟨t, flush7_3 t, ?_⟩
  rw [cin_block_7]
  intro a
  match a with
  | ⟨0, _⟩ => show win7_3.index t (0 : Fin 2) * 10000 ≤ (i 0).val ∧ (i 0).val < win7_3.index t (0 : Fin 2) * 10000 + 10000; omega
  | ⟨1, _⟩ => show win7_3.index t (1 : Fin 2) * 10 ≤ (i 1).val ∧ (i 1).val < win7_3.index t (1 : Fin 2) * 10 + 10; omega

/-- After the region the block output is the combined array of the arrays it found. -/
theorem combined_7 (c : Dev nD) :
    (dat7 (F := Ideal) V c).arrAt 3 cfg7.N = (combArr7 (V c main_v112) (V c main_v115) (V c main_v116)) :=
  (dat7 (F := Ideal) V c).arrAt_eq_of_cover 3 _ (fun t _ => cwritten_7 V c t) (ctiled_7)

/-! ## The two accumulators -/

/-- A block's column sum is a stretch of the array's column: rows 10000 t … 10000 t + 9999. -/
theorem stretch_7 (c : Dev nD) (t : Fin cfg7.N) (j : Fin 10) (f : EReal → EReal) :
    ∑ r : Fin 10000, f (k7_pay3 (F := Ideal) (iblk7 V c 0 t) (iblk7 V c 1 t) (iblk7 V c 2 t) (ix2 r j))
      = ∑ k ∈ Finset.range 10000, f (colAt7 (combArr7 (V c main_v112) (V c main_v115) (V c main_v116)) j (t.val * 10000 + k)) := by
  rw [← Fin.sum_univ_eq_sum_range (fun k => f (colAt7 (combArr7 (V c main_v112) (V c main_v115) (V c main_v116)) j (t.val * 10000 + k))) 10000]
  exact Finset.sum_congr rfl fun r _ => congrArg f (block_col_7 V c t r j)

/-- After point n the two accumulators hold the column sums, of the combined values and of their squares, over the
    first 10000 (n + 1) rows. -/
theorem running_7 (c : Dev nD) (j : Fin 10) : ∀ (n : ℕ) (hn : n < cfg7.N),
    (outsAt7 (F := Ideal) V c n hn).2.1 (ix2 (0 : Fin 1) j) = ∑ k ∈ Finset.range ((n + 1) * 10000), colAt7 (combArr7 (V c main_v112) (V c main_v115) (V c main_v116)) j k
    ∧ (outsAt7 (F := Ideal) V c n hn).2.2 (ix2 (0 : Fin 1) j) = ∑ k ∈ Finset.range ((n + 1) * 10000), colAt7 (combArr7 (V c main_v112) (V c main_v115) (V c main_v116)) j k * colAt7 (combArr7 (V c main_v112) (V c main_v115) (V c main_v116)) j k
  | 0, hn => by
    have h0 : (⟨0, hn⟩ : Fin cfg7.N).val % 10 = 0 := Nat.zero_mod _
    have hA := outsAt7_A (F := Ideal) V c ⟨0, hn⟩ h0
    have e : outsAt7 (F := Ideal) V c 0 hn = outsAt7 (F := Ideal) V c (⟨0, hn⟩ : Fin cfg7.N).val (⟨0, hn⟩ : Fin cfg7.N).isLt := rfl
    rw [e, hA]
    dsimp only
    rw [first7_sum (F := Ideal) c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) ((hcond7_0 ⟨0, hn⟩).mpr h0) (iblk7 V c 0 ⟨0, hn⟩) (iblk7 V c 1 ⟨0, hn⟩) (iblk7 V c 2 ⟨0, hn⟩),
      first7_sq (F := Ideal) c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) ((hcond7_0 ⟨0, hn⟩).mpr h0) (iblk7 V c 0 ⟨0, hn⟩) (iblk7 V c 1 ⟨0, hn⟩) (iblk7 V c 2 ⟨0, hn⟩),
      colsum7_apply, colsq7_apply, reset7a_apply, reset7b_apply]
    have s1 := stretch_7 V c ⟨0, hn⟩ j (fun x => x)
    have s2 := stretch_7 V c ⟨0, hn⟩ j (fun x => x * x)
    simp only [zero_add, Nat.zero_mul, Nat.zero_add, Nat.one_mul] at s1 s2 ⊢
    exact ⟨s1, s2⟩
  | n + 1, hn => by
    have hlt : n + 1 < 10 := lt_of_lt_of_eq hn grid_7
    have h0 : ¬ (⟨n + 1, hn⟩ : Fin cfg7.N).val % 10 = 0 := by show ¬ (n + 1) % 10 = 0; omega
    have hB := outsAt7_B (F := Ideal) V c ⟨n + 1, hn⟩ h0
    obtain ⟨ih1, ih2⟩ := running_7 c j n (Nat.lt_of_succ_lt hn)
    have e : outsAt7 (F := Ideal) V c (n + 1) hn = outsAt7 (F := Ideal) V c (⟨n + 1, hn⟩ : Fin cfg7.N).val (⟨n + 1, hn⟩ : Fin cfg7.N).isLt := rfl
    rw [e, hB]
    dsimp only
    rw [later7_sum (F := Ideal) c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (fun h => h0 ((hcond7_0 ⟨n + 1, hn⟩).mp h)) (iblk7 V c 0 ⟨n + 1, hn⟩) (iblk7 V c 1 ⟨n + 1, hn⟩) (iblk7 V c 2 ⟨n + 1, hn⟩) _ _,
      later7_sq (F := Ideal) c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (fun h => h0 ((hcond7_0 ⟨n + 1, hn⟩).mp h)) (iblk7 V c 0 ⟨n + 1, hn⟩) (iblk7 V c 1 ⟨n + 1, hn⟩) (iblk7 V c 2 ⟨n + 1, hn⟩) _ _,
      colsum7_apply, colsq7_apply]
    have s1 := stretch_7 V c ⟨n + 1, hn⟩ j (fun x => x)
    have s2 := stretch_7 V c ⟨n + 1, hn⟩ j (fun x => x * x)
    have en : (n + 1 + 1) * 10000 = (n + 1) * 10000 + 10000 := by omega
    have ep : (outsAt7 (F := Ideal) V c ((⟨n + 1, hn⟩ : Fin cfg7.N).val - 1) (Nat.lt_of_le_of_lt (Nat.sub_le _ _) (⟨n + 1, hn⟩ : Fin cfg7.N).isLt))
        = outsAt7 (F := Ideal) V c n (Nat.lt_of_succ_lt hn) := rfl
    rw [ep, en, Finset.sum_range_add, Finset.sum_range_add, ih1, ih2]
    dsimp only at s1 s2
    exact ⟨congrArg (_ + ·) s1, congrArg (_ + ·) s2⟩

/-- The whole column as a sum over row numbers. -/
theorem whole_col_7 (X : S100000x10.Idx → EReal) (j : Fin 10) (f : EReal → EReal) :
    ∑ k ∈ Finset.range 100000, f (colAt7 X j k) = ∑ r : Fin 100000, f (X (ix2 r j)) := by
  rw [← Fin.sum_univ_eq_sum_range (fun k => f (colAt7 X j k)) 100000]
  exact Finset.sum_congr rfl fun r _ => congrArg f (dif_pos r.isLt)

theorem ain_block4_7 (t : Fin cfg7.N) (i : S1x10.Idx) :
    i ∈ ((cfg7.win 4).blk t).view.set ↔ ∀ a : Fin 2, win7_4.index t a * S1x10.size a ≤ (i a).val ∧ (i a).val < win7_4.index t a * S1x10.size a + S1x10.size a := by
  show i ∈ ((View.whole main_v117_1).slice (win7_4.rect t)).set ↔ _
  rw [View.set_slice_whole, Rect.mem_set_unit]
  exact Iff.rfl

set_option maxRecDepth 200000 in
/-- The one write-back of this accumulator, after the last point, is the row of column sums over all rows. -/
theorem colsums_written_7 (c : Dev nD) (t : Fin cfg7.N) (hf : (cfg7.win 4).flush t = true) :
    (dat7 (F := Ideal) V c).flushed 4 t = ((cfg7.win 4).blk t).view.read (Elt Ideal) (colSums7 (combArr7 (V c main_v112) (V c main_v115) (V c main_v116))) := by
  obtain ⟨e0, e1, e2, e3, e4, e5, e6, e7, e8, e9, e10, e11⟩ := cblocks_7 t
  have ht : t.val = 9 := by have h9 := (flush7_4 t).mp hf; have hl : t.val < 10 := lt_of_lt_of_eq t.isLt grid_7; omega
  show (cfg7.win 4).cut (grid7.coords t) ((dat7 (F := Ideal) V c).after 4 t) = _
  rw [after7_4]
  funext y
  obtain ⟨u, j, rfl⟩ : ∃ (u : Fin 1) (j : Fin 10), y = ix2 u j := ⟨y 0, y 1, eq_ix2 y⟩
  obtain rfl : u = 0 := Fin.ext (by have := u.isLt; omega)
  refine ((running_7 V c j t.val t.isLt).1).trans ?_
  show _ = colSums7 (combArr7 (V c main_v112) (V c main_v115) (V c main_v116)) (((cfg7.win 4).blk t).view.emb (ix2 (0 : Fin 1) j))
  unfold colSums7
  have hj : (⟨((((cfg7.win 4).blk t).view.emb (ix2 (0 : Fin 1) j)) 1).val, idx2_lt1 _⟩ : Fin 10) = j :=
    Fin.ext (by show win7_4.index t (1 : Fin 2) * 10 + 1 * j.val = j.val; omega)
  rw [hj, ht]
  exact whole_col_7 (combArr7 (V c main_v112) (V c main_v115) (V c main_v116)) j (fun x => x)

theorem acover4_7 (i : S1x10.Idx) :
    ∃ t : Fin cfg7.N, (cfg7.win 4).flush t = true ∧ i ∈ ((cfg7.win 4).blk t).view.set := by
  obtain ⟨t, ht⟩ := last_7
  obtain ⟨e0, e1, e2, e3, e4, e5, e6, e7, e8, e9, e10, e11⟩ := cblocks_7 t
  have hi0 : (i 0).val < 1 := idx2_lt0 i
  have hi1 : (i 1).val < 10 := idx2_lt1 i
  refine ⟨t, (flush7_4 t).mpr (by omega), ?_⟩
  rw [ain_block4_7]
  intro a
  match a with
  | ⟨0, _⟩ => show win7_4.index t (0 : Fin 2) * 1 ≤ (i 0).val ∧ (i 0).val < win7_4.index t (0 : Fin 2) * 1 + 1; omega
  | ⟨1, _⟩ => show win7_4.index t (1 : Fin 2) * 10 ≤ (i 1).val ∧ (i 1).val < win7_4.index t (1 : Fin 2) * 10 + 10; omega

theorem colsums_7 (c : Dev nD) :
    (dat7 (F := Ideal) V c).arrAt 4 cfg7.N = colSums7 (combArr7 (V c main_v112) (V c main_v115) (V c main_v116)) :=
  (dat7 (F := Ideal) V c).arrAt_eq_of_cover 4 _ (fun t hf => colsums_written_7 V c t hf) (acover4_7)

theorem ain_block5_7 (t : Fin cfg7.N) (i : S1x10.Idx) :
    i ∈ ((cfg7.win 5).blk t).view.set ↔ ∀ a : Fin 2, win7_5.index t a * S1x10.size a ≤ (i a).val ∧ (i a).val < win7_5.index t a * S1x10.size a + S1x10.size a := by
  show i ∈ ((View.whole main_v117_2).slice (win7_5.rect t)).set ↔ _
  rw [View.set_slice_whole, Rect.mem_set_unit]
  exact Iff.rfl

set_option maxRecDepth 200000 in
/-- The one write-back of this accumulator, after the last point, is the row of column sums over all rows. -/
theorem colsqs_written_7 (c : Dev nD) (t : Fin cfg7.N) (hf : (cfg7.win 5).flush t = true) :
    (dat7 (F := Ideal) V c).flushed 5 t = ((cfg7.win 5).blk t).view.read (Elt Ideal) (colSums7 (fun i => (combArr7 (V c main_v112) (V c main_v115) (V c main_v116)) i * (combArr7 (V c main_v112) (V c main_v115) (V c main_v116)) i)) := by
  obtain ⟨e0, e1, e2, e3, e4, e5, e6, e7, e8, e9, e10, e11⟩ := cblocks_7 t
  have ht : t.val = 9 := by have h9 := (flush7_5 t).mp hf; have hl : t.val < 10 := lt_of_lt_of_eq t.isLt grid_7; omega
  show (cfg7.win 5).cut (grid7.coords t) ((dat7 (F := Ideal) V c).after 5 t) = _
  rw [after7_5]
  funext y
  obtain ⟨u, j, rfl⟩ : ∃ (u : Fin 1) (j : Fin 10), y = ix2 u j := ⟨y 0, y 1, eq_ix2 y⟩
  obtain rfl : u = 0 := Fin.ext (by have := u.isLt; omega)
  refine ((running_7 V c j t.val t.isLt).2).trans ?_
  show _ = colSums7 (fun i => (combArr7 (V c main_v112) (V c main_v115) (V c main_v116)) i * (combArr7 (V c main_v112) (V c main_v115) (V c main_v116)) i) (((cfg7.win 5).blk t).view.emb (ix2 (0 : Fin 1) j))
  unfold colSums7
  have hj : (⟨((((cfg7.win 5).blk t).view.emb (ix2 (0 : Fin 1) j)) 1).val, idx2_lt1 _⟩ : Fin 10) = j :=
    Fin.ext (by show win7_5.index t (1 : Fin 2) * 10 + 1 * j.val = j.val; omega)
  rw [hj, ht]
  exact whole_col_7 (combArr7 (V c main_v112) (V c main_v115) (V c main_v116)) j (fun x => x * x)

theorem acover5_7 (i : S1x10.Idx) :
    ∃ t : Fin cfg7.N, (cfg7.win 5).flush t = true ∧ i ∈ ((cfg7.win 5).blk t).view.set := by
  obtain ⟨t, ht⟩ := last_7
  obtain ⟨e0, e1, e2, e3, e4, e5, e6, e7, e8, e9, e10, e11⟩ := cblocks_7 t
  have hi0 : (i 0).val < 1 := idx2_lt0 i
  have hi1 : (i 1).val < 10 := idx2_lt1 i
  refine ⟨t, (flush7_5 t).mpr (by omega), ?_⟩
  rw [ain_block5_7]
  intro a
  match a with
  | ⟨0, _⟩ => show win7_5.index t (0 : Fin 2) * 1 ≤ (i 0).val ∧ (i 0).val < win7_5.index t (0 : Fin 2) * 1 + 1; omega
  | ⟨1, _⟩ => show win7_5.index t (1 : Fin 2) * 10 ≤ (i 1).val ∧ (i 1).val < win7_5.index t (1 : Fin 2) * 10 + 10; omega

theorem colsqs_7 (c : Dev nD) :
    (dat7 (F := Ideal) V c).arrAt 5 cfg7.N = colSums7 (fun i => (combArr7 (V c main_v112) (V c main_v115) (V c main_v116)) i * (combArr7 (V c main_v112) (V c main_v115) (V c main_v116)) i) :=
  (dat7 (F := Ideal) V c).arrAt_eq_of_cover 5 _ (fun t hf => colsqs_written_7 V c t hf) (acover5_7)

end Cert.KernelIdeal.KValue

end
-- ==== Proof.Stages.lean ====
/-
  The computation both programs perform, as functions of arrays. The graph's edge list gives, once, the two index
  columns (negative indices wrapped), the degree-normalization of every edge and of every node's self-loop. A layer
  multiplies its input by a weight matrix, gathers the product's rows along the edges, scales them, sums them into
  their target rows, adds the self-loop term and the bias (the "combined" array), and — except for the last layer —
  normalizes each column by its mean and variance over all rows, scales, shifts and cuts below at zero.
  Spelt with the reference program's own operations, so that its stages are these functions by definition.
-/
import proofs.«113071_j28192165331202_1_alg».proof.ReferenceIdeal
import proofs.«113071_j28192165331202_1_alg».proof.Proof.Gen.ReferenceIdeal
import Idealize.ShloMosaic.PureOps.Ideal

noncomputable section

namespace Cert.Stages

open Idealize.ShloMosaic Cert.ReferenceIdeal Cert.ReferenceIdeal.Gen

abbrev Arr (s : Shape) := FVec Ideal s .f32

/-! ## The edges -/

/-- The source column of the edge list. -/
def src (e : IVec S2x1600000 32) : IVec S1600000 32 :=
  shapeCast S1600000 (extractStridedSlice S1x1600000 ![0, 0] e slices_S2x1600000_S1x1600000_0_0) shapeCasts_S1x1600000_S1600000
/-- The target column of the edge list. -/
def dst (e : IVec S2x1600000 32) : IVec S1600000 32 :=
  shapeCast S1600000 (extractStridedSlice S1x1600000 ![1, 0] e slices_S2x1600000_S1x1600000_1_0) shapeCasts_S1x1600000_S1600000
/-- An index column with its negative entries wrapped by the number of rows, as a column of start indices. -/
def wrap (v : IVec S1600000 32) : IVec S1600000x1 32 :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 100000#32))) v)
/-- Every node's degree, its self-loop counted: one plus the number of edges into it. -/
def deg (e : IVec S2x1600000 32) : Arr S100000 :=
  addf (Host.scatterAdd scatter_S100000_S1600000x1_S1600000_n_0_0_1
      (broadcastInDim S100000 ![] bcast_S_S100000 (constant S_ .f32 0x00000000#32))
      (broadcastInDim S1600000x1 ![0] bcast_S1600000_S1600000x1_0 (dst e))
      (broadcastInDim S1600000 ![] bcast_S_S1600000 (constant S_ .f32 0x3F800000#32)))
    (broadcastInDim S100000 ![] bcast_S_S100000 (constant S_ .f32 0x3F800000#32))
/-- The reciprocal square root of the degree. -/
def dinv (e : IVec S2x1600000 32) : Arr S100000 := Host.rsqrt (deg e)
/-- The normalization of every edge: the product of its two ends' reciprocal root degrees. -/
def norm (e : IVec S2x1600000 32) : Arr S1600000 :=
  mulf (Host.gather gather_S100000_S1600000x1_S1600000_n_0_n_n_0_1_1 (dinv e) (wrap (src e)))
    (Host.gather gather_S100000_S1600000x1_S1600000_n_0_n_n_0_1_1 (dinv e) (wrap (dst e)))
/-- The normalization of every node's self-loop. -/
def dinv2 (e : IVec S2x1600000 32) : Arr S100000 := mulf (dinv e) (dinv e)

/-! ## A layer of width 128 -/

/-- The product with the weight matrix. -/
def dot128 (X : Arr S100000x128) (W : Arr S128x128) : Arr S100000x128 :=
  Host.dotGeneral dot_S100000x128_S128x128_S100000x128_1_0_0_1_n_n none X W
/-- The rows gathered along a source column, scaled by an edge weight, summed into the rows a target column names. -/
def aggOf128 (H : Arr S100000x128) (s d : IVec S1600000 32) (n : Arr S1600000) : Arr S100000x128 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 d)
    (mulf (Host.gather gather_S100000x128_S1600000x1_S1600000x128_1_0_n_n_0_1_1128 H (wrap s))
      (broadcastInDim S1600000x128 ![0, 1] bcast_S1600000x1_S1600000x128_0_1
        (broadcastInDim S1600000x1 ![0] bcast_S1600000_S1600000x1_0 n)))
/-- The rows gathered along the edges, scaled, summed into their target rows. -/
def agg128 (H : Arr S100000x128) (e : IVec S2x1600000 32) : Arr S100000x128 := aggOf128 H (src e) (dst e) (norm e)
/-- Every row scaled by a per-row weight. -/
def selfOf128 (H : Arr S100000x128) (d2 : Arr S100000) : Arr S100000x128 :=
  mulf H (broadcastInDim S100000x128 ![0, 1] bcast_S100000x1_S100000x128_0_1
    (broadcastInDim S100000x1 ![0] bcast_S100000_S100000x1_0 d2))
/-- The self-loop term. -/
def self128 (H : Arr S100000x128) (e : IVec S2x1600000 32) : Arr S100000x128 := selfOf128 H (dinv2 e)
/-- A row of 128 numbers broadcast over all rows. -/
def rows128 (v : Arr S128) : Arr S100000x128 :=
  broadcastInDim S100000x128 ![0, 1] bcast_S1x128_S100000x128_0_1 (broadcastInDim S1x128 ![1] bcast_S128_S1x128_1 v)
/-- The combined array: aggregate plus self-loop plus bias. -/
def conv128 (H : Arr S100000x128) (e : IVec S2x1600000 32) (b : Arr S128) : Arr S100000x128 :=
  addf (addf (agg128 H e) (self128 H e)) (rows128 b)
/-- The column means. -/
def mean128 (C : Arr S100000x128) : Arr S128 :=
  Host.divf (Host.reduceAdd C (constant S_ .f32 0x00000000#32) reducesTo_S100000x128_S128_d0 h_S_)
    (broadcastInDim S128 ![] bcast_S_S128 (constant S_ .f32 0x47C35000#32))
/-- The column variances: the mean of the squared deviations from the column mean. -/
def var128 (C : Arr S100000x128) : Arr S128 :=
  Host.divf (Host.reduceAdd (mulf (subf C (rows128 (mean128 C))) (subf C (rows128 (mean128 C))))
      (constant S_ .f32 0x00000000#32) reducesTo_S100000x128_S128_d0 h_S_)
    (broadcastInDim S128 ![] bcast_S_S128 (constant S_ .f32 0x47C35000#32))
/-- The normalization: γ (x − μ) ρ + β, cut below at zero. -/
def bnrelu128 (C : Arr S100000x128) (γ β : Arr S128) : Arr S100000x128 :=
  maximumf
    (addf (mulf (mulf (rows128 γ) (subf C (rows128 (mean128 C))))
        (rows128 (Host.rsqrt (addf (var128 C) (broadcastInDim S128 ![] bcast_S_S128 (constant S_ .f32 0x3727C5AC#32))))))
      (rows128 β))
    (broadcastInDim S100000x128 ![] bcast_S_S100000x128 (constant S_ .f32 0x00000000#32))

/-! ## The last layer, of width 10 -/

def dot10 (X : Arr S100000x128) (W : Arr S128x10) : Arr S100000x10 :=
  Host.dotGeneral dot_S100000x128_S128x10_S100000x10_1_0_0_1_n_n none X W
def aggOf10 (H : Arr S100000x10) (s d : IVec S1600000 32) (n : Arr S1600000) : Arr S100000x10 :=
  Host.scatterAdd scatter_S100000x10_S1600000x1_S1600000x10_1_0_0_1
    (broadcastInDim S100000x10 ![] bcast_S_S100000x10 (constant S_ .f32 0x00000000#32))
    (broadcastInDim S1600000x1 ![0] bcast_S1600000_S1600000x1_0 d)
    (mulf (Host.gather gather_S100000x10_S1600000x1_S1600000x10_1_0_n_n_0_1_110 H (wrap s))
      (broadcastInDim S1600000x10 ![0, 1] bcast_S1600000x1_S1600000x10_0_1
        (broadcastInDim S1600000x1 ![0] bcast_S1600000_S1600000x1_0 n)))
def agg10 (H : Arr S100000x10) (e : IVec S2x1600000 32) : Arr S100000x10 := aggOf10 H (src e) (dst e) (norm e)
def selfOf10 (H : Arr S100000x10) (d2 : Arr S100000) : Arr S100000x10 :=
  mulf H (broadcastInDim S100000x10 ![0, 1] bcast_S100000x1_S100000x10_0_1
    (broadcastInDim S100000x1 ![0] bcast_S100000_S100000x1_0 d2))
def self10 (H : Arr S100000x10) (e : IVec S2x1600000 32) : Arr S100000x10 := selfOf10 H (dinv2 e)
/-- A row of 10 numbers broadcast over all rows. -/
def rows10 (v : Arr S10) : Arr S100000x10 :=
  broadcastInDim S100000x10 ![0, 1] bcast_S1x10_S100000x10_0_1 (broadcastInDim S1x10 ![1] bcast_S10_S1x10_1 v)
def conv10 (H : Arr S100000x10) (e : IVec S2x1600000 32) (b : Arr S10) : Arr S100000x10 :=
  addf (addf (agg10 H e) (self10 H e)) (rows10 b)

/-! ## The whole network -/

/-- A hidden layer: product, combine, normalize. -/
def hidden (X : Arr S100000x128) (e : IVec S2x1600000 32) (W : Arr S128x128) (b γ β : Arr S128) : Arr S100000x128 :=
  bnrelu128 (conv128 (dot128 X W) e b) γ β

/-- Two hidden layers and the output layer. -/
def network (x : Arr S100000x128) (e : IVec S2x1600000 32) (W0 : Arr S128x128) (b0 g0 be0 : Arr S128)
    (W1 : Arr S128x128) (b1 g1 be1 : Arr S128) (W2 : Arr S128x10) (b2 : Arr S10) : Arr S100000x10 :=
  conv10 (dot10 (hidden (hidden x e W0 b0 g0 be0) e W1 b1 g1 be1) W2) e b2

end Cert.Stages

end
-- ==== Proof.Algebra.lean ====
/-
  The extended-real algebra behind the batch normalization. One program normalizes with E[x²] − E[x]² and the
  folded form x · scale + shift, the other with the mean of (x − μ)² and γ (x − μ) ρ + β. Over the extended reals
  these differ at infinities, so everything is stated for entries that are real numbers: then both forms are the same
  real expression. Also here: the values of the three float constants the proof needs, and the closure of
  "is a real number" under the operations the two programs use.
-/
import Idealize.ShloMosaic.PureOps.Ideal
import Idealize.ShloMosaic.PureOps.Ideal.Laws

noncomputable section

namespace Cert.Algebra

open Idealize.ShloMosaic

/-! ## The float constants -/

/-- The pattern of 1.0 denotes 1. -/
theorem ofBits_one : Ideal.ofBits .f32 0x3F800000#32 = 1 := by
  simp [Ideal.ofBits, Ideal.ieee, -EReal.coe_mul]; norm_num

/-- The pattern of 100000.0, the number of rows, denotes 100000. -/
theorem ofBits_rows : Ideal.ofBits .f32 0x47C35000#32 = ((100000 : ℝ) : EReal) := by
  simp [Ideal.ofBits, Ideal.ieee, -EReal.coe_mul]; norm_num

/-- The pattern of the variance's epsilon denotes a positive real. -/
theorem ofBits_eps : ∃ e : ℝ, 0 < e ∧ Ideal.ofBits .f32 0x3727C5AC#32 = (e : EReal) := by
  simp [Ideal.ofBits, Ideal.ieee, -EReal.coe_mul]

/-! ## Real entries -/

/-- An extended real that is a real number. -/
def IsReal (x : EReal) : Prop := ∃ r : ℝ, x = (r : EReal)

theorem IsReal.coe (r : ℝ) : IsReal (r : EReal) := ⟨r, rfl⟩
theorem IsReal.zero : IsReal 0 := ⟨0, EReal.coe_zero.symm⟩
theorem IsReal.one : IsReal 1 := ⟨1, EReal.coe_one.symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.max_zero {x : EReal} (hx : IsReal x) : IsReal (max x 0) := by
  obtain ⟨a, rfl⟩ := hx
  refine ⟨max a 0, ?_⟩
  rw [← EReal.coe_zero]
  exact (EReal.coe_strictMono.monotone.map_max).symm

theorem IsReal.sum {ι : Type*} (s : Finset ι) (f : ι → EReal) (h : ∀ i ∈ s, IsReal (f i)) : IsReal (∑ i ∈ s, f i) :=
  Finset.sum_induction f IsReal (fun _ _ => IsReal.add) IsReal.zero h

/-- The coercion of a finite real sum is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The quotient of two reals, the divisor not zero. -/
theorem div_real (x n : ℝ) (hn : n ≠ 0) : Ideal.div (x : EReal) (n : EReal) = ((x / n : ℝ) : EReal) := by
  rw [Ideal.div_coe hn, ← EReal.coe_mul, mul_one_div]

/-- The reciprocal square root of a positive real. -/
theorem rsqrt_real (y : ℝ) (hy : 0 < y) : Ideal.rsqrt (y : EReal) = (((Real.sqrt y)⁻¹ : ℝ) : EReal) := by
  rw [Ideal.rsqrt_coe, if_neg (not_lt.mpr hy.le), if_neg hy.ne']

theorem IsReal.div_real {x : EReal} (hx : IsReal x) (n : ℝ) (hn : n ≠ 0) : IsReal (Ideal.div x (n : EReal)) := by
  obtain ⟨a, rfl⟩ := hx; exact ⟨a / n, Cert.Algebra.div_real a n hn⟩

/-! ## The variance, two ways -/

/-- Over the reals: the mean of the squares less the square of the mean is the mean of the squared deviations. -/
theorem var_identity {ι : Type*} [Fintype ι] (c : ι → ℝ) (n : ℝ) (hn : (Fintype.card ι : ℝ) = n) (hn0 : n ≠ 0) :
    (∑ i, c i * c i) / n - (∑ i, c i) / n * ((∑ i, c i) / n)
      = (∑ i, (c i - (∑ i, c i) / n) * (c i - (∑ i, c i) / n)) / n := by
  have h1 : ∀ i, (c i - (∑ i, c i) / n) * (c i - (∑ i, c i) / n)
      = c i * c i - 2 * ((∑ i, c i) / n) * c i + ((∑ i, c i) / n * ((∑ i, c i) / n)) := fun i => by ring
  have h2 : ∑ i, (c i - (∑ i, c i) / n) * (c i - (∑ i, c i) / n)
      = (∑ i, c i * c i) - 2 * ((∑ i, c i) / n) * (∑ i, c i) + n * ((∑ i, c i) / n * ((∑ i, c i) / n)) := by
    simp only [h1]
    rw [Finset.sum_add_distrib, Finset.sum_sub_distrib, ← Finset.mul_sum, Finset.sum_const, Finset.card_univ,
      nsmul_eq_mul, hn]
  rw [h2]
  field_simp
  ring

/-! ## One column of the batch normalization -/

section Column

variable {ι : Type*} [Fintype ι] (c : ι → ℝ) (n : ℝ) (hn : (Fintype.card ι : ℝ) = n) (hpos : 0 < n)
  (g b e : ℝ) (he : 0 < e)

/-- The column's mean. -/
def mean : ℝ := (∑ i, c i) / n
/-- The column's variance, as the mean of the squared deviations. -/
def var : ℝ := (∑ i, (c i - mean c n) * (c i - mean c n)) / n
/-- The reciprocal standard deviation, epsilon added under the root. -/
def rstd : ℝ := (Real.sqrt (var c n + e))⁻¹

include hpos in
theorem var_nonneg : 0 ≤ var c n :=
  div_nonneg (Finset.sum_nonneg fun i _ => mul_self_nonneg _) hpos.le

/-- The sum of the column's entries, as extended reals. -/
theorem sum_coe : ∑ i, (c i : EReal) = ((∑ i, c i : ℝ) : EReal) := (coe_sum _ _).symm
/-- The sum of their squares. -/
theorem sumsq_coe : ∑ i, (c i : EReal) * (c i : EReal) = ((∑ i, c i * c i : ℝ) : EReal) := by
  rw [coe_sum]; exact Finset.sum_congr rfl fun i _ => (EReal.coe_mul _ _).symm

include hpos in
/-- The mean as the reference computes it. -/
theorem mean_eq : Ideal.div (∑ i, (c i : EReal)) (n : EReal) = ((mean c n : ℝ) : EReal) := by
  rw [sum_coe, div_real _ _ hpos.ne']; rfl

include hn hpos in
/-- The folded variance E[x²] − E[x]² is the variance. -/
theorem var_folded :
    Ideal.div (∑ i, (c i : EReal) * (c i : EReal)) (n : EReal)
        - Ideal.div (∑ i, (c i : EReal)) (n : EReal) * Ideal.div (∑ i, (c i : EReal)) (n : EReal)
      = ((var c n : ℝ) : EReal) := by
  rw [sumsq_coe, sum_coe, div_real _ _ hpos.ne', div_real _ _ hpos.ne', ← EReal.coe_mul, ← EReal.coe_sub,
    var_identity c n hn hpos.ne']
  rfl

include hpos in
/-- The variance as the reference computes it: the mean of the squared deviations from its mean. -/
theorem var_direct :
    Ideal.div (∑ i, ((c i : EReal) - Ideal.div (∑ i, (c i : EReal)) (n : EReal))
        * ((c i : EReal) - Ideal.div (∑ i, (c i : EReal)) (n : EReal))) (n : EReal)
      = ((var c n : ℝ) : EReal) := by
  rw [mean_eq c n hpos]
  have h : ∀ i, ((c i : EReal) - ((mean c n : ℝ) : EReal)) * ((c i : EReal) - ((mean c n : ℝ) : EReal))
      = (((c i - mean c n) * (c i - mean c n) : ℝ) : EReal) := fun i => by
    rw [← EReal.coe_sub, ← EReal.coe_mul]
  simp only [h]
  rw [← coe_sum, div_real _ _ hpos.ne']
  rfl

include hpos he in
/-- The reciprocal standard deviation of the variance plus epsilon. -/
theorem rstd_eq : Ideal.rsqrt (((var c n : ℝ) : EReal) + (e : EReal)) = ((rstd c n e : ℝ) : EReal) := by
  rw [← EReal.coe_add, rsqrt_real _ (add_pos_of_nonneg_of_pos (var_nonneg c n hpos) he)]
  rfl

/-- The folded form x · scale + shift, with scale = γ ρ and shift = β − μ · scale, is γ (x − μ) ρ + β. -/
theorem folded_eq (x : ℝ) :
    (x : EReal) * ((g : EReal) * ((rstd c n e : ℝ) : EReal))
        + ((b : EReal) - ((mean c n : ℝ) : EReal) * ((g : EReal) * ((rstd c n e : ℝ) : EReal)))
      = ((g : EReal) * ((x : EReal) - ((mean c n : ℝ) : EReal))) * ((rstd c n e : ℝ) : EReal) + (b : EReal) := by
  rw [← EReal.coe_mul, ← EReal.coe_mul, ← EReal.coe_mul, ← EReal.coe_sub, ← EReal.coe_add, ← EReal.coe_sub,
    ← EReal.coe_mul, ← EReal.coe_mul, ← EReal.coe_add]
  congr 1
  ring

/-- The normalized entry is a real number. -/
theorem normalized_real (x : ℝ) :
    IsReal (max (((g : EReal) * ((x : EReal) - ((mean c n : ℝ) : EReal))) * ((rstd c n e : ℝ) : EReal) + (b : EReal)) 0) :=
  ((((IsReal.coe g).mul ((IsReal.coe x).sub (IsReal.coe _))).mul (IsReal.coe _)).add (IsReal.coe b)).max_zero

end Column

end Cert.Algebra

end
-- ==== Proof.RealArrays.lean ====
/-
  Arrays of real numbers: an array over the extended reals all of whose entries are real, and the operations of the
  two programs that keep it so — sums, products, differences, broadcasts and gathers (which only move entries),
  the accumulating scatter and the reductions (finite sums), the matrix product (finite sums of products), the
  quotient by a nonzero real constant, the reciprocal square root of positive entries, the cut below at zero.
-/
import proofs.«113071_j28192165331202_1_alg».proof.Proof.Algebra
import Idealize.ShloMosaic.PureOps.Ideal
import Idealize.ShloMosaic.PureOps.Ideal.Laws
import Idealize.ShloMosaic.Lib.ValueIdx

noncomputable section

namespace Cert.Algebra

open Idealize.ShloMosaic

/-- Every entry is a real number. -/
def AllReal {ι : Type*} (v : ι → EReal) : Prop := ∀ i, IsReal (v i)

/-- Every entry is a positive real number. -/
def AllPos {ι : Type*} (v : ι → EReal) : Prop := ∀ i, ∃ r : ℝ, 0 < r ∧ v i = (r : EReal)

theorem AllPos.real {ι : Type*} {v : ι → EReal} (h : AllPos v) : AllReal v := fun i => by
  obtain ⟨r, -, e⟩ := h i; exact ⟨r, e⟩

variable {s t : Shape}

/-! ## The host operations read at an entry (stated once, over any shape) -/

theorem hostDivf_apply (x y : FVec Ideal s .f32) (i : s.Idx) : Host.divf x y i = Ideal.div (x i) (y i) := rfl
theorem hostRsqrt_apply (x : FVec Ideal s .f32) (i : s.Idx) : Host.rsqrt x i = Ideal.rsqrt (x i) := rfl
theorem hostReduceAdd_apply {axes : List (Fin s.rank)} {u : Shape} (x : FVec Ideal s .f32) (init : u.Idx → Ideal .f32)
    (h : s.ReducesTo axes t) (hu : 0 < u.numel) (j : t.Idx) :
    Host.reduceAdd x init h hu j = Ideal.hostReduceAdd h x (init (Shape.Idx.first hu)) j := rfl
theorem splat_apply (bits : BitVec 32) (dims : Fin (⟨0, ![]⟩ : Shape).rank → Fin t.rank)
    (hb : (⟨0, ![]⟩ : Shape).BroadcastsInDim t dims) (i : t.Idx) :
    (broadcastInDim t dims hb (constant (⟨0, ![]⟩ : Shape) .f32 bits : FVec Ideal (⟨0, ![]⟩ : Shape) .f32)) i = Ideal.ofBits .f32 bits := rfl
theorem const_apply (bits : BitVec 32) (i : (⟨0, ![]⟩ : Shape).Idx) :
    (constant (⟨0, ![]⟩ : Shape) .f32 bits : FVec Ideal (⟨0, ![]⟩ : Shape) .f32) i = Ideal.ofBits .f32 bits := rfl
theorem addf_at (x y : FVec Ideal s .f32) (i : s.Idx) : Idealize.ShloMosaic.addf x y i = x i + y i := rfl
theorem mulf_at (x y : FVec Ideal s .f32) (i : s.Idx) : Idealize.ShloMosaic.mulf x y i = x i * y i := rfl
theorem subf_at (x y : FVec Ideal s .f32) (i : s.Idx) : Idealize.ShloMosaic.subf x y i = x i - y i := rfl
theorem maximumf_at (x y : FVec Ideal s .f32) (i : s.Idx) : Idealize.ShloMosaic.maximumf x y i = max (x i) (y i) := rfl

theorem AllReal.addf {x y : FVec Ideal s .f32} (hx : AllReal x) (hy : AllReal y) : AllReal (addf x y) :=
  fun i => (hx i).add (hy i)
theorem AllReal.mulf {x y : FVec Ideal s .f32} (hx : AllReal x) (hy : AllReal y) : AllReal (mulf x y) :=
  fun i => (hx i).mul (hy i)
theorem AllReal.subf {x y : FVec Ideal s .f32} (hx : AllReal x) (hy : AllReal y) : AllReal (subf x y) :=
  fun i => (hx i).sub (hy i)

/-- A broadcast only repeats entries. -/
theorem AllReal.bcast {x : FVec Ideal s .f32} (hx : AllReal x) (dims : Fin s.rank → Fin t.rank) (h : s.BroadcastsInDim t dims) :
    AllReal (broadcastInDim t dims h x) := fun _ => hx _

/-- A gather only picks entries. -/
theorem AllReal.gather {si : Shape} {w : Nat} {x : FVec Ideal s .f32} (hx : AllReal x) (d : GatherDims s si t) (idx : IVec si w) :
    AllReal (Host.gather d x idx) := fun _ => hx _

/-- The accumulating scatter adds finitely many updates to each entry. -/
theorem AllReal.scatterAdd {si u : Shape} {w : Nat} {x : FVec Ideal s .f32} {upd : FVec Ideal u .f32} (hx : AllReal x)
    (hu : AllReal upd) (d : ScatterDims s si u) (idx : IVec si w) : AllReal (Host.scatterAdd d x idx upd) := fun i => by
  show IsReal (x i + ∑ j ∈ Finset.univ.filter (fun j => d.resultIdx? j idx = some i), upd j)
  exact (hx i).add (IsReal.sum _ _ fun j _ => hu j)

/-- A count of ones, as an extended real, is the count. -/
theorem nsmul_one_coe (n : ℕ) : n • (1 : EReal) = ((n : ℝ) : EReal) := by
  induction n with
  | zero => simp
  | succ k ih => rw [succ_nsmul, ih, Nat.cast_succ, EReal.coe_add, EReal.coe_one]

/-- One plus a count: scattering ones onto zeros and adding one gives positive reals. -/
theorem AllPos.count_add_one {si u : Shape} {w : Nat} (d : ScatterDims s si u) (idx : IVec si w) (x one : FVec Ideal s .f32)
    (upd : FVec Ideal u .f32) (hx : ∀ i, x i = 0) (hu : ∀ j, upd j = 1) (h1 : ∀ i, one i = 1) :
    AllPos (Idealize.ShloMosaic.addf (Host.scatterAdd d x idx upd) one) := fun i => by
  show ∃ r : ℝ, 0 < r ∧ (x i + ∑ j ∈ Finset.univ.filter (fun j => d.resultIdx? j idx = some i), upd j) + one i = (r : EReal)
  rw [hx i, h1 i, zero_add, Finset.sum_congr rfl (fun j _ => hu j), Finset.sum_const, nsmul_one_coe]
  exact ⟨((Finset.univ.filter (fun j => d.resultIdx? j idx = some i)).card : ℝ) + 1, by positivity,
    by rw [EReal.coe_add, EReal.coe_one]⟩

/-- A constant splat of a real pattern. -/
theorem AllReal.const {bits : BitVec 32} (h : IsReal (Ideal.ofBits .f32 bits)) (dims : Fin (⟨0, ![]⟩ : Shape).rank → Fin t.rank)
    (hb : (⟨0, ![]⟩ : Shape).BroadcastsInDim t dims) : AllReal (broadcastInDim t dims hb (constant (⟨0, ![]⟩ : Shape) .f32 bits : FVec Ideal (⟨0, ![]⟩ : Shape) .f32)) :=
  fun _ => h

/-- The host's matrix product is a finite sum of products. -/
theorem AllReal.dotGeneral {sl sr so : Shape} {x : FVec Ideal sl .f32} {w : FVec Ideal sr .f32} (hx : AllReal x) (hw : AllReal w)
    (d : DotDims sl sr so) : AllReal (Host.dotGeneral d none x w) := fun j => by
  show IsReal (FloatOps.dotGeneral d none .single x w j)
  rw [Ideal.dotGeneral_apply]
  exact IsReal.sum _ _ fun k _ => (hx _).mul (hw _)

/-- The host's sum over axes: the initial value plus a finite sum. -/
theorem AllReal.reduceAdd {axes : List (Fin s.rank)} {u : Shape} {x : FVec Ideal s .f32} (hx : AllReal x) (init : u.Idx → Ideal .f32)
    (hi : ∀ i, IsReal (init i)) (h : s.ReducesTo axes t) (hu : 0 < u.numel) : AllReal (Host.reduceAdd x init h hu) := fun j => by
  show IsReal (init (Shape.Idx.first hu) + ∑ i ∈ Finset.univ.filter (fun i => h.drop i = j), x i)
  exact (hi _).add (IsReal.sum _ _ fun i _ => hx i)

/-- The quotient by an array of one nonzero real. -/
theorem AllReal.divf {x y : FVec Ideal s .f32} (hx : AllReal x) (n : ℝ) (hn : n ≠ 0) (hy : ∀ i, y i = (n : EReal)) :
    AllReal (Host.divf x y) := fun i => by
  show IsReal (Ideal.div (x i) (y i))
  rw [hy i]; exact (hx i).div_real n hn

/-- The reciprocal square root of positive entries. -/
theorem AllPos.rsqrt {x : FVec Ideal s .f32} (hx : AllPos x) : AllPos (Host.rsqrt x) := fun i => by
  obtain ⟨r, hr, e⟩ := hx i
  refine ⟨(Real.sqrt r)⁻¹, inv_pos.mpr (Real.sqrt_pos.mpr hr), ?_⟩
  show Ideal.rsqrt (x i) = _
  rw [e, rsqrt_real r hr]

/-- The cut below at a zero splat. -/
theorem AllReal.relu {x z : FVec Ideal s .f32} (hx : AllReal x) (hz : ∀ i, z i = 0) : AllReal (maximumf x z) := fun i => by
  show IsReal (max (x i) (z i))
  rw [hz i]; exact (hx i).max_zero

end Cert.Algebra

end
-- ==== Proof.StageFacts.lean ====
/-
  The stage functions read at an entry, and their real-valuedness. The degree of a node is one plus a count, so its
  reciprocal root is a positive real and the edge and self-loop weights are real; a layer of real inputs, weights, bias,
  scale and shift has real products, aggregates, combined values and normalized values.
-/
import proofs.«113071_j28192165331202_1_alg».proof.Proof.Stages
import proofs.«113071_j28192165331202_1_alg».proof.Proof.RealArrays
import Idealize.ShloMosaic.Lib.ValueIdx
import Idealize.ShloMosaic.Lib.Pipeline.Value
import Idealize.ShloMosaic.PureOps.Ideal.Laws

set_option maxRecDepth 16384

noncomputable section

namespace Cert.Stages

open Idealize.ShloMosaic Idealize.ShloMosaic.ValueIdx Cert.ReferenceIdeal Cert.ReferenceIdeal.Gen Cert.Algebra

/-! ## Splats of the constants -/

theorem zero_real : IsReal (Ideal.ofBits .f32 0x00000000#32) := by rw [Ideal.ofBits_zero_f32]; exact IsReal.zero
theorem one_real : IsReal (Ideal.ofBits .f32 0x3F800000#32) := by rw [ofBits_one]; exact IsReal.one

/-! ## The edges -/

/-- A node's degree is one plus the number of edges into it: a positive real. -/
theorem deg_pos (e : IVec S2x1600000 32) : AllPos (deg e) :=
  AllPos.count_add_one _ _ _ _ _ (fun _ => Ideal.ofBits_zero_f32) (fun _ => ofBits_one) (fun _ => ofBits_one)

theorem dinv_pos (e : IVec S2x1600000 32) : AllPos (dinv e) := (deg_pos e).rsqrt
theorem norm_real (e : IVec S2x1600000 32) : AllReal (norm e) :=
  ((dinv_pos e).real.gather _ _).mulf ((dinv_pos e).real.gather _ _)
theorem dinv2_real (e : IVec S2x1600000 32) : AllReal (dinv2 e) := (dinv_pos e).real.mulf (dinv_pos e).real

/-! ## A row broadcast over all rows -/

theorem rows128_apply (v : Arr S128) (r : Fin 100000) (j : Fin 128) : rows128 v (ix2 r j) = v (ix1 j) := by
  unfold rows128
  refine (broadcastInDim_apply _ bcast_S1x128_S100000x128_0_1 _ (ix2 r j) (ix2 (0 : Fin 1) j) (fun a => match a with
    | ⟨0, _⟩ => by show 0 = if (1 : Nat) = 1 then 0 else r.val; rw [if_pos rfl]
    | ⟨1, _⟩ => by show j.val = if (128 : Nat) = 1 then 0 else j.val; rw [if_neg (by decide)])).trans ?_
  exact broadcastInDim_apply _ bcast_S128_S1x128_1 v (ix2 (0 : Fin 1) j) (ix1 j) (fun a => match a with
    | ⟨0, _⟩ => by show j.val = if (128 : Nat) = 1 then 0 else j.val; rw [if_neg (by decide)])

theorem rows10_apply (v : Arr S10) (r : Fin 100000) (j : Fin 10) : rows10 v (ix2 r j) = v (ix1 j) := by
  unfold rows10
  refine (broadcastInDim_apply _ bcast_S1x10_S100000x10_0_1 _ (ix2 r j) (ix2 (0 : Fin 1) j) (fun a => match a with
    | ⟨0, _⟩ => by show 0 = if (1 : Nat) = 1 then 0 else r.val; rw [if_pos rfl]
    | ⟨1, _⟩ => by show j.val = if (10 : Nat) = 1 then 0 else j.val; rw [if_neg (by decide)])).trans ?_
  exact broadcastInDim_apply _ bcast_S10_S1x10_1 v (ix2 (0 : Fin 1) j) (ix1 j) (fun a => match a with
    | ⟨0, _⟩ => by show j.val = if (10 : Nat) = 1 then 0 else j.val; rw [if_neg (by decide)])

theorem rows128_real {v : Arr S128} (hv : AllReal v) : AllReal (rows128 v) := (hv.bcast _ _).bcast _ _

/-! ## The product -/

theorem dot128_apply (X : Arr S100000x128) (W : Arr S128x128) (r : Fin 100000) (j : Fin 128) :
    dot128 X W (ix2 r j) = ∑ k : Fin 128, X (ix2 r k) * W (ix2 k j) := by
  unfold dot128
  show FloatOps.dotGeneral dot_S100000x128_S128x128_S100000x128_1_0_0_1_n_n none .single X W (ix2 r j) = _
  rw [Ideal.dotGeneral_apply, ← Equiv.sum_comp (contrEquiv1 dot_S100000x128_S128x128_S100000x128_1_0_0_1_n_n 128 rfl rfl).symm]
  refine Finset.sum_congr rfl fun k _ => ?_
  have hk := contrEquiv1_symm_val dot_S100000x128_S128x128_S100000x128_1_0_0_1_n_n 128 rfl rfl k
  have el : dot_S100000x128_S128x128_S100000x128_1_0_0_1_n_n.lhsIdx (ix2 r j) ((contrEquiv1 dot_S100000x128_S128x128_S100000x128_1_0_0_1_n_n 128 rfl rfl).symm k) = ix2 r k := funext fun a => Fin.ext (by
    match a with
    | ⟨0, _⟩ =>
      show (dot_S100000x128_S128x128_S100000x128_1_0_0_1_n_n.lhsIdx (ix2 r j) _ 0).val = r.val
      unfold DotDims.lhsIdx
      rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
      rfl
    | ⟨1, _⟩ => exact ((dot_S100000x128_S128x128_S100000x128_1_0_0_1_n_n.lhsIdx_val_of_single rfl (ix2 r j) _).trans hk))
  have er : dot_S100000x128_S128x128_S100000x128_1_0_0_1_n_n.rhsIdx (ix2 r j) ((contrEquiv1 dot_S100000x128_S128x128_S100000x128_1_0_0_1_n_n 128 rfl rfl).symm k) = ix2 k j := funext fun a => Fin.ext (by
    match a with
    | ⟨0, _⟩ => exact ((dot_S100000x128_S128x128_S100000x128_1_0_0_1_n_n.rhsIdx_val_of_single rfl (ix2 r j) _).trans hk)
    | ⟨1, _⟩ =>
      show (dot_S100000x128_S128x128_S100000x128_1_0_0_1_n_n.rhsIdx (ix2 r j) _ 1).val = j.val
      unfold DotDims.rhsIdx
      rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
      rfl)
  rw [el, er]

theorem dot10_apply (X : Arr S100000x128) (W : Arr S128x10) (r : Fin 100000) (j : Fin 10) :
    dot10 X W (ix2 r j) = ∑ k : Fin 128, X (ix2 r k) * W (ix2 k j) := by
  unfold dot10
  show FloatOps.dotGeneral dot_S100000x128_S128x10_S100000x10_1_0_0_1_n_n none .single X W (ix2 r j) = _
  rw [Ideal.dotGeneral_apply, ← Equiv.sum_comp (contrEquiv1 dot_S100000x128_S128x10_S100000x10_1_0_0_1_n_n 128 rfl rfl).symm]
  refine Finset.sum_congr rfl fun k _ => ?_
  have hk := contrEquiv1_symm_val dot_S100000x128_S128x10_S100000x10_1_0_0_1_n_n 128 rfl rfl k
  have el : dot_S100000x128_S128x10_S100000x10_1_0_0_1_n_n.lhsIdx (ix2 r j) ((contrEquiv1 dot_S100000x128_S128x10_S100000x10_1_0_0_1_n_n 128 rfl rfl).symm k) = ix2 r k := funext fun a => Fin.ext (by
    match a with
    | ⟨0, _⟩ =>
      show (dot_S100000x128_S128x10_S100000x10_1_0_0_1_n_n.lhsIdx (ix2 r j) _ 0).val = r.val
      unfold DotDims.lhsIdx
      rw [dif_neg (show ¬(0 : Fin S100000x128.rank) ∈ dot_S100000x128_S128x10_S100000x10_1_0_0_1_n_n.lhsBatch by decide), dif_pos (show (0 : Fin S100000x128.rank) ∈ dot_S100000x128_S128x10_S100000x10_1_0_0_1_n_n.lhsNonContracting by decide)]
      rfl
    | ⟨1, _⟩ => exact ((dot_S100000x128_S128x10_S100000x10_1_0_0_1_n_n.lhsIdx_val_of_single rfl (ix2 r j) _).trans hk))
  have er : dot_S100000x128_S128x10_S100000x10_1_0_0_1_n_n.rhsIdx (ix2 r j) ((contrEquiv1 dot_S100000x128_S128x10_S100000x10_1_0_0_1_n_n 128 rfl rfl).symm k) = ix2 k j := funext fun a => Fin.ext (by
    match a with
    | ⟨0, _⟩ => exact ((dot_S100000x128_S128x10_S100000x10_1_0_0_1_n_n.rhsIdx_val_of_single rfl (ix2 r j) _).trans hk)
    | ⟨1, _⟩ =>
      show (dot_S100000x128_S128x10_S100000x10_1_0_0_1_n_n.rhsIdx (ix2 r j) _ 1).val = j.val
      unfold DotDims.rhsIdx
      rw [dif_neg (show ¬(1 : Fin S128x10.rank) ∈ dot_S100000x128_S128x10_S100000x10_1_0_0_1_n_n.rhsBatch by decide), dif_pos (show (1 : Fin S128x10.rank) ∈ dot_S100000x128_S128x10_S100000x10_1_0_0_1_n_n.rhsNonContracting by decide)]
      rfl)
  rw [el, er]

theorem dot128_real {X : Arr S100000x128} {W : Arr S128x128} (hX : AllReal X) (hW : AllReal W) : AllReal (dot128 X W) :=
  hX.dotGeneral hW _
theorem dot10_real {X : Arr S100000x128} {W : Arr S128x10} (hX : AllReal X) (hW : AllReal W) : AllReal (dot10 X W) :=
  hX.dotGeneral hW _

/-! ## The combined array -/

theorem conv128_real {H : Arr S100000x128} (hH : AllReal H) (e : IVec S2x1600000 32) {b : Arr S128} (hb : AllReal b) :
    AllReal (conv128 H e b) :=
  ((AllReal.scatterAdd (fun _ => zero_real) ((hH.gather _ _).mulf (((norm_real e).bcast _ _).bcast _ _)) _ _).addf
    (hH.mulf (((dinv2_real e).bcast _ _).bcast _ _))).addf ((hb.bcast _ _).bcast _ _)

theorem conv10_real {H : Arr S100000x10} (hH : AllReal H) (e : IVec S2x1600000 32) {b : Arr S10} (hb : AllReal b) :
    AllReal (conv10 H e b) :=
  ((AllReal.scatterAdd (fun _ => zero_real) ((hH.gather _ _).mulf (((norm_real e).bcast _ _).bcast _ _)) _ _).addf
    (hH.mulf (((dinv2_real e).bcast _ _).bcast _ _))).addf ((hb.bcast _ _).bcast _ _)

/-! ## The column statistics and the normalization -/

/-- The witness that summing a 100000 × 128 array over its rows leaves its 128 columns. -/
theorem colReduces : S100000x128.Reduces [0] S128 := by decide

/-- The row a column sum runs over, at its row number. -/
theorem col_lift (j : Fin 128) (r : Fin 100000) : colReduces.lift (ix1 j) r = ix2 r j := funext fun a => by
  match a with
  | ⟨0, _⟩ => rfl
  | ⟨1, _⟩ => rfl

/-- The host's column sum of an array, from a zero initial value. -/
theorem colsum_apply (X : Arr S100000x128) (j : Fin 128) :
    Host.reduceAdd X (constant S_ .f32 0x00000000#32) reducesTo_S100000x128_S128_d0 h_S_ (ix1 j)
      = ∑ r : Fin 100000, X (ix2 r j) := by
  rw [hostReduceAdd_apply, Ideal.hostReduceAdd_single reducesTo_S100000x128_S128_d0 colReduces, const_apply,
    Ideal.ofBits_zero_f32, zero_add]
  exact Finset.sum_congr rfl fun r _ => congrArg X (col_lift j r)

theorem mean128_apply (C : Arr S100000x128) (j : Fin 128) :
    mean128 C (ix1 j) = Ideal.div (∑ r : Fin 100000, C (ix2 r j)) ((100000 : ℝ) : EReal) := by
  unfold mean128
  rw [hostDivf_apply, colsum_apply, splat_apply, ofBits_rows]

theorem var128_apply (C : Arr S100000x128) (j : Fin 128) :
    var128 C (ix1 j) = Ideal.div (∑ r : Fin 100000, (C (ix2 r j) - mean128 C (ix1 j)) * (C (ix2 r j) - mean128 C (ix1 j)))
      ((100000 : ℝ) : EReal) := by
  unfold var128
  rw [hostDivf_apply, colsum_apply, splat_apply, ofBits_rows]
  have hsum : ∑ r : Fin 100000, mulf (subf C (rows128 (mean128 C))) (subf C (rows128 (mean128 C))) (ix2 r j)
      = ∑ r : Fin 100000, (C (ix2 r j) - mean128 C (ix1 j)) * (C (ix2 r j) - mean128 C (ix1 j)) :=
    Finset.sum_congr rfl fun r _ => by rw [mulf_at, subf_at, rows128_apply]
  rw [hsum]

theorem bnrelu128_apply (C : Arr S100000x128) (γ β : Arr S128) (r : Fin 100000) (j : Fin 128) :
    bnrelu128 C γ β (ix2 r j)
      = max ((γ (ix1 j) * (C (ix2 r j) - mean128 C (ix1 j)))
          * Ideal.rsqrt (var128 C (ix1 j) + Ideal.ofBits .f32 0x3727C5AC#32) + β (ix1 j)) 0 := by
  unfold bnrelu128
  rw [maximumf_at, addf_at, mulf_at, mulf_at, subf_at, rows128_apply, rows128_apply, rows128_apply, rows128_apply,
    hostRsqrt_apply, addf_at, splat_apply, splat_apply, Ideal.ofBits_zero_f32]

end Cert.Stages

end
-- ==== Proof.LayerBridge.lean ====
/-
  From the kernel program's region outputs to the stage functions. A region's product array is the host's matrix
  product; its combined array, on a reshaped bias, is aggregate plus self-loop plus the bias broadcast over the rows;
  its folded normalization, on the scale and shift the host computes from the two accumulated rows, is the
  reference's normalization — this last one for real entries only, where the two variance formulas agree.
-/
import proofs.«113071_j28192165331202_1_alg».proof.Proof.Product0
import proofs.«113071_j28192165331202_1_alg».proof.Proof.Product3
import proofs.«113071_j28192165331202_1_alg».proof.Proof.Product6
import proofs.«113071_j28192165331202_1_alg».proof.Proof.Norm2
import proofs.«113071_j28192165331202_1_alg».proof.Proof.Norm5
import proofs.«113071_j28192165331202_1_alg».proof.Proof.Combine1
import proofs.«113071_j28192165331202_1_alg».proof.Proof.Combine4
import proofs.«113071_j28192165331202_1_alg».proof.Proof.Combine7
import proofs.«113071_j28192165331202_1_alg».proof.Proof.KStages
import proofs.«113071_j28192165331202_1_alg».proof.Proof.StageFacts
import Idealize.ShloMosaic.Lib.ValueLayout

set_option maxRecDepth 16384

noncomputable section

namespace Cert.KernelIdeal.KValue

open Idealize.ShloMosaic Idealize.ShloMosaic.ValueIdx Cert.KernelIdeal Cert.KernelIdeal.Gen Cert.Algebra

local notation "R.S100000x128" => Cert.ReferenceIdeal.S100000x128
local notation "R.S100000x10" => Cert.ReferenceIdeal.S100000x10
local notation "R.S128x128" => Cert.ReferenceIdeal.S128x128
local notation "R.S128x10" => Cert.ReferenceIdeal.S128x10
local notation "R.S128" => Cert.ReferenceIdeal.S128
local notation "R.S10" => Cert.ReferenceIdeal.S10

/-! ## The kernel's host-side forms read at an entry -/

theorem krow_apply (v : KArr S128) (j : Fin 128) : krow v (ix2 (0 : Fin 1) j) = v (ix1 j) :=
  shapeCast_a_1a_apply v _ (0 : Fin 1) j
theorem krow10_apply (v : KArr S10) (j : Fin 10) : krow10 v (ix2 (0 : Fin 1) j) = v (ix1 j) :=
  shapeCast_a_1a_apply v _ (0 : Fin 1) j

theorem kmean_apply (s : KArr S1x128) (j : Fin 128) :
    kmean s (ix1 j) = Ideal.div (s (ix2 (0 : Fin 1) j)) ((100000 : ℝ) : EReal) := by
  unfold kmean krows
  show Ideal.div (shapeCast S128 s shapeCasts_S1x128_S128 (ix1 j)) (Ideal.ofBits .f32 0x47C35000#32) = _
  rw [shapeCast_1a_a_apply, ofBits_rows]

theorem kscale_apply (s q : KArr S1x128) (γ : KArr S128) (j : Fin 128) :
    kscale s q γ (ix1 j) = γ (ix1 j) * Ideal.rsqrt ((Ideal.div (q (ix2 (0 : Fin 1) j)) ((100000 : ℝ) : EReal)
      - kmean s (ix1 j) * kmean s (ix1 j)) + Ideal.ofBits .f32 0x3727C5AC#32) := by
  unfold kscale krows
  show γ (ix1 j) * Ideal.rsqrt ((Ideal.div (shapeCast S128 q shapeCasts_S1x128_S128 (ix1 j)) (Ideal.ofBits .f32 0x47C35000#32)
      - kmean s (ix1 j) * kmean s (ix1 j)) + Ideal.ofBits .f32 0x3727C5AC#32) = _
  rw [shapeCast_1a_a_apply, ofBits_rows]

theorem kshift_apply (s q : KArr S1x128) (γ β : KArr S128) (j : Fin 128) :
    kshift s q γ β (ix1 j) = β (ix1 j) - kmean s (ix1 j) * kscale s q γ (ix1 j) := rfl

/-! ## The products -/

theorem product_bridge_0 (X : Stages.Arr R.S100000x128) (W : Stages.Arr R.S128x128) : productArr0 X W = Stages.dot128 X W := by
  funext i
  obtain ⟨r, j, rfl⟩ : ∃ (r : Fin 100000) (j : Fin 128), i = ix2 r j := ⟨i 0, i 1, eq_ix2 i⟩
  exact (Stages.dot128_apply X W r j).symm
theorem product_bridge_3 (X : Stages.Arr R.S100000x128) (W : Stages.Arr R.S128x128) : productArr3 X W = Stages.dot128 X W := by
  funext i
  obtain ⟨r, j, rfl⟩ : ∃ (r : Fin 100000) (j : Fin 128), i = ix2 r j := ⟨i 0, i 1, eq_ix2 i⟩
  exact (Stages.dot128_apply X W r j).symm
theorem product_bridge_6 (X : Stages.Arr R.S100000x128) (W : Stages.Arr R.S128x10) : productArr6 X W = Stages.dot10 X W := by
  funext i
  obtain ⟨r, j, rfl⟩ : ∃ (r : Fin 100000) (j : Fin 10), i = ix2 r j := ⟨i 0, i 1, eq_ix2 i⟩
  exact (Stages.dot10_apply X W r j).symm

/-! ## The combined arrays -/

theorem combine_bridge_1 (A S : Stages.Arr R.S100000x128) (b : Stages.Arr R.S128) :
    combArr1 A S (krow b) = addf (addf A S) (Stages.rows128 b) := by
  funext i
  obtain ⟨r, j, rfl⟩ : ∃ (r : Fin 100000) (j : Fin 128), i = ix2 r j := ⟨i 0, i 1, eq_ix2 i⟩
  show (A (ix2 r j) + S (ix2 r j)) + krow b (ix2 (0 : Fin 1) j) = (A (ix2 r j) + S (ix2 r j)) + Stages.rows128 b (ix2 r j)
  rw [krow_apply, Stages.rows128_apply]
theorem combine_bridge_4 (A S : Stages.Arr R.S100000x128) (b : Stages.Arr R.S128) :
    combArr4 A S (krow b) = addf (addf A S) (Stages.rows128 b) := by
  funext i
  obtain ⟨r, j, rfl⟩ : ∃ (r : Fin 100000) (j : Fin 128), i = ix2 r j := ⟨i 0, i 1, eq_ix2 i⟩
  show (A (ix2 r j) + S (ix2 r j)) + krow b (ix2 (0 : Fin 1) j) = (A (ix2 r j) + S (ix2 r j)) + Stages.rows128 b (ix2 r j)
  rw [krow_apply, Stages.rows128_apply]
theorem combine_bridge_7 (A S : Stages.Arr R.S100000x10) (b : Stages.Arr R.S10) :
    combArr7 A S (krow10 b) = addf (addf A S) (Stages.rows10 b) := by
  funext i
  obtain ⟨r, j, rfl⟩ : ∃ (r : Fin 100000) (j : Fin 10), i = ix2 r j := ⟨i 0, i 1, eq_ix2 i⟩
  show (A (ix2 r j) + S (ix2 r j)) + krow10 b (ix2 (0 : Fin 1) j) = (A (ix2 r j) + S (ix2 r j)) + Stages.rows10 b (ix2 r j)
  rw [krow10_apply, Stages.rows10_apply]

/-! ## The normalization -/

theorem colSums1_apply (X : Stages.Arr R.S100000x128) (j : Fin 128) :
    colSums1 X (ix2 (0 : Fin 1) j) = ∑ r : Fin 100000, X (ix2 r j) := rfl
theorem colSums4_apply (X : Stages.Arr R.S100000x128) (j : Fin 128) :
    colSums4 X (ix2 (0 : Fin 1) j) = ∑ r : Fin 100000, X (ix2 r j) := rfl

/-- The folded normalization of region 2, on the statistics region 1 accumulated, is the reference's normalization:
    for real entries the mean of squares less the squared mean is the variance, and x · scale + shift is γ (x − μ) ρ + β. -/
theorem norm_bridge_2 (C : Stages.Arr R.S100000x128) (γ β : Stages.Arr R.S128) (hC : AllReal C) (hγ : AllReal γ) (hβ : AllReal β) :
    normArr2 C (krow (kscale (colSums1 C) (colSums1 (fun i => C i * C i)) γ))
        (krow (kshift (colSums1 C) (colSums1 (fun i => C i * C i)) γ β))
      = Stages.bnrelu128 C γ β := by
  funext i
  obtain ⟨r, j, rfl⟩ : ∃ (r : Fin 100000) (j : Fin 128), i = ix2 r j := ⟨i 0, i 1, eq_ix2 i⟩
  rw [Stages.bnrelu128_apply, Stages.var128_apply, Stages.mean128_apply]
  show max (C (ix2 r j) * krow (kscale (colSums1 C) (colSums1 (fun i => C i * C i)) γ) (ix2 (0 : Fin 1) j)
      + krow (kshift (colSums1 C) (colSums1 (fun i => C i * C i)) γ β) (ix2 (0 : Fin 1) j)) 0 = _
  rw [krow_apply, krow_apply, kshift_apply, kscale_apply, kmean_apply, colSums1_apply, colSums1_apply]
  choose cr hcr using fun r' : Fin 100000 => hC (ix2 r' j)
  obtain ⟨g, hg⟩ := hγ (ix1 j)
  obtain ⟨b, hb⟩ := hβ (ix1 j)
  obtain ⟨e, he, heps⟩ := ofBits_eps
  have hn : (Fintype.card (Fin 100000) : ℝ) = 100000 := by simp
  have hpos : (0 : ℝ) < 100000 := by norm_num
  simp only [hcr, hg, hb, heps]
  rw [var_folded cr 100000 hn hpos, var_direct cr 100000 hpos, mean_eq cr 100000 hpos, rstd_eq cr 100000 hpos e he,
    folded_eq cr 100000 g b e (cr r)]

/-- The folded normalization of region 5, on the statistics region 4 accumulated, is the reference's normalization:
    for real entries the mean of squares less the squared mean is the variance, and x · scale + shift is γ (x − μ) ρ + β. -/
theorem norm_bridge_5 (C : Stages.Arr R.S100000x128) (γ β : Stages.Arr R.S128) (hC : AllReal C) (hγ : AllReal γ) (hβ : AllReal β) :
    normArr5 C (krow (kscale (colSums4 C) (colSums4 (fun i => C i * C i)) γ))
        (krow (kshift (colSums4 C) (colSums4 (fun i => C i * C i)) γ β))
      = Stages.bnrelu128 C γ β := by
  funext i
  obtain ⟨r, j, rfl⟩ : ∃ (r : Fin 100000) (j : Fin 128), i = ix2 r j := ⟨i 0, i 1, eq_ix2 i⟩
  rw [Stages.bnrelu128_apply, Stages.var128_apply, Stages.mean128_apply]
  show max (C (ix2 r j) * krow (kscale (colSums4 C) (colSums4 (fun i => C i * C i)) γ) (ix2 (0 : Fin 1) j)
      + krow (kshift (colSums4 C) (colSums4 (fun i => C i * C i)) γ β) (ix2 (0 : Fin 1) j)) 0 = _
  rw [krow_apply, krow_apply, kshift_apply, kscale_apply, kmean_apply, colSums4_apply, colSums4_apply]
  choose cr hcr using fun r' : Fin 100000 => hC (ix2 r' j)
  obtain ⟨g, hg⟩ := hγ (ix1 j)
  obtain ⟨b, hb⟩ := hβ (ix1 j)
  obtain ⟨e, he, heps⟩ := ofBits_eps
  have hn : (Fintype.card (Fin 100000) : ℝ) = 100000 := by simp
  have hpos : (0 : ℝ) < 100000 := by norm_num
  simp only [hcr, hg, hb, heps]
  rw [var_folded cr 100000 hn hpos, var_direct cr 100000 hpos, mean_eq cr 100000 hpos, rstd_eq cr 100000 hpos e he,
    folded_eq cr 100000 g b e (cr r)]

/-- The normalized values are real numbers. -/
theorem bnrelu128_real (C : Stages.Arr R.S100000x128) (γ β : Stages.Arr R.S128) (hC : AllReal C) (hγ : AllReal γ) (hβ : AllReal β) :
    AllReal (Stages.bnrelu128 C γ β) := fun i => by
  obtain ⟨r, j, rfl⟩ : ∃ (r : Fin 100000) (j : Fin 128), i = ix2 r j := ⟨i 0, i 1, eq_ix2 i⟩
  rw [Stages.bnrelu128_apply, Stages.var128_apply, Stages.mean128_apply]
  choose cr hcr using fun r' : Fin 100000 => hC (ix2 r' j)
  obtain ⟨g, hg⟩ := hγ (ix1 j)
  obtain ⟨b, hb⟩ := hβ (ix1 j)
  obtain ⟨e, he, heps⟩ := ofBits_eps
  have hpos : (0 : ℝ) < 100000 := by norm_num
  simp only [hcr, hg, hb, heps]
  rw [var_direct cr 100000 hpos, mean_eq cr 100000 hpos, rstd_eq cr 100000 hpos e he]
  exact normalized_real cr 100000 g b e (cr r)

end Cert.KernelIdeal.KValue

end
-- ==== Proof.KEqR.lean ====
/-
  The kernel program's vocabulary and the reference's name the same things. Both programs were printed from the same
  shapes and dimension numbers, so each kernel-side function is its reference twin; proved one level at a time.
-/
import proofs.«113071_j28192165331202_1_alg».proof.Proof.KStages
import proofs.«113071_j28192165331202_1_alg».proof.Proof.Stages

noncomputable section

namespace Cert.KernelIdeal.KValue

open Idealize.ShloMosaic

theorem ksrc_eq (e : IVec S2x1600000 32) : ksrc e = Cert.Stages.src e := rfl
theorem kdst_eq (e : IVec S2x1600000 32) : kdst e = Cert.Stages.dst e := rfl
theorem kwrap_eq (v : IVec S1600000 32) : kwrap v = Cert.Stages.wrap v := rfl
theorem kdeg_eq (e : IVec S2x1600000 32) : kdeg e = Cert.Stages.deg e := by
  unfold kdeg Cert.Stages.deg
  rw [kdst_eq]
  rfl
theorem kdinv_eq (e : IVec S2x1600000 32) : kdinv e = Cert.Stages.dinv e := by
  unfold kdinv Cert.Stages.dinv
  rw [kdeg_eq]
theorem knorm_eq (e : IVec S2x1600000 32) : knorm e = Cert.Stages.norm e := by
  unfold knorm Cert.Stages.norm
  rw [kdinv_eq, ksrc_eq, kdst_eq, kwrap_eq, kwrap_eq]
  rfl
theorem kdinv2_eq (e : IVec S2x1600000 32) : kdinv2 e = Cert.Stages.dinv2 e := by
  unfold kdinv2 Cert.Stages.dinv2
  rw [kdinv_eq]
theorem kaggOf128_eq (H : KArr S100000x128) (s d : IVec S1600000 32) (n : KArr S1600000) :
    kaggOf128 H s d n = Cert.Stages.aggOf128 H s d n := by
  unfold kaggOf128 Cert.Stages.aggOf128
  rw [kwrap_eq]
  rfl
theorem kselfOf128_eq (H : KArr S100000x128) (d2 : KArr S100000) : kselfOf128 H d2 = Cert.Stages.selfOf128 H d2 := rfl
theorem kaggOf10_eq (H : KArr S100000x10) (s d : IVec S1600000 32) (n : KArr S1600000) :
    kaggOf10 H s d n = Cert.Stages.aggOf10 H s d n := by
  unfold kaggOf10 Cert.Stages.aggOf10
  rw [kwrap_eq]
  rfl
theorem kselfOf10_eq (H : KArr S100000x10) (d2 : KArr S100000) : kselfOf10 H d2 = Cert.Stages.selfOf10 H d2 := rfl

end Cert.KernelIdeal.KValue

end
-- ==== Proof.KernelValue.lean ====
/-
  The kernel program's result, as the network of its argument arrays. Boundary by boundary through the pipeline:
  each product region gives the host's product, each host stretch the aggregate, the self-loop term and the bias row,
  each combine region the combined array and its two rows of column sums, each later host stretch the scale and shift
  rows, each normalize region the layer's output. The last combine region's block output is the network's result.
  The normalize steps hold for real entries, which the precondition provides and every earlier step preserves.
-/
import proofs.«113071_j28192165331202_1_alg».proof.Proof.Host0
import proofs.«113071_j28192165331202_1_alg».proof.Proof.Host1
import proofs.«113071_j28192165331202_1_alg».proof.Proof.Host2
import proofs.«113071_j28192165331202_1_alg».proof.Proof.Host4
import proofs.«113071_j28192165331202_1_alg».proof.Proof.Host5
import proofs.«113071_j28192165331202_1_alg».proof.Proof.Host7
import proofs.«113071_j28192165331202_1_alg».proof.Proof.CarryEdges
import proofs.«113071_j28192165331202_1_alg».proof.Proof.CarryArgs
import proofs.«113071_j28192165331202_1_alg».proof.Proof.LayerBridge
import proofs.«113071_j28192165331202_1_alg».proof.Proof.KEqR

set_option maxRecDepth 16384

noncomputable section

namespace Cert.KernelIdeal.KValue

open Idealize.ShloMosaic Idealize.ShloMosaic.TcCoe Idealize.SL.Sem
open Cert.KernelIdeal Cert.KernelIdeal.Gen Cert.Algebra

variable (m : (ℓ : Loc nD τ sig) → Buf (Elt Ideal) ℓ) (ρ : Dev nD → PrngReg) (c : Dev nD)

/-! ## The edge quantities, at the three boundaries where a host stretch reads them -/

theorem src_at_2 : W2 m ρ c (Proc.devRef .tc main_v1) = Cert.Stages.src (m ((c : Thread nD τ).loc main_arg1)) :=
  (carry_v1_2_1 m ρ c).trans ((h0_src m ρ c).trans (ksrc_eq _))
theorem dst_at_2 : W2 m ρ c (Proc.devRef .tc main_v3) = Cert.Stages.dst (m ((c : Thread nD τ).loc main_arg1)) :=
  (carry_v3_2_1 m ρ c).trans ((h0_dst m ρ c).trans (kdst_eq _))
theorem norm_at_2 : W2 m ρ c (Proc.devRef .tc main_v25) = Cert.Stages.norm (m ((c : Thread nD τ).loc main_arg1)) :=
  (carry_v25_2_1 m ρ c).trans ((h0_norm m ρ c).trans (knorm_eq _))
theorem dinv2_at_2 : W2 m ρ c (Proc.devRef .tc main_v26) = Cert.Stages.dinv2 (m ((c : Thread nD τ).loc main_arg1)) :=
  (carry_v26_2_1 m ρ c).trans ((h0_dinv2 m ρ c).trans (kdinv2_eq _))

theorem src_at_7 : W7 m ρ c (Proc.devRef .tc main_v1) = Cert.Stages.src (m ((c : Thread nD τ).loc main_arg1)) :=
  (carry_v1_7_1 m ρ c).trans ((h0_src m ρ c).trans (ksrc_eq _))
theorem dst_at_7 : W7 m ρ c (Proc.devRef .tc main_v3) = Cert.Stages.dst (m ((c : Thread nD τ).loc main_arg1)) :=
  (carry_v3_7_1 m ρ c).trans ((h0_dst m ρ c).trans (kdst_eq _))
theorem norm_at_7 : W7 m ρ c (Proc.devRef .tc main_v25) = Cert.Stages.norm (m ((c : Thread nD τ).loc main_arg1)) :=
  (carry_v25_7_1 m ρ c).trans ((h0_norm m ρ c).trans (knorm_eq _))
theorem dinv2_at_7 : W7 m ρ c (Proc.devRef .tc main_v26) = Cert.Stages.dinv2 (m ((c : Thread nD τ).loc main_arg1)) :=
  (carry_v26_7_1 m ρ c).trans ((h0_dinv2 m ρ c).trans (kdinv2_eq _))

theorem src_at_12 : W12 m ρ c (Proc.devRef .tc main_v1) = Cert.Stages.src (m ((c : Thread nD τ).loc main_arg1)) :=
  (carry_v1_12_1 m ρ c).trans ((h0_src m ρ c).trans (ksrc_eq _))
theorem dst_at_12 : W12 m ρ c (Proc.devRef .tc main_v3) = Cert.Stages.dst (m ((c : Thread nD τ).loc main_arg1)) :=
  (carry_v3_12_1 m ρ c).trans ((h0_dst m ρ c).trans (kdst_eq _))
theorem norm_at_12 : W12 m ρ c (Proc.devRef .tc main_v25) = Cert.Stages.norm (m ((c : Thread nD τ).loc main_arg1)) :=
  (carry_v25_12_1 m ρ c).trans ((h0_norm m ρ c).trans (knorm_eq _))
theorem dinv2_at_12 : W12 m ρ c (Proc.devRef .tc main_v26) = Cert.Stages.dinv2 (m ((c : Thread nD τ).loc main_arg1)) :=
  (carry_v26_12_1 m ρ c).trans ((h0_dinv2 m ρ c).trans (kdinv2_eq _))

/-! ## Layer 1 -/

/-- The product region's result is the host's product of the layer's input by its weight matrix. -/
theorem mm1  : W2 m ρ c (Proc.devRef .tc main_v27) = (Cert.Stages.dot128 (m ((c : Thread nD τ).loc main_arg0)) (m ((c : Thread nD τ).loc main_arg2))) := by
  refine (W2_arr m ρ c 2).trans ?_
  rw [product_0 (V1 m ρ) c,
    show V1 m ρ c main_arg0 = (m ((c : Thread nD τ).loc main_arg0)) from carry_arg0_1_0 m ρ c,
    show V1 m ρ c main_arg2 = (m ((c : Thread nD τ).loc main_arg2)) from carry_arg2_1_0 m ρ c]
  exact product_bridge_0 _ _

theorem agg1  : W3 m ρ c (Proc.devRef .tc main_v40) = Cert.Stages.agg128 (Cert.Stages.dot128 (m ((c : Thread nD τ).loc main_arg0)) (m ((c : Thread nD τ).loc main_arg2))) (m ((c : Thread nD τ).loc main_arg1)) := by
  rw [h1_agg, mm1 m ρ c , src_at_2, dst_at_2, norm_at_2, kaggOf128_eq]
  rfl
theorem self1  : W3 m ρ c (Proc.devRef .tc main_v43) = Cert.Stages.self128 (Cert.Stages.dot128 (m ((c : Thread nD τ).loc main_arg0)) (m ((c : Thread nD τ).loc main_arg2))) (m ((c : Thread nD τ).loc main_arg1)) := by
  rw [h1_self, mm1 m ρ c , dinv2_at_2, kselfOf128_eq]
  rfl
theorem bias1 : W3 m ρ c (Proc.devRef .tc main_v44) = krow (m ((c : Thread nD τ).loc main_arg3)) := by
  rw [h1_bias, carry_arg3_2_0]

/-- The combine region's block output is the combined array. -/
theorem conv1  : W4 m ρ c (Proc.devRef .tc main_v45_0) = (Cert.Stages.conv128 (Cert.Stages.dot128 (m ((c : Thread nD τ).loc main_arg0)) (m ((c : Thread nD τ).loc main_arg2))) (m ((c : Thread nD τ).loc main_arg1)) (m ((c : Thread nD τ).loc main_arg3))) := by
  refine (W4_arr m ρ c 3).trans ?_
  rw [combined_1 (V3 m ρ) c,
    show V3 m ρ c main_v40 = _ from agg1 m ρ c ,
    show V3 m ρ c main_v43 = _ from self1 m ρ c ,
    show V3 m ρ c main_v44 = _ from bias1 m ρ c]
  exact combine_bridge_1 _ _ _
/-- Its two accumulated rows are the column sums of the combined array and of its squares. -/
theorem sum1  : W4 m ρ c (Proc.devRef .tc main_v45_1) = colSums1 (Cert.Stages.conv128 (Cert.Stages.dot128 (m ((c : Thread nD τ).loc main_arg0)) (m ((c : Thread nD τ).loc main_arg2))) (m ((c : Thread nD τ).loc main_arg1)) (m ((c : Thread nD τ).loc main_arg3))) := by
  refine (W4_arr m ρ c 4).trans ?_
  rw [colsums_1 (V3 m ρ) c,
    show V3 m ρ c main_v40 = _ from agg1 m ρ c ,
    show V3 m ρ c main_v43 = _ from self1 m ρ c ,
    show V3 m ρ c main_v44 = _ from bias1 m ρ c, combine_bridge_1]
  rfl
theorem sq1  : W4 m ρ c (Proc.devRef .tc main_v45_2) = colSums1 (fun i => (Cert.Stages.conv128 (Cert.Stages.dot128 (m ((c : Thread nD τ).loc main_arg0)) (m ((c : Thread nD τ).loc main_arg2))) (m ((c : Thread nD τ).loc main_arg1)) (m ((c : Thread nD τ).loc main_arg3))) i * (Cert.Stages.conv128 (Cert.Stages.dot128 (m ((c : Thread nD τ).loc main_arg0)) (m ((c : Thread nD τ).loc main_arg2))) (m ((c : Thread nD τ).loc main_arg1)) (m ((c : Thread nD τ).loc main_arg3))) i) := by
  refine (W4_arr m ρ c 5).trans ?_
  rw [colsqs_1 (V3 m ρ) c,
    show V3 m ρ c main_v40 = _ from agg1 m ρ c ,
    show V3 m ρ c main_v43 = _ from self1 m ρ c ,
    show V3 m ρ c main_v44 = _ from bias1 m ρ c, combine_bridge_1]
  rfl

theorem scale1  : W5 m ρ c (Proc.devRef .tc main_v60) = krow (kscale (colSums1 (Cert.Stages.conv128 (Cert.Stages.dot128 (m ((c : Thread nD τ).loc main_arg0)) (m ((c : Thread nD τ).loc main_arg2))) (m ((c : Thread nD τ).loc main_arg1)) (m ((c : Thread nD τ).loc main_arg3)))) (colSums1 (fun i => (Cert.Stages.conv128 (Cert.Stages.dot128 (m ((c : Thread nD τ).loc main_arg0)) (m ((c : Thread nD τ).loc main_arg2))) (m ((c : Thread nD τ).loc main_arg1)) (m ((c : Thread nD τ).loc main_arg3))) i * (Cert.Stages.conv128 (Cert.Stages.dot128 (m ((c : Thread nD τ).loc main_arg0)) (m ((c : Thread nD τ).loc main_arg2))) (m ((c : Thread nD τ).loc main_arg1)) (m ((c : Thread nD τ).loc main_arg3))) i)) (m ((c : Thread nD τ).loc main_arg4))) := by
  rw [h2_scale, sum1 m ρ c , sq1 m ρ c , carry_arg4_4_0]
theorem shift1  : W5 m ρ c (Proc.devRef .tc main_v61) = krow (kshift (colSums1 (Cert.Stages.conv128 (Cert.Stages.dot128 (m ((c : Thread nD τ).loc main_arg0)) (m ((c : Thread nD τ).loc main_arg2))) (m ((c : Thread nD τ).loc main_arg1)) (m ((c : Thread nD τ).loc main_arg3)))) (colSums1 (fun i => (Cert.Stages.conv128 (Cert.Stages.dot128 (m ((c : Thread nD τ).loc main_arg0)) (m ((c : Thread nD τ).loc main_arg2))) (m ((c : Thread nD τ).loc main_arg1)) (m ((c : Thread nD τ).loc main_arg3))) i * (Cert.Stages.conv128 (Cert.Stages.dot128 (m ((c : Thread nD τ).loc main_arg0)) (m ((c : Thread nD τ).loc main_arg2))) (m ((c : Thread nD τ).loc main_arg1)) (m ((c : Thread nD τ).loc main_arg3))) i)) (m ((c : Thread nD τ).loc main_arg4)) (m ((c : Thread nD τ).loc main_arg5))) := by
  rw [h2_shift, sum1 m ρ c , sq1 m ρ c , carry_arg4_4_0, carry_arg5_4_0]

/-- The normalize region's result is the layer's output: here the entries must be real numbers. -/
theorem out1 (h0 : AllReal (m ((c : Thread nD τ).loc main_arg0))) (h2 : AllReal (m ((c : Thread nD τ).loc main_arg2))) (h3 : AllReal (m ((c : Thread nD τ).loc main_arg3))) (h4 : AllReal (m ((c : Thread nD τ).loc main_arg4))) (h5 : AllReal (m ((c : Thread nD τ).loc main_arg5))) : W6 m ρ c (Proc.devRef .tc main_v62) = Cert.Stages.hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W6_arr m ρ c 3).trans ?_
  rw [normalized_2 (V5 m ρ) c,
    show V5 m ρ c main_v45_0 = _ from (carry_v45_0_5_4 m ρ c).trans (conv1 m ρ c ),
    show V5 m ρ c main_v60 = _ from scale1 m ρ c ,
    show V5 m ρ c main_v61 = _ from shift1 m ρ c ]
  exact norm_bridge_2 _ _ _ (Cert.Stages.conv128_real (Cert.Stages.dot128_real h0 h2) _ h3) h4 h5

/-! ## Layer 2 -/

/-- The product region's result is the host's product of the layer's input by its weight matrix. -/
theorem mm2 (h0 : AllReal (m ((c : Thread nD τ).loc main_arg0))) (h2 : AllReal (m ((c : Thread nD τ).loc main_arg2))) (h3 : AllReal (m ((c : Thread nD τ).loc main_arg3))) (h4 : AllReal (m ((c : Thread nD τ).loc main_arg4))) (h5 : AllReal (m ((c : Thread nD τ).loc main_arg5))) : W7 m ρ c (Proc.devRef .tc main_v63) = (Cert.Stages.dot128 (Cert.Stages.hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6))) := by
  refine (W7_arr m ρ c 2).trans ?_
  rw [product_3 (V6 m ρ) c,
    show V6 m ρ c main_v62 = (Cert.Stages.hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) from out1 m ρ c h0 h2 h3 h4 h5,
    show V6 m ρ c main_arg6 = (m ((c : Thread nD τ).loc main_arg6)) from carry_arg6_6_0 m ρ c]
  exact product_bridge_3 _ _

theorem agg2 (h0 : AllReal (m ((c : Thread nD τ).loc main_arg0))) (h2 : AllReal (m ((c : Thread nD τ).loc main_arg2))) (h3 : AllReal (m ((c : Thread nD τ).loc main_arg3))) (h4 : AllReal (m ((c : Thread nD τ).loc main_arg4))) (h5 : AllReal (m ((c : Thread nD τ).loc main_arg5))) : W8 m ρ c (Proc.devRef .tc main_v76) = Cert.Stages.agg128 (Cert.Stages.dot128 (Cert.Stages.hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6))) (m ((c : Thread nD τ).loc main_arg1)) := by
  rw [h4_agg, mm2 m ρ c h0 h2 h3 h4 h5, src_at_7, dst_at_7, norm_at_7, kaggOf128_eq]
  rfl
theorem self2 (h0 : AllReal (m ((c : Thread nD τ).loc main_arg0))) (h2 : AllReal (m ((c : Thread nD τ).loc main_arg2))) (h3 : AllReal (m ((c : Thread nD τ).loc main_arg3))) (h4 : AllReal (m ((c : Thread nD τ).loc main_arg4))) (h5 : AllReal (m ((c : Thread nD τ).loc main_arg5))) : W8 m ρ c (Proc.devRef .tc main_v79) = Cert.Stages.self128 (Cert.Stages.dot128 (Cert.Stages.hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6))) (m ((c : Thread nD τ).loc main_arg1)) := by
  rw [h4_self, mm2 m ρ c h0 h2 h3 h4 h5, dinv2_at_7, kselfOf128_eq]
  rfl
theorem bias2 : W8 m ρ c (Proc.devRef .tc main_v80) = krow (m ((c : Thread nD τ).loc main_arg7)) := by
  rw [h4_bias, carry_arg7_7_0]

/-- The combine region's block output is the combined array. -/
theorem conv2 (h0 : AllReal (m ((c : Thread nD τ).loc main_arg0))) (h2 : AllReal (m ((c : Thread nD τ).loc main_arg2))) (h3 : AllReal (m ((c : Thread nD τ).loc main_arg3))) (h4 : AllReal (m ((c : Thread nD τ).loc main_arg4))) (h5 : AllReal (m ((c : Thread nD τ).loc main_arg5))) : W9 m ρ c (Proc.devRef .tc main_v81_0) = (Cert.Stages.conv128 (Cert.Stages.dot128 (Cert.Stages.hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6))) (m ((c : Thread nD τ).loc main_arg1)) (m ((c : Thread nD τ).loc main_arg7))) := by
  refine (W9_arr m ρ c 3).trans ?_
  rw [combined_4 (V8 m ρ) c,
    show V8 m ρ c main_v76 = _ from agg2 m ρ c h0 h2 h3 h4 h5,
    show V8 m ρ c main_v79 = _ from self2 m ρ c h0 h2 h3 h4 h5,
    show V8 m ρ c main_v80 = _ from bias2 m ρ c]
  exact combine_bridge_4 _ _ _
/-- Its two accumulated rows are the column sums of the combined array and of its squares. -/
theorem sum2 (h0 : AllReal (m ((c : Thread nD τ).loc main_arg0))) (h2 : AllReal (m ((c : Thread nD τ).loc main_arg2))) (h3 : AllReal (m ((c : Thread nD τ).loc main_arg3))) (h4 : AllReal (m ((c : Thread nD τ).loc main_arg4))) (h5 : AllReal (m ((c : Thread nD τ).loc main_arg5))) : W9 m ρ c (Proc.devRef .tc main_v81_1) = colSums4 (Cert.Stages.conv128 (Cert.Stages.dot128 (Cert.Stages.hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6))) (m ((c : Thread nD τ).loc main_arg1)) (m ((c : Thread nD τ).loc main_arg7))) := by
  refine (W9_arr m ρ c 4).trans ?_
  rw [colsums_4 (V8 m ρ) c,
    show V8 m ρ c main_v76 = _ from agg2 m ρ c h0 h2 h3 h4 h5,
    show V8 m ρ c main_v79 = _ from self2 m ρ c h0 h2 h3 h4 h5,
    show V8 m ρ c main_v80 = _ from bias2 m ρ c, combine_bridge_4]
  rfl
theorem sq2 (h0 : AllReal (m ((c : Thread nD τ).loc main_arg0))) (h2 : AllReal (m ((c : Thread nD τ).loc main_arg2))) (h3 : AllReal (m ((c : Thread nD τ).loc main_arg3))) (h4 : AllReal (m ((c : Thread nD τ).loc main_arg4))) (h5 : AllReal (m ((c : Thread nD τ).loc main_arg5))) : W9 m ρ c (Proc.devRef .tc main_v81_2) = colSums4 (fun i => (Cert.Stages.conv128 (Cert.Stages.dot128 (Cert.Stages.hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6))) (m ((c : Thread nD τ).loc main_arg1)) (m ((c : Thread nD τ).loc main_arg7))) i * (Cert.Stages.conv128 (Cert.Stages.dot128 (Cert.Stages.hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6))) (m ((c : Thread nD τ).loc main_arg1)) (m ((c : Thread nD τ).loc main_arg7))) i) := by
  refine (W9_arr m ρ c 5).trans ?_
  rw [colsqs_4 (V8 m ρ) c,
    show V8 m ρ c main_v76 = _ from agg2 m ρ c h0 h2 h3 h4 h5,
    show V8 m ρ c main_v79 = _ from self2 m ρ c h0 h2 h3 h4 h5,
    show V8 m ρ c main_v80 = _ from bias2 m ρ c, combine_bridge_4]
  rfl

theorem scale2 (h0 : AllReal (m ((c : Thread nD τ).loc main_arg0))) (h2 : AllReal (m ((c : Thread nD τ).loc main_arg2))) (h3 : AllReal (m ((c : Thread nD τ).loc main_arg3))) (h4 : AllReal (m ((c : Thread nD τ).loc main_arg4))) (h5 : AllReal (m ((c : Thread nD τ).loc main_arg5))) : W10 m ρ c (Proc.devRef .tc main_v96) = krow (kscale (colSums4 (Cert.Stages.conv128 (Cert.Stages.dot128 (Cert.Stages.hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6))) (m ((c : Thread nD τ).loc main_arg1)) (m ((c : Thread nD τ).loc main_arg7)))) (colSums4 (fun i => (Cert.Stages.conv128 (Cert.Stages.dot128 (Cert.Stages.hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6))) (m ((c : Thread nD τ).loc main_arg1)) (m ((c : Thread nD τ).loc main_arg7))) i * (Cert.Stages.conv128 (Cert.Stages.dot128 (Cert.Stages.hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6))) (m ((c : Thread nD τ).loc main_arg1)) (m ((c : Thread nD τ).loc main_arg7))) i)) (m ((c : Thread nD τ).loc main_arg8))) := by
  rw [h5_scale, sum2 m ρ c h0 h2 h3 h4 h5, sq2 m ρ c h0 h2 h3 h4 h5, carry_arg8_9_0]
theorem shift2 (h0 : AllReal (m ((c : Thread nD τ).loc main_arg0))) (h2 : AllReal (m ((c : Thread nD τ).loc main_arg2))) (h3 : AllReal (m ((c : Thread nD τ).loc main_arg3))) (h4 : AllReal (m ((c : Thread nD τ).loc main_arg4))) (h5 : AllReal (m ((c : Thread nD τ).loc main_arg5))) : W10 m ρ c (Proc.devRef .tc main_v97) = krow (kshift (colSums4 (Cert.Stages.conv128 (Cert.Stages.dot128 (Cert.Stages.hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6))) (m ((c : Thread nD τ).loc main_arg1)) (m ((c : Thread nD τ).loc main_arg7)))) (colSums4 (fun i => (Cert.Stages.conv128 (Cert.Stages.dot128 (Cert.Stages.hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6))) (m ((c : Thread nD τ).loc main_arg1)) (m ((c : Thread nD τ).loc main_arg7))) i * (Cert.Stages.conv128 (Cert.Stages.dot128 (Cert.Stages.hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6))) (m ((c : Thread nD τ).loc main_arg1)) (m ((c : Thread nD τ).loc main_arg7))) i)) (m ((c : Thread nD τ).loc main_arg8)) (m ((c : Thread nD τ).loc main_arg9))) := by
  rw [h5_shift, sum2 m ρ c h0 h2 h3 h4 h5, sq2 m ρ c h0 h2 h3 h4 h5, carry_arg8_9_0, carry_arg9_9_0]

/-- The normalize region's result is the layer's output: here the entries must be real numbers. -/
theorem out2 (h0 : AllReal (m ((c : Thread nD τ).loc main_arg0))) (h2 : AllReal (m ((c : Thread nD τ).loc main_arg2))) (h3 : AllReal (m ((c : Thread nD τ).loc main_arg3))) (h4 : AllReal (m ((c : Thread nD τ).loc main_arg4))) (h5 : AllReal (m ((c : Thread nD τ).loc main_arg5))) (h6 : AllReal (m ((c : Thread nD τ).loc main_arg6))) (h7 : AllReal (m ((c : Thread nD τ).loc main_arg7))) (h8 : AllReal (m ((c : Thread nD τ).loc main_arg8))) (h9 : AllReal (m ((c : Thread nD τ).loc main_arg9))) : W11 m ρ c (Proc.devRef .tc main_v98) = Cert.Stages.hidden (Cert.Stages.hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg1)) (m ((c : Thread nD τ).loc main_arg6)) (m ((c : Thread nD τ).loc main_arg7)) (m ((c : Thread nD τ).loc main_arg8)) (m ((c : Thread nD τ).loc main_arg9)) := by
  refine (W11_arr m ρ c 3).trans ?_
  rw [normalized_5 (V10 m ρ) c,
    show V10 m ρ c main_v81_0 = _ from (carry_v81_0_10_9 m ρ c).trans (conv2 m ρ c h0 h2 h3 h4 h5),
    show V10 m ρ c main_v96 = _ from scale2 m ρ c h0 h2 h3 h4 h5,
    show V10 m ρ c main_v97 = _ from shift2 m ρ c h0 h2 h3 h4 h5]
  exact norm_bridge_5 _ _ _ (Cert.Stages.conv128_real (Cert.Stages.dot128_real (bnrelu128_real _ _ _ (Cert.Stages.conv128_real (Cert.Stages.dot128_real h0 h2) _ h3) h4 h5) h6) _ h7) h8 h9

/-! ## Layer 3 -/

theorem mm3 (h0 : AllReal (m ((c : Thread nD τ).loc main_arg0))) (h2 : AllReal (m ((c : Thread nD τ).loc main_arg2))) (h3 : AllReal (m ((c : Thread nD τ).loc main_arg3))) (h4 : AllReal (m ((c : Thread nD τ).loc main_arg4))) (h5 : AllReal (m ((c : Thread nD τ).loc main_arg5))) (h6 : AllReal (m ((c : Thread nD τ).loc main_arg6))) (h7 : AllReal (m ((c : Thread nD τ).loc main_arg7))) (h8 : AllReal (m ((c : Thread nD τ).loc main_arg8))) (h9 : AllReal (m ((c : Thread nD τ).loc main_arg9))) : W12 m ρ c (Proc.devRef .tc main_v99) = (Cert.Stages.dot10 (Cert.Stages.hidden (Cert.Stages.hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg1)) (m ((c : Thread nD τ).loc main_arg6)) (m ((c : Thread nD τ).loc main_arg7)) (m ((c : Thread nD τ).loc main_arg8)) (m ((c : Thread nD τ).loc main_arg9))) (m ((c : Thread nD τ).loc main_arg10))) := by
  refine (W12_arr m ρ c 2).trans ?_
  rw [product_6 (V11 m ρ) c,
    show V11 m ρ c main_v98 = (Cert.Stages.hidden (Cert.Stages.hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg1)) (m ((c : Thread nD τ).loc main_arg6)) (m ((c : Thread nD τ).loc main_arg7)) (m ((c : Thread nD τ).loc main_arg8)) (m ((c : Thread nD τ).loc main_arg9))) from out2 m ρ c h0 h2 h3 h4 h5 h6 h7 h8 h9,
    show V11 m ρ c main_arg10 = (m ((c : Thread nD τ).loc main_arg10)) from carry_arg10_11_0 m ρ c]
  exact product_bridge_6 _ _

theorem agg3 (h0 : AllReal (m ((c : Thread nD τ).loc main_arg0))) (h2 : AllReal (m ((c : Thread nD τ).loc main_arg2))) (h3 : AllReal (m ((c : Thread nD τ).loc main_arg3))) (h4 : AllReal (m ((c : Thread nD τ).loc main_arg4))) (h5 : AllReal (m ((c : Thread nD τ).loc main_arg5))) (h6 : AllReal (m ((c : Thread nD τ).loc main_arg6))) (h7 : AllReal (m ((c : Thread nD τ).loc main_arg7))) (h8 : AllReal (m ((c : Thread nD τ).loc main_arg8))) (h9 : AllReal (m ((c : Thread nD τ).loc main_arg9))) : W13 m ρ c (Proc.devRef .tc main_v112) = Cert.Stages.agg10 (Cert.Stages.dot10 (Cert.Stages.hidden (Cert.Stages.hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg1)) (m ((c : Thread nD τ).loc main_arg6)) (m ((c : Thread nD τ).loc main_arg7)) (m ((c : Thread nD τ).loc main_arg8)) (m ((c : Thread nD τ).loc main_arg9))) (m ((c : Thread nD τ).loc main_arg10))) (m ((c : Thread nD τ).loc main_arg1)) := by
  rw [h7_agg, mm3 m ρ c h0 h2 h3 h4 h5 h6 h7 h8 h9, src_at_12, dst_at_12, norm_at_12, kaggOf10_eq]
  rfl
theorem self3 (h0 : AllReal (m ((c : Thread nD τ).loc main_arg0))) (h2 : AllReal (m ((c : Thread nD τ).loc main_arg2))) (h3 : AllReal (m ((c : Thread nD τ).loc main_arg3))) (h4 : AllReal (m ((c : Thread nD τ).loc main_arg4))) (h5 : AllReal (m ((c : Thread nD τ).loc main_arg5))) (h6 : AllReal (m ((c : Thread nD τ).loc main_arg6))) (h7 : AllReal (m ((c : Thread nD τ).loc main_arg7))) (h8 : AllReal (m ((c : Thread nD τ).loc main_arg8))) (h9 : AllReal (m ((c : Thread nD τ).loc main_arg9))) : W13 m ρ c (Proc.devRef .tc main_v115) = Cert.Stages.self10 (Cert.Stages.dot10 (Cert.Stages.hidden (Cert.Stages.hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg1)) (m ((c : Thread nD τ).loc main_arg6)) (m ((c : Thread nD τ).loc main_arg7)) (m ((c : Thread nD τ).loc main_arg8)) (m ((c : Thread nD τ).loc main_arg9))) (m ((c : Thread nD τ).loc main_arg10))) (m ((c : Thread nD τ).loc main_arg1)) := by
  rw [h7_self, mm3 m ρ c h0 h2 h3 h4 h5 h6 h7 h8 h9, dinv2_at_12, kselfOf10_eq]
  rfl
theorem bias3 : W13 m ρ c (Proc.devRef .tc main_v116) = krow10 (m ((c : Thread nD τ).loc main_arg11)) := by
  rw [h7_bias, carry_arg11_12_0]

/-- The result buffer after the whole pipeline is the network of the argument arrays. -/
theorem result_eq (h0 : AllReal (m ((c : Thread nD τ).loc main_arg0))) (h2 : AllReal (m ((c : Thread nD τ).loc main_arg2))) (h3 : AllReal (m ((c : Thread nD τ).loc main_arg3))) (h4 : AllReal (m ((c : Thread nD τ).loc main_arg4))) (h5 : AllReal (m ((c : Thread nD τ).loc main_arg5))) (h6 : AllReal (m ((c : Thread nD τ).loc main_arg6))) (h7 : AllReal (m ((c : Thread nD τ).loc main_arg7))) (h8 : AllReal (m ((c : Thread nD τ).loc main_arg8))) (h9 : AllReal (m ((c : Thread nD τ).loc main_arg9))) :
    W14 m ρ c (Proc.devRef .tc main_v117_0) = Cert.Stages.network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W14_arr m ρ c 3).trans ?_
  rw [combined_7 (V13 m ρ) c,
    show V13 m ρ c main_v112 = _ from agg3 m ρ c h0 h2 h3 h4 h5 h6 h7 h8 h9,
    show V13 m ρ c main_v115 = _ from self3 m ρ c h0 h2 h3 h4 h5 h6 h7 h8 h9,
    show V13 m ρ c main_v116 = _ from bias3 m ρ c]
  exact combine_bridge_7 _ _ _

end Cert.KernelIdeal.KValue

end
-- ==== Proof.RefBridge.lean ====
/-
  The reference program's result is the network of its argument arrays: its last stage function, unfolded stage by
  stage, is the composition of layer functions that `Stages` spells with the same operations.
-/
import proofs.«113071_j28192165331202_1_alg».proof.Proof.RefReadP
import proofs.«113071_j28192165331202_1_alg».proof.Proof.Stages

noncomputable section

namespace Cert.ReferenceIdeal.RefValue

open Idealize.ShloMosaic Idealize.ShloMosaic.TcCoe Idealize.SL.Sem Cert.ReferenceIdeal Cert.ReferenceIdeal.Gen

set_option maxHeartbeats 400000000 in
/-- The reference's last stage, as a function of the argument arrays, is the network. -/
theorem network_eq (x0 : Cert.Stages.Arr S100000x128) (x1 : IVec S2x1600000 32) (x2 : Cert.Stages.Arr S128x128)
    (x3 x4 x5 : Cert.Stages.Arr S128) (x6 : Cert.Stages.Arr S128x128) (x7 x8 x9 : Cert.Stages.Arr S128)
    (x10 : Cert.Stages.Arr S128x10) (x11 : Cert.Stages.Arr S10) :
    Cert.ReferenceIdeal.ReadP.val_main_v187 (F := Ideal) x0 x1 x2 x3 x4 x5 x6 x7 x8 x9 x10 x11
      = Cert.Stages.network x0 x1 x2 x3 x4 x5 x6 x7 x8 x9 x10 x11 := rfl

/-- The term the reference's run names as its result is the network of the launch contents of the arguments. -/
theorem result_eq (m : (ℓ : Loc nD τ sig) → Buf (Elt Ideal) ℓ) (c : Dev nD) :
    Cert.ReferenceIdeal.ValueP.res_main_v187 (F := Ideal) m c
      = Cert.Stages.network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  (Cert.ReferenceIdeal.ReadP.val_main_v187_eq (F := Ideal) m c).trans (network_eq _ _ _ _ _ _ _ _ _ _ _ _)

end Cert.ReferenceIdeal.RefValue

end
-- ==== Proof.FiniteInputs.lean ====
/-
  The precondition, decoded: it is the conjunction, over the eleven float inputs, of "every entry's absolute value
  is below +inf", so under it every entry of every float input is a real number (neither infinity).
-/
import proofs.«113071_j28192165331202_1_alg».proof.Pre_finite_inputs
import proofs.«113071_j28192165331202_1_alg».proof.Proof.Gen.Pre_finite_inputs
import proofs.«113071_j28192165331202_1_alg».proof.Proof.Algebra
import Idealize.ShloMosaic.Lib.ReduceAll
import Idealize.ShloMosaic.Lib.ValueIdx
import Idealize.ShloMosaic.Lib.Affine

set_option maxRecDepth 16384

noncomputable section

namespace Cert.Pre_finite_inputs.Decode

open Idealize.ShloMosaic Idealize.ShloMosaic.ValueIdx Cert.Pre_finite_inputs Cert.Pre_finite_inputs.Gen Cert.Algebra

instance : Subsingleton S_.Idx := ⟨fun a b => funext fun d => d.elim0⟩

/-- The pattern 0x7F800000 denotes +inf. -/
theorem ofBits_inf : Ideal.ofBits .f32 0x7F800000#32 = ⊤ := by simp [Ideal.ofBits, Ideal.ieee]

/-- An extended real whose absolute value is below +inf is a real number. -/
theorem real_of_abs_lt (x : EReal) (h : max x (-x) < ⊤) : IsReal x := by
  induction x using EReal.rec with
  | bot => simp at h
  | coe r => exact ⟨r, rfl⟩
  | top => simp at h

/-- The elementwise test of the precondition. -/
theorem real_of_test (x : EReal)
    (h : FloatOps.cmpf (F := Ideal) (φ := .f32) .olt (FloatOps.hostAbsf x) (Ideal.ofBits .f32 0x7F800000#32) = 1#1) : IsReal x := by
  rw [ofBits_inf] at h
  change BitVec.ofBool (decide (max x (-x) < (⊤ : EReal))) = 1#1 at h
  refine real_of_abs_lt x ?_
  by_contra hc
  rw [decide_eq_false hc] at h
  exact absurd h (by decide)

/-- One input's test, from its `jnp.all`. -/
theorem real_of_all {s : Shape} {axes : List (Fin s.rank)} (a : FVec Ideal s .f32) (hb : S_.BroadcastsInDim s (![] : Fin 0 → Fin s.rank))
    (hr : s.ReducesTo axes S_) (hu : 0 < S_.numel)
    (e : Host.reduce IntOp.andi (cmpf .olt (Host.absf a) (broadcastInDim s ![] hb (constant S_ .f32 0x7F800000#32))) (constantI S_ 1 1#1) hr hu ix0 = 1#1)
    (i : s.Idx) : IsReal (a i) :=
  real_of_test (a i) (Host.reduce_andi_all _ _ hr hu ix0 e i)

/-- Under the precondition every entry of every float input is a real number. -/
theorem inputs_real (a0 : FVec Ideal S100000x128 .f32) (a1 : IVec S2x1600000 32) (a2 : FVec Ideal S128x128 .f32)
    (a3 a4 a5 : FVec Ideal S128 .f32) (a6 : FVec Ideal S128x128 .f32) (a7 a8 a9 : FVec Ideal S128 .f32)
    (a10 : FVec Ideal S128x10 .f32) (a11 : FVec Ideal S10 .f32)
    (h : fn (F := Ideal) a0 a1 a2 a3 a4 a5 a6 a7 a8 a9 a10 a11 = fun _ => 1#1) :
    (∀ i, IsReal (a0 i)) ∧ (∀ i, IsReal (a2 i)) ∧ (∀ i, IsReal (a3 i)) ∧ (∀ i, IsReal (a4 i)) ∧ (∀ i, IsReal (a5 i))
      ∧ (∀ i, IsReal (a6 i)) ∧ (∀ i, IsReal (a7 i)) ∧ (∀ i, IsReal (a8 i)) ∧ (∀ i, IsReal (a9 i))
      ∧ (∀ i, IsReal (a10 i)) ∧ (∀ i, IsReal (a11 i)) := by
  have h0 := congrFun h ix0
  dsimp only [fn, fn_part1, fn_part2, fn_part3] at h0
  obtain ⟨h0, e11⟩ := IntOp.andi_eq_one.mp h0
  obtain ⟨h0, e10⟩ := IntOp.andi_eq_one.mp h0
  obtain ⟨h0, e9⟩ := IntOp.andi_eq_one.mp h0
  obtain ⟨h0, e8⟩ := IntOp.andi_eq_one.mp h0
  obtain ⟨h0, e7⟩ := IntOp.andi_eq_one.mp h0
  obtain ⟨h0, e6⟩ := IntOp.andi_eq_one.mp h0
  obtain ⟨h0, e5⟩ := IntOp.andi_eq_one.mp h0
  obtain ⟨h0, e4⟩ := IntOp.andi_eq_one.mp h0
  obtain ⟨h0, e3⟩ := IntOp.andi_eq_one.mp h0
  obtain ⟨e0, e2⟩ := IntOp.andi_eq_one.mp h0
  exact ⟨real_of_all a0 _ _ _ e0, real_of_all a2 _ _ _ e2, real_of_all a3 _ _ _ e3, real_of_all a4 _ _ _ e4,
    real_of_all a5 _ _ _ e5, real_of_all a6 _ _ _ e6, real_of_all a7 _ _ _ e7, real_of_all a8 _ _ _ e8,
    real_of_all a9 _ _ _ e9, real_of_all a10 _ _ _ e10, real_of_all a11 _ _ _ e11⟩

end Cert.Pre_finite_inputs.Decode

end
-- ==== Proof.lean ====
/-
  The certificate of the three-layer graph convolution network: a Pallas pipeline of eight grid regions (three matrix
  products, three combine kernels that also accumulate column sums, two normalize kernels) between stretches of host
  operations, against a plain reference. Both programs, read over the extended reals, compute the same network of the
  twelve argument arrays: each layer multiplies by a weight matrix, aggregates rows along the graph's edges with
  degree normalization, adds a self-loop term and a bias, and the two hidden layers normalize every column by its mean
  and variance, scale, shift and cut below at zero.
  The two programs differ in the variance — mean of squares less squared mean against mean of squared deviations — and
  in the form of the normalization — x · scale + shift against γ (x − μ) ρ + β. These agree for real entries, not at
  infinities; the precondition makes every float input real, and every operation up to each normalization keeps
  entries real (the degrees are one plus a count, so their reciprocal roots are positive reals).
  The frames of the two kernel programs are the generated ones; the reference's frame is its run with the result
  dropped; the idealization rewrote nothing.
-/
import proofs.«113071_j28192165331202_1_alg».proof.Defs
import proofs.«113071_j28192165331202_1_alg».proof.Proof.Gen.Kernel
import proofs.«113071_j28192165331202_1_alg».proof.Proof.Gen.Kernel.Frame
import proofs.«113071_j28192165331202_1_alg».proof.Proof.Gen.KernelIdeal
import proofs.«113071_j28192165331202_1_alg».proof.Proof.Gen.KernelIdeal.Frame
import proofs.«113071_j28192165331202_1_alg».proof.Proof.Gen.ReferenceIdeal
import proofs.«113071_j28192165331202_1_alg».proof.Proof.Gen.Pre_finite_inputs
import proofs.«113071_j28192165331202_1_alg».proof.Proof.KernelRun
import proofs.«113071_j28192165331202_1_alg».proof.Proof.KernelValue
import proofs.«113071_j28192165331202_1_alg».proof.Proof.RefBridge
import proofs.«113071_j28192165331202_1_alg».proof.Proof.FiniteInputs
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.ValueP.run (F := Ideal) m ρ)

/-- Both idealized programs end with the network of the argument arrays in their result buffers. -/
theorem algebraic : Cert.algebraic_KernelIdeal_ReferenceIdeal := by
  intro m ρ m' ρ' hpre hagree
  refine ⟨fun c => Cert.Stages.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · refine (θ_run Cert.KernelIdeal.defs _ _).mono (fun r h c => ⟨(h c).1.trans ?_, (h c).2⟩)
      (Cert.KernelIdeal.KValue.run_named (F := Ideal) m ρ)
    obtain ⟨h0, h2, h3, h4, h5, h6, h7, h8, h9, -, -⟩ := Cert.Pre_finite_inputs.Decode.inputs_real _ _ _ _ _ _ _ _ _ _ _ _ (hpre c)
    exact Cert.KernelIdeal.KValue.result_eq m ρ c h0 h2 h3 h4 h5 h6 h7 h8 h9
  · refine (θ_run Cert.ReferenceIdeal.defs _ _).mono (fun r h c => ⟨(h c).1.trans ?_, (h c).2⟩)
      (Cert.ReferenceIdeal.ValueP.run (F := Ideal) m' ρ')
    rw [Cert.ReferenceIdeal.RefValue.result_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2.1, (hagree c).2.2.2.2.2.2.2.2.2.1, (hagree c).2.2.2.2.2.2.2.2.2.2.1,
      (hagree c).2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
